-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S256x128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_v33

def fn {F : FTy → Type} [FloatOps F] (main_arg0 : FVec F S50000x256 .f32) (main_arg1 : IVec S2x800000 32) (main_arg2 : FVec F S800000 .f32) (main_arg3 : FVec F S256x256 .f32) (main_arg4 : FVec F S256 .f32) (main_arg5 : FVec F S256x256 .f32) (main_arg6 : FVec F S256 .f32) (main_arg7 : FVec F S256x128 .f32) (main_arg8 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x256 : Shape := ⟨2, ![2000, 256]⟩
abbrev S800000x256 : Shape := ⟨2, ![800000, 256]⟩
abbrev S1x256 : Shape := ⟨2, ![1, 256]⟩
abbrev S2000x1 : Shape := ⟨2, ![2000, 1]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩

abbrev nBuf : Space → Nat
  | .hbm => 130
  | .vmem => 57
  | .smem => 0
  | _ => 0

abbrev hbmTy0_0 (i : Nat) : BufTy := match i % 128 with
  | 0 => ⟨S50000x256, .f32⟩
  | 1 => ⟨S2x800000, .i32⟩
  | 2 => ⟨S800000, .f32⟩
  | 3 => ⟨S256x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000x1, .f32⟩
  | 23 => ⟨S_, .f32⟩
  | 24 => ⟨S50000, .f32⟩
  | 25 => ⟨S800000x1, .i32⟩
  | 26 => ⟨S50000, .f32⟩
  | 27 => ⟨S_, .f32⟩
  | 28 => ⟨S50000, .f32⟩
  | 29 => ⟨S50000, .f32⟩
  | 30 => ⟨S50000x1, .f32⟩
  | 31 => ⟨S50000x256, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x256, .f32⟩
  | 41 => ⟨S_, .f32⟩
  | 42 => ⟨S50000x256, .f32⟩
  | 43 => ⟨S800000x1, .i32⟩
  | 44 => ⟨S50000x256, .f32⟩
  | 45 => ⟨S_, .f32⟩
  | 46 => ⟨S256, .f32⟩
  | 47 => ⟨S1x256, .f32⟩
  | 48 => ⟨S50000x256, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x256, .f32⟩
  | 58 => ⟨S_, .f32⟩
  | 59 => ⟨S50000x256, .f32⟩
  | 60 => ⟨S800000x1, .i32⟩
  | 61 => ⟨S50000x256, .f32⟩
  | 62 => ⟨S1x256, .f32⟩
  | 63 => ⟨S50000x256, .f32⟩
  | 64 => ⟨S50000x256, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x256, .f32⟩
  | 74 => ⟨S_, .f32⟩
  | 75 => ⟨S50000x256, .f32⟩
  | 76 => ⟨S800000x1, .i32⟩
  | 77 => ⟨S50000x256, .f32⟩
  | 78 => ⟨S_, .f32⟩
  | 79 => ⟨S256, .f32⟩
  | 80 => ⟨S1x256, .f32⟩
  | 81 => ⟨S50000x256, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x256, .f32⟩
  | 91 => ⟨S_, .f32⟩
  | 92 => ⟨S50000x256, .f32⟩
  | 93 => ⟨S800000x1, .i32⟩
  | 94 => ⟨S50000x256, .f32⟩
  | 95 => ⟨S1x256, .f32⟩
  | 96 => ⟨S50000x256, .f32⟩
  | 97 => ⟨S50000x128, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S_, .f32⟩
  | 112 => ⟨S128, .f32⟩
  | 113 => ⟨S1x128, .f32⟩
  | 114 => ⟨S50000x128, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S_, .f32⟩
  | 125 => ⟨S50000x128, .f32⟩
  | 126 => ⟨S800000x1, .i32⟩
  | 127 => ⟨S50000x128, .f32⟩
  | _ => ⟨S50000x256, .f32⟩

abbrev hbmTy0_1 (i : Nat) : BufTy := match i % 128 with
  | 0 => ⟨S1x128, .f32⟩
  | 1 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x1, .f32⟩
  | .local _ .vmem, ⟨8, _⟩ => ⟨S2000x1, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x1, .f32⟩
  | .local _ .vmem, ⟨15, _⟩ => ⟨S2000x1, .f32⟩
  | .local _ .vmem, ⟨16, _⟩ => ⟨S1x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S256x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x1, .f32⟩
  | .local _ .vmem, ⟨27, _⟩ => ⟨S2000x1, .f32⟩
  | .local _ .vmem, ⟨28, _⟩ => ⟨S1x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x1, .f32⟩
  | .local _ .vmem, ⟨34, _⟩ => ⟨S2000x1, .f32⟩
  | .local _ .vmem, ⟨35, _⟩ => ⟨S1x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S256x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x1, .f32⟩
  | .local _ .vmem, ⟨46, _⟩ => ⟨S2000x1, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x1, .f32⟩
  | .local _ .vmem, ⟨53, _⟩ => ⟨S2000x1, .f32⟩
  | .local _ .vmem, ⟨54, _⟩ => ⟨S1x128, .f32⟩
  | .local _ .vmem, ⟨55, _⟩ => ⟨S2000x128, .f32⟩
  | .local _ .vmem, ⟨56, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_c_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_14 : Ref sig .tc := ⟨.hbm, 82, rfl⟩
abbrev main_v57 : Ref sig .tc := ⟨.hbm, 83, rfl⟩
abbrev main_v58 : Ref sig .tc := ⟨.hbm, 84, rfl⟩
abbrev main_c_15 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_16 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_17 : Ref sig .tc := ⟨.hbm, 98, rfl⟩
abbrev main_v70 : Ref sig .tc := ⟨.hbm, 99, rfl⟩
abbrev main_v71 : Ref sig .tc := ⟨.hbm, 100, rfl⟩
abbrev main_c_18 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_19 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_20 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_21 : Ref sig .tc := ⟨.hbm, 115, rfl⟩
abbrev main_v83 : Ref sig .tc := ⟨.hbm, 116, rfl⟩
abbrev main_v84 : Ref sig .tc := ⟨.hbm, 117, rfl⟩
abbrev main_c_22 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_23 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg1_1 : Ref sig .tc := ⟨.vmem, 46, rfl⟩
abbrev cc7_stg2_0 : Ref sig .tc := ⟨.vmem, 47, rfl⟩
abbrev cc7_stg3_0 : Ref sig .tc := ⟨.vmem, 48, rfl⟩
abbrev cc7_stg3_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg3_0 : Ref sig .tc := ⟨.vmem, 55, rfl⟩
abbrev cc8_stg3_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem1_1 : DmaSem sig := 46
abbrev cc7_sem2_0 : DmaSem sig := 47
abbrev cc7_sem3_0 : DmaSem sig := 48
abbrev cc7_sem3_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem3_0 : DmaSem sig := 55
abbrev cc8_sem3_1 : DmaSem sig := 56

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S50000x256 : S_.BroadcastsInDim S50000x256 (![] : Fin 0 → Fin S50000x256.rank)
  bcast_S_S256 : S_.BroadcastsInDim S256 (![] : Fin 0 → Fin S256.rank)
  shapeCasts_S256_S1x256 : S256.ShapeCasts S1x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S_S128 : S_.BroadcastsInDim S128 (![] : Fin 0 → Fin S128.rank)
  shapeCasts_S128_S1x128 : S128.ShapeCasts S1x128
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S50000x256.size a
  hwx4_3 : ∀ i : grid4.Coords, EltTy.bits .f32 = 32 ∨ (Rect.block (s := S50000x256) S2000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S50000x256.size a
  hwx5_3 : ∀ i : grid5.Coords, EltTy.bits .f32 = 32 ∨ (Rect.block (s := S50000x256) S2000x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S50000x1.size a
  hwx7_1 : ∀ i : grid7.Coords, EltTy.bits .f32 = 32 ∨ (Rect.block (s := S50000x1) S2000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .f32 = 32 ∨ (Rect.block (s := S50000x128) S2000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x1.size a ≤ S50000x1.size a
  hwx8_1 : ∀ i : grid8.Coords, EltTy.bits .f32 = 32 ∨ (Rect.block (s := S50000x1) S2000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x128.size a ≤ S50000x128.size a
  hwx8_3 : ∀ i : grid8.Coords, EltTy.bits .f32 = 32 ∨ (Rect.block (s := S50000x128) S2000x128.size (cc8_transform_3 i) (hinb8_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v53) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v56) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v66) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v67) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S2000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v68) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v69) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v79) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v16) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v81) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v82) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v92) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v10) S2000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v93) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v94) S2000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 163
  | .vmem => 0
  | .smem => 0
  | _ => 0

abbrev hbmTy0_0 (i : Nat) : BufTy := match i % 128 with
  | 0 => ⟨S50000x256, .f32⟩
  | 1 => ⟨S2x800000, .i32⟩
  | 2 => ⟨S800000, .f32⟩
  | 3 => ⟨S256x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000x1, .f32⟩
  | 23 => ⟨S_, .f32⟩
  | 24 => ⟨S50000, .f32⟩
  | 25 => ⟨S800000x1, .i32⟩
  | 26 => ⟨S50000, .f32⟩
  | 27 => ⟨S_, .f32⟩
  | 28 => ⟨S50000, .f32⟩
  | 29 => ⟨S50000, .f32⟩
  | 30 => ⟨S50000x1, .f32⟩
  | 31 => ⟨S50000x256, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x256, .f32⟩
  | 41 => ⟨S_, .f32⟩
  | 42 => ⟨S50000x256, .f32⟩
  | 43 => ⟨S800000x1, .i32⟩
  | 44 => ⟨S50000x256, .f32⟩
  | 45 => ⟨S50000x256, .f32⟩
  | 46 => ⟨S50000x256, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x256, .f32⟩
  | 56 => ⟨S_, .f32⟩
  | 57 => ⟨S50000x256, .f32⟩
  | 58 => ⟨S800000x1, .i32⟩
  | 59 => ⟨S50000x256, .f32⟩
  | 60 => ⟨S50000x256, .f32⟩
  | 61 => ⟨S50000x256, .f32⟩
  | 62 => ⟨S1x256, .f32⟩
  | 63 => ⟨S50000x256, .f32⟩
  | 64 => ⟨S50000x256, .f32⟩
  | 65 => ⟨S_, .f32⟩
  | 66 => ⟨S50000x256, .f32⟩
  | 67 => ⟨S50000x256, .i1⟩
  | 68 => ⟨S_, .f32⟩
  | 69 => ⟨S50000x256, .f32⟩
  | 70 => ⟨S50000x256, .i1⟩
  | 71 => ⟨S_, .f32⟩
  | 72 => ⟨S_, .f32⟩
  | 73 => ⟨S50000x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S50000x256, .f32⟩
  | 80 => ⟨S50000x256, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x256, .f32⟩
  | 90 => ⟨S_, .f32⟩
  | 91 => ⟨S50000x256, .f32⟩
  | 92 => ⟨S800000x1, .i32⟩
  | 93 => ⟨S50000x256, .f32⟩
  | 94 => ⟨S50000x256, .f32⟩
  | 95 => ⟨S50000x256, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x256, .f32⟩
  | 105 => ⟨S_, .f32⟩
  | 106 => ⟨S50000x256, .f32⟩
  | 107 => ⟨S800000x1, .i32⟩
  | 108 => ⟨S50000x256, .f32⟩
  | 109 => ⟨S50000x256, .f32⟩
  | 110 => ⟨S50000x256, .f32⟩
  | 111 => ⟨S1x256, .f32⟩
  | 112 => ⟨S50000x256, .f32⟩
  | 113 => ⟨S50000x256, .f32⟩
  | 114 => ⟨S_, .f32⟩
  | 115 => ⟨S50000x256, .f32⟩
  | 116 => ⟨S50000x256, .i1⟩
  | 117 => ⟨S_, .f32⟩
  | 118 => ⟨S50000x256, .f32⟩
  | 119 => ⟨S50000x256, .i1⟩
  | 120 => ⟨S_, .f32⟩
  | 121 => ⟨S_, .f32⟩
  | 122 => ⟨S50000x256, .f32⟩
  | 123 => ⟨S50000x256, .f32⟩
  | 124 => ⟨S50000x256, .f32⟩
  | 125 => ⟨S_, .f32⟩
  | 126 => ⟨S50000x256, .f32⟩
  | 127 => ⟨S50000x256, .f32⟩
  | _ => ⟨S50000x256, .f32⟩

abbrev hbmTy0_1 (i : Nat) : BufTy := match i % 128 with
  | 0 => ⟨S50000x256, .f32⟩
  | 1 => ⟨S50000x128, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S50000x128, .f32⟩
  | 16 => ⟨S50000x128, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_cst_0 : Ref sig .tc := ⟨.hbm, 68, rfl⟩
abbrev main_call0_v2 : Ref sig .tc := ⟨.hbm, 69, rfl⟩
abbrev main_call0_v3 : Ref sig .tc := ⟨.hbm, 70, rfl⟩
abbrev main_call0_cst_1 : Ref sig .tc := ⟨.hbm, 71, rfl⟩
abbrev main_call0_call0_v0 : Ref sig .tc := ⟨.hbm, 72, rfl⟩
abbrev main_call0_call0_v1 : Ref sig .tc := ⟨.hbm, 73, rfl⟩
abbrev main_call0_v4 : Ref sig .tc := ⟨.hbm, 74, rfl⟩
abbrev main_call0_v5 : Ref sig .tc := ⟨.hbm, 75, rfl⟩
abbrev main_call0_cst_2 : Ref sig .tc := ⟨.hbm, 76, rfl⟩
abbrev main_call0_v6 : Ref sig .tc := ⟨.hbm, 77, rfl⟩
abbrev main_call0_v7 : Ref sig .tc := ⟨.hbm, 78, rfl⟩
abbrev main_v45 : Ref sig .tc := ⟨.hbm, 79, rfl⟩
abbrev main_v46 : Ref sig .tc := ⟨.hbm, 80, rfl⟩
abbrev main_c_9 : Ref sig .tc := ⟨.hbm, 81, rfl⟩
abbrev main_v47 : Ref sig .tc := ⟨.hbm, 82, rfl⟩
abbrev main_v48 : Ref sig .tc := ⟨.hbm, 83, rfl⟩
abbrev main_c_10 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_11 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_c_12 : Ref sig .tc := ⟨.hbm, 96, rfl⟩
abbrev main_v59 : Ref sig .tc := ⟨.hbm, 97, rfl⟩
abbrev main_v60 : Ref sig .tc := ⟨.hbm, 98, rfl⟩
abbrev main_c_13 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_14 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_call1_cst : Ref sig .tc := ⟨.hbm, 114, rfl⟩
abbrev main_call1_v0 : Ref sig .tc := ⟨.hbm, 115, rfl⟩
abbrev main_call1_v1 : Ref sig .tc := ⟨.hbm, 116, rfl⟩
abbrev main_call1_cst_0 : Ref sig .tc := ⟨.hbm, 117, rfl⟩
abbrev main_call1_v2 : Ref sig .tc := ⟨.hbm, 118, rfl⟩
abbrev main_call1_v3 : Ref sig .tc := ⟨.hbm, 119, rfl⟩
abbrev main_call1_cst_1 : Ref sig .tc := ⟨.hbm, 120, rfl⟩
abbrev main_call1_call0_v0 : Ref sig .tc := ⟨.hbm, 121, rfl⟩
abbrev main_call1_call0_v1 : Ref sig .tc := ⟨.hbm, 122, rfl⟩
abbrev main_call1_v4 : Ref sig .tc := ⟨.hbm, 123, rfl⟩
abbrev main_call1_v5 : Ref sig .tc := ⟨.hbm, 124, rfl⟩
abbrev main_call1_cst_2 : Ref sig .tc := ⟨.hbm, 125, rfl⟩
abbrev main_call1_v6 : Ref sig .tc := ⟨.hbm, 126, rfl⟩
abbrev main_call1_v7 : Ref sig .tc := ⟨.hbm, 127, rfl⟩
abbrev main_v74 : Ref sig .tc := ⟨.hbm, 128, rfl⟩
abbrev main_v75 : Ref sig .tc := ⟨.hbm, 129, rfl⟩
abbrev main_c_15 : Ref sig .tc := ⟨.hbm, 130, rfl⟩
abbrev main_v76 : Ref sig .tc := ⟨.hbm, 131, rfl⟩
abbrev main_v77 : Ref sig .tc := ⟨.hbm, 132, rfl⟩
abbrev main_c_16 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_17 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_c_18 : Ref sig .tc := ⟨.hbm, 145, rfl⟩
abbrev main_v88 : Ref sig .tc := ⟨.hbm, 146, rfl⟩
abbrev main_v89 : Ref sig .tc := ⟨.hbm, 147, rfl⟩
abbrev main_c_19 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_cst_20 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KRun.lean ====
/-
  The idealized kernel's run with its result named: every weakly fair execution of @main ends with the result
  buffer at the contents the last region leaves (the last boundary valuation of the segment fold, read at the result
  buffer) and the argument arrays as launched. The segments, their proof data and the boundary valuations are the
  generated frame's; only the final read-off differs, which also keeps the result buffer.
-/
import proofs.«110701_j74509092651627_1_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the sixteen segments from the launch memory: the result buffer ends at the last boundary's contents,
    every argument as launched. -/
theorem run : θ_run defs (onTc (τ := τ) (main (F := F))) ⟨m, fun _ => 0, ρ⟩ (fun r => ∀ c : Dev nD,
      r.2.mem ((c.tc : Thread nD τ).loc main_v94) = W16 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v94 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c)⟩)

end Cert.KRun

end
-- ==== Proof.Spec.lean ====
/-
  The two programs' common vocabulary, at the ideal instance (floats are extended reals).

  A hypergraph convolution layer over N = 50000 nodes, N hyperedges and E = 800000 incidences (node v(e), hyperedge h(e)):
  project the node features (x · W), sum the projected rows of the nodes of each hyperedge and divide by the hyperedge's
  degree, sum those rows over the hyperedges of each node, divide by the node's degree and add the bias. A degree is the
  number of incidences, at least 1. Three layers, the first two followed by ELU (x for x > 0, exp x - 1 otherwise).

  The stages are written here once, as the host operations the reference applies (`dense`, `agg`, `norm`, `bias`, `elu`),
  and `out` is their composition: the function of the argument arrays both programs are shown to compute.
-/
import proofs.«110701_j74509092651627_1_alg».proof.Proof.Gen.KernelIdeal
import proofs.«110701_j74509092651627_1_alg».proof.Proof.Gen.ReferenceIdeal
import Idealize.ShloMosaic.PureOps.Ideal
import Idealize.ShloMosaic.Lib.ValueIdx

noncomputable section

namespace Cert.Spec

open Idealize.ShloMosaic Cert.ReferenceIdeal Cert.ReferenceIdeal.Facts₀

/-- A float array of shape `S` at the ideal instance. -/
abbrev FA (S : Shape) : Type := FVec Ideal S .f32
/-- An array of 32-bit words of shape `S`. -/
abbrev IA (S : Shape) : Type := IVec S 32

/-- Row 0 of the incidence list: the node of each incidence. -/
def vi (e : (IA S2x800000)) : (IA S800000) :=
  shapeCast S800000 (extractStridedSlice S1x800000 ![0, 0] e slices_S2x800000_S1x800000_0_0) shapeCasts_S1x800000_S800000

/-- Row 1 of the incidence list: the hyperedge of each incidence. -/
def hi (e : (IA S2x800000)) : (IA S800000) :=
  shapeCast S800000 (extractStridedSlice S1x800000 ![1, 0] e slices_S2x800000_S1x800000_1_0) shapeCasts_S1x800000_S800000

/-- An index vector as an [E, 1] column of start indices. -/
def col (v : (IA S800000)) : (IA S800000x1) := broadcastInDim S800000x1 ![0] bcast_S800000_S800000x1_0 v

/-- A negative index counted from the end: select(v < 0, v + N, v). -/
def wrap (v : (IA S800000)) : (IA S800000) :=
  select (cmpi .slt v (broadcastInDim S800000 ![] bcast_S_S800000 (constantI S_ 32 0#32)))
    (addi v (broadcastInDim S800000 ![] bcast_S_S800000 (constantI S_ 32 50000#32))) v

/-- The degree column: the number of incidences landing on each row, at least 1. -/
def degree (v : (IA S800000)) : (FA S50000x1) :=
  broadcastInDim S50000x1 ![0] bcast_S50000_S50000x1_0
    (maximumf
      (Host.scatterAdd scatter_S50000_S800000x1_S800000_n_0_0_1
        (broadcastInDim S50000 ![] bcast_S_S50000 (constant (F := Ideal) S_ .f32 0x00000000#32)) (col v)
        (broadcastInDim S800000 ![] bcast_S_S800000 (constant (F := Ideal) S_ .f32 0x3F800000#32)))
      (broadcastInDim S50000 ![] bcast_S_S50000 (constant (F := Ideal) S_ .f32 0x3F800000#32)))

/-- Rows of `x` gathered at `src` and summed into the rows `dst` names (256 columns). -/
def agg256 (src dst : (IA S800000)) (x : (FA S50000x256)) : (FA S50000x256) :=
  Host.scatterAdd scatter_S50000x256_S800000x1_S800000x256_1_0_0_1
    (broadcastInDim S50000x256 ![] bcast_S_S50000x256 (constant (F := Ideal) S_ .f32 0x00000000#32)) (col dst)
    (Host.gather gather_S50000x256_S800000x1_S800000x256_1_0_n_n_0_1_1256 x (col (wrap src)))

/-- Rows of `x` gathered at `src` and summed into the rows `dst` names (128 columns). -/
def agg128 (src dst : (IA S800000)) (x : (FA S50000x128)) : (FA S50000x128) :=
  Host.scatterAdd scatter_S50000x128_S800000x1_S800000x128_1_0_0_1
    (broadcastInDim S50000x128 ![] bcast_S_S50000x128 (constant (F := Ideal) S_ .f32 0x00000000#32)) (col dst)
    (Host.gather gather_S50000x128_S800000x1_S800000x128_1_0_n_n_0_1_1128 x (col (wrap src)))

/-- The projection x · W, 256 → 256. -/
def dense256 (x : (FA S50000x256)) (w : (FA S256x256)) : (FA S50000x256) :=
  Host.dotGeneral (F := Ideal) dot_S50000x256_S256x256_S50000x256_1_0_0_1_n_n none x w

/-- The projection x · W, 256 → 128. -/
def dense128 (x : (FA S50000x256)) (w : (FA S256x128)) : (FA S50000x128) :=
  Host.dotGeneral (F := Ideal) dot_S50000x256_S256x128_S50000x128_1_0_0_1_n_n none x w

/-- Each row divided by its degree (256 columns). -/
def norm256 (xr : (FA S50000x256)) (deg : (FA S50000x1)) : (FA S50000x256) :=
  Host.divf (F := Ideal) xr (broadcastInDim S50000x256 ![0, 1] bcast_S50000x1_S50000x256_0_1 deg)

/-- Each row divided by its degree (128 columns). -/
def norm128 (xr : (FA S50000x128)) (deg : (FA S50000x1)) : (FA S50000x128) :=
  Host.divf (F := Ideal) xr (broadcastInDim S50000x128 ![0, 1] bcast_S50000x1_S50000x128_0_1 deg)

/-- The bias added to every row (256 columns). -/
def bias256 (y : (FA S50000x256)) (b : (FA S256)) : (FA S50000x256) :=
  addf y (broadcastInDim S50000x256 ![0, 1] bcast_S1x256_S50000x256_0_1 (broadcastInDim S1x256 ![1] bcast_S256_S1x256_1 b))

/-- The bias added to every row (128 columns). -/
def bias128 (y : (FA S50000x128)) (b : (FA S128)) : (FA S50000x128) :=
  addf y (broadcastInDim S50000x128 ![0, 1] bcast_S1x128_S50000x128_0_1 (broadcastInDim S1x128 ![1] bcast_S128_S1x128_1 b))

/-- ELU as the reference spells it: select(y > 0, y, 1 · expm1(select(y > 0, 0, y))). -/
def elu (y : (FA S50000x256)) : (FA S50000x256) :=
  select (cmpf .ogt y (broadcastInDim S50000x256 ![] bcast_S_S50000x256 (constant (F := Ideal) S_ .f32 0x00000000#32))) y
    (mulf (broadcastInDim S50000x256 ![] bcast_S_S50000x256 (constant (F := Ideal) S_ .f32 0x3F800000#32))
      (Host.expm1 (F := Ideal)
        (select (cmpf .ogt y (broadcastInDim S50000x256 ![] bcast_S_S50000x256 (constant (F := Ideal) S_ .f32 0x00000000#32)))
          (broadcastInDim S50000x256 ![] bcast_S_S50000x256 (id (constant (F := Ideal) S_ .f32 0x00000000#32))) y)))

/-- One layer, 256 → 256 columns: project, average over each hyperedge's nodes, average over each node's hyperedges, add the bias. -/
def conv256 (VI HI : (IA S800000)) (DV DE : (FA S50000x1)) (x : (FA S50000x256)) (w : (FA S256x256)) (b : (FA S256)) : (FA S50000x256) :=
  bias256 (norm256 (agg256 HI VI (norm256 (agg256 VI HI (dense256 x w)) DE)) DV) b

/-- One layer, 256 → 128 columns. -/
def conv128 (VI HI : (IA S800000)) (DV DE : (FA S50000x1)) (x : (FA S50000x256)) (w : (FA S256x128)) (b : (FA S128)) : (FA S50000x128) :=
  bias128 (norm128 (agg128 HI VI (norm128 (agg128 VI HI (dense128 x w)) DE)) DV) b

/-- The network: three layers, ELU after the first two. -/
def out (x : (FA S50000x256)) (e : (IA S2x800000)) (w1 : (FA S256x256)) (b1 : (FA S256)) (w2 : (FA S256x256)) (b2 : (FA S256))
    (w3 : (FA S256x128)) (b3 : (FA S128)) : (FA S50000x128) :=
  conv128 (vi e) (hi e) (degree (vi e)) (degree (hi e))
    (elu (conv256 (vi e) (hi e) (degree (vi e)) (degree (hi e))
      (elu (conv256 (vi e) (hi e) (degree (vi e)) (degree (hi e)) x w1 b1)) w2 b2)) w3 b3

/-! ## The kernel's bias rows

The kernel hands each of its row-wise regions the bias as a 1 × C row; after the two inner averages that row is zero. -/

/-- A length-256 vector laid out as a 1 × 256 row. -/
def row256 (b : (FA S256)) : (FA S1x256) := shapeCast S1x256 b Cert.KernelIdeal.Facts₀.shapeCasts_S256_S1x256
/-- A length-128 vector laid out as a 1 × 128 row. -/
def row128 (b : (FA S128)) : (FA S1x128) := shapeCast S1x128 b Cert.KernelIdeal.Facts₀.shapeCasts_S128_S1x128
/-- The zero vector of length 256. -/
def zero256 : (FA S256) := broadcastInDim S256 ![] Cert.KernelIdeal.Facts₀.bcast_S_S256 (constant (F := Ideal) S_ .f32 0x00000000#32)
/-- The zero vector of length 128. -/
def zero128 : (FA S128) := broadcastInDim S128 ![] Cert.KernelIdeal.Facts₀.bcast_S_S128 (constant (F := Ideal) S_ .f32 0x00000000#32)

end Cert.Spec

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.LibHostDot.lean ====
/-
  A host matrix product read at one entry.

  The host's `dot_general` of an M × K matrix with a K × N matrix — left contracting axis 1, right contracting axis 0, no
  batch axis: the plain product l · r — is at the ideal values the sum over the contraction coordinate k of
  l (i, k) · r (k, j): entry (i, j) is the dot product of row i of the left operand with column j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.HostDot

open Idealize.ShloMosaic Idealize.ShloMosaic.ValueIdx

/-- Entry (i, j) of an M × K by K × N host `dot_general` contracting the left operand's columns with the right
    operand's rows, at the ideal values: the dot product of the left operand's row i with the right operand's column j. -/
theorem dotGeneral_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    Host.dotGeneral D prec l r (ix2 i j) = ∑ k : Fin K, l (ix2 i k) * r (ix2 k j) := by
  obtain ⟨lc, rc, ln, rn, lb, rb, wf⟩ := D
  dsimp only at hlc hrc hln hrn hlb hrb
  subst hlc hrc hln hrn hlb hrb
  refine (Ideal.dotGeneral_apply _ prec .single l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.HostDot

end
-- ==== Proof.RegMM.lean ====
/-
  What the three row-tiled matrix products share: the reference's projection read at one entry, and the
  product of two whole arrays as a function of the array index.
-/
import proofs.«110701_j74509092651627_1_alg».proof.Proof.Spec
import proofs.«110701_j74509092651627_1_alg».proof.Proof.LibHostDot
import Idealize.ShloMosaic.Lib.ValueIdx

noncomputable section

open scoped BigOperators

namespace Cert.KReg.MM

open Idealize.ShloMosaic Idealize.ShloMosaic.ValueIdx Cert.KernelIdeal

/-- The zero offsets of a whole-block access, however they are spelt. -/
theorem hz : (![0, 0] : Fin 2 → Nat) = fun _ => 0 := funext fun a => by fin_cases a <;> rfl

/-- Entry (i, j) of the projection x · W, 256 → 256: row i of x against column j of W. -/
theorem dense256_apply (X : Cert.Spec.FA Cert.ReferenceIdeal.S50000x256) (W : Cert.Spec.FA Cert.ReferenceIdeal.S256x256)
    (i : Fin 50000) (j : Fin 256) :
    Cert.Spec.dense256 X W (ix2 i j) = ∑ k : Fin 256, X (ix2 i k) * W (ix2 k j) :=
  HostDot.dotGeneral_apply Cert.ReferenceIdeal.dot_S50000x256_S256x256_S50000x256_1_0_0_1_n_n rfl rfl rfl rfl rfl rfl none X W i j

/-- Entry (i, j) of the projection x · W, 256 → 128: row i of x against column j of W. -/
theorem dense128_apply (X : Cert.Spec.FA Cert.ReferenceIdeal.S50000x256) (W : Cert.Spec.FA Cert.ReferenceIdeal.S256x128)
    (i : Fin 50000) (j : Fin 128) :
    Cert.Spec.dense128 X W (ix2 i j) = ∑ k : Fin 256, X (ix2 i k) * W (ix2 k j) :=
  HostDot.dotGeneral_apply Cert.ReferenceIdeal.dot_S50000x256_S256x128_S50000x128_1_0_0_1_n_n rfl rfl rfl rfl rfl rfl none X W i j

/-- The product of a [50000, 256] array with a [256, 256] array, entry by entry. -/
abbrev G256 (X : S50000x256.Idx → Elt Ideal .f32) (W : S256x256.Idx → Elt Ideal .f32) : S50000x256.Idx → Elt Ideal .f32 :=
  fun i => ∑ k : Fin 256, X (ix2 (i 0) k) * W (ix2 k (i 1))

/-- The product of a [50000, 256] array with a [256, 128] array, entry by entry. -/
abbrev G128 (X : S50000x256.Idx → Elt Ideal .f32) (W : S256x128.Idx → Elt Ideal .f32) : S50000x128.Idx → Elt Ideal .f32 :=
  fun i => ∑ k : Fin 256, X (ix2 (i 0) k) * W (ix2 k (i 1))

end Cert.KReg.MM

end
-- ==== Proof.Reg0.lean ====
/-
  Region 0: a row-tiled matrix product. The grid has 25 points; point t holds rows 2000·t … 2000·t + 1999 of the
  left array and the whole weight, and writes rows 2000·t … 2000·t + 1999 of the product. The array the region leaves
  is the projection of the two whole arrays as the region finds them.
-/
import proofs.«110701_j74509092651627_1_alg».proof.Proof.Gen.KernelIdeal.Frame
import proofs.«110701_j74509092651627_1_alg».proof.Proof.Spec
import proofs.«110701_j74509092651627_1_alg».proof.Proof.LibPlainMatmul
import proofs.«110701_j74509092651627_1_alg».proof.Proof.RegMM
import Idealize.ShloMosaic.Lib.Pipeline.Value

noncomputable section

open scoped BigOperators

namespace Cert.KReg

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

namespace MM0

open Cert.KReg.MM
open Idealize.ShloMosaic.ValueIdx
open Idealize.ShloMosaic.Pipeline (Dat)

/-- The body's payload at (p, q): a change of format is the identity at the ideal values, and the product into the zero
    accumulator is row p of the left block against column q of the weight block. -/
theorem pay0_apply (x0 : Vec Ideal S2000x256 .f32) (x1 : Vec Ideal S256x256 .f32) (p : Fin 2000) (q : Fin 256) :
    k0_pay1 (F := Ideal) x0 x1 (ix2 p q) = ∑ k : Fin 256, x0 (ix2 p k) * x1 (ix2 k q) :=
  PlainMatmul.matmul_zero_apply dot_S2000x256_S256x256_S2000x256_1_0_0_1_n_n rfl rfl rfl rfl rfl rfl none x0 x1 p q

/-- The index maps over the grid: the left and the output windows are at block (t, 0), the weight's at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One point: when the left block holds rows T·2000 … T·2000 + 1999 of X and the weight block holds W, the payload at
    y is the product's entry at the array index i that y names. -/
theorem point0 (X : S50000x256.Idx → Elt Ideal .f32) (W : S256x256.Idx → Elt Ideal .f32)
    (x0 : Vec Ideal S2000x256 .f32) (x1 : Vec Ideal S256x256 .f32) (T : Nat)
    (h0 : ∀ (p : Fin 2000) (k : Fin 256) (i : S50000x256.Idx), (i 0).val = T * 2000 + p.val → (i 1).val = k.val → x0 (ix2 p k) = X i)
    (h1 : ∀ (k : Fin 256) (q : Fin 256) (i : S256x256.Idx), (i 0).val = k.val → (i 1).val = q.val → x1 (ix2 k q) = W i)
    (y : S2000x256.Idx) (i : S50000x256.Idx) (hi0 : (i 0).val = T * 2000 + (y 0).val) (hi1 : (i 1).val = (y 1).val) :
    k0_pay1 (F := Ideal) x0 x1 y = G256 X W i := by
  obtain ⟨p, q, rfl⟩ : ∃ (p : Fin 2000) (q : Fin 256), y = ix2 p q := ⟨y 0, y 1, eq_ix2 y⟩
  refine (pay0_apply x0 x1 p q).trans ?_
  refine Finset.sum_congr rfl fun k _ => ?_
  rw [h0 p k (ix2 (i 0) k) hi0 rfl, h1 k q (ix2 k (i 1)) rfl hi1]

/-- What point t writes back is block t of the product of the two arrays as the region finds them. -/
theorem flushed0_eq (c : Dev nD) (t : Fin cfg0.N) :
    (dat0 (F := Ideal) V c).flushed 2 t = ((cfg0.win 2).blk t).view.read (Elt Ideal) (G256 (V c main_arg0) (V c main_arg3)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x256) hz]
  obtain ⟨e0, e1, e2, e3, e4, e5⟩ := idx_facts0 t
  funext j
  show k0_pay1 (iblk0 V c 0 t) (iblk0 V c 1 t) ((win0 2).xinj (grid0.coords t) j)
    = G256 (V c main_arg0) (V c main_arg3) (((cfg0.win 2).blk t).view.emb j)
  refine point0 (V c main_arg0) (V c main_arg3) _ _ t.val ?_ ?_ _ _ ?_ ?_
  · intro p k i hi0 hi1
    show V c main_arg0 (((cfg0.win 0).blk t).view.emb (ix2 p k)) = V c main_arg0 i
    congr 1
    funext a
    apply Fin.ext
    match a with
    | ⟨0, _⟩ => show win0_0.index t (0 : Fin 2) * 2000 + 1 * p.val = (i 0).val; rw [e0, hi0]; omega
    | ⟨1, _⟩ => show win0_0.index t (1 : Fin 2) * 256 + 1 * k.val = (i 1).val; rw [e1, hi1]; omega
  · intro k q i hi0 hi1
    show V c main_arg3 (((cfg0.win 1).blk t).view.emb (ix2 k q)) = V c main_arg3 i
    congr 1
    funext a
    apply Fin.ext
    match a with
    | ⟨0, _⟩ => show win0_1.index t (0 : Fin 2) * 256 + 1 * k.val = (i 0).val; rw [e2, hi0]; omega
    | ⟨1, _⟩ => show win0_1.index t (1 : Fin 2) * 256 + 1 * q.val = (i 1).val; rw [e3, hi1]; omega
  · show win0_2.index t (0 : Fin 2) * 2000 + 1 * (j 0).val = t.val * 2000 + (j 0).val
    rw [e4]; omega
  · show win0_2.index t (1 : Fin 2) * 256 + 1 * (j 1).val = (j 1).val
    rw [e5]; omega

/-- An index of the array is in point t's block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v17).slice (win0_2.rect t)).set ↔ _
  rw [View.set_slice_whole, Rect.mem_set_unit]
  exact Iff.rfl

/-- Row r lies in the block of point r / 2000, and 25 · 2000 = 50000: every index is in some point's block. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 256 ≤ (i 1).val ∧ (i 1).val < win0_2.index t (1 : Fin 2) * 256 + 256; rw [e5]; omega

end MM0

open Idealize.ShloMosaic.ValueIdx in
theorem final0 (c : Dev nD) : (dat0 (F := Ideal) V c).arrAt 2 cfg0.N = Cert.Spec.dense256 (V c main_arg0) (V c main_arg3) := by
  refine ((dat0 (F := Ideal) V c).arrAt_eq_of_cover 2 (MM.G256 (V c main_arg0) (V c main_arg3)) (fun t _ => MM0.flushed0_eq V c t) MM0.cover0).trans ?_
  funext i
  obtain ⟨a, b, rfl⟩ : ∃ (a : Fin 50000) (b : Fin 256), i = ix2 a b := ⟨i 0, i 1, eq_ix2 i⟩
  exact (MM.dense256_apply (V c main_arg0) (V c main_arg3) a b).symm

end Cert.KReg

end
-- ==== Proof.RegNorm.lean ====
/-
  What the three divide-by-the-degree regions share, over arbitrary extents a × b: the region's payload read at an index,
  the reference's row-wise quotient read at an index, and the zero bias row read at an index.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KReg.Norm

open Idealize.ShloMosaic Idealize.ShloMosaic.ValueIdx

/-- An `[a, 1]` column broadcast to `[a, b]` reads, at `(p, c)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The payload (x0 / column x1 + row x2) read at `(p, q)`: x0(p,q) / x1(p,0) + x2(0,q). -/
theorem pay_apply {a b : ℕ} (x0 : FVec Ideal ⟨2, ![a, b]⟩ .f32) (x1 : FVec Ideal ⟨2, ![a, 1]⟩ .f32)
    (x2 : FVec Ideal ⟨2, ![1, b]⟩ .f32)
    (h0 : (⟨2, ![a, b]⟩ : Shape).ShapeCasts ⟨2, ![a, b]⟩) (h1 : (⟨2, ![a, 1]⟩ : Shape).ShapeCasts ⟨2, ![a, 1]⟩)
    (h2 : (⟨2, ![1, b]⟩ : Shape).ShapeCasts ⟨2, ![1, b]⟩)
    (hb1 : (⟨2, ![a, 1]⟩ : Shape).Broadcasts ⟨2, ![a, b]⟩) (hb2 : (⟨2, ![1, b]⟩ : Shape).Broadcasts ⟨2, ![a, b]⟩)
    (p : Fin a) (q : Fin b) :
    addf (divf (shapeCast ⟨2, ![a, b]⟩ x0 h0) (broadcastTo ⟨2, ![a, b]⟩ (shapeCast ⟨2, ![a, 1]⟩ x1 h1) hb1))
        (broadcastTo ⟨2, ![a, b]⟩ (shapeCast ⟨2, ![1, b]⟩ x2 h2) hb2) (ix2 p q)
      = Ideal.div (x0 (ix2 p q)) (x1 (ix2 p (0 : Fin 1))) + x2 (ix2 (0 : Fin 1) q) := by
  rw [shapeCast_self, shapeCast_self, shapeCast_self, addf_apply, divf_apply, broadcastTo_a1_ab_apply,
    broadcastTo_1b_ab_apply]

/-- The reference's row-wise quotient read at `(i, j)`: xr(i,j) / deg(i,0). -/
theorem norm_apply {a b : ℕ} (xr : FVec Ideal ⟨2, ![a, b]⟩ .f32) (deg : FVec Ideal ⟨2, ![a, 1]⟩ .f32)
    (h : (⟨2, ![a, 1]⟩ : Shape).BroadcastsInDim ⟨2, ![a, b]⟩ ![0, 1]) (i : Fin a) (j : Fin b) :
    Host.divf (F := Ideal) xr (broadcastInDim ⟨2, ![a, b]⟩ ![0, 1] h deg) (ix2 i j)
      = Ideal.div (xr (ix2 i j)) (deg (ix2 i (0 : Fin 1))) := by
  show Ideal.div (xr (ix2 i j)) (broadcastInDim ⟨2, ![a, b]⟩ ![0, 1] h deg (ix2 i j)) = _
  congr 1
  refine broadcastInDim_apply ![0, 1] h deg (ix2 i j) (ix2 i (0 : Fin 1)) fun ax => ?_
  match ax with
  | ⟨0, _⟩ =>
    show i.val = if a = 1 then 0 else i.val
    split
    · have := i.isLt; omega
    · rfl
  | ⟨1, _⟩ => rfl

/-- The zero vector of length `b` laid out as a `1 × b` row reads 0 at `(0, q)`. -/
theorem zero_row_apply {b : ℕ} (hc : (⟨1, ![b]⟩ : Shape).ShapeCasts ⟨2, ![1, b]⟩)
    (hb : (⟨0, ![]⟩ : Shape).BroadcastsInDim ⟨1, ![b]⟩ ![]) (q : Fin b) :
    shapeCast ⟨2, ![1, b]⟩ (broadcastInDim ⟨1, ![b]⟩ ![] hb (constant (F := Ideal) ⟨0, ![]⟩ .f32 0x00000000#32)) hc
        (ix2 (0 : Fin 1) q) = 0 := by
  rw [shapeCast_a_1a_apply]
  exact Ideal.ofBits_zero_f32

/-- One entry of the block the region writes is the reference's entry: x / d + 0 = x / d on the extended reals. -/
theorem point_value {a b : ℕ} (A : FVec Ideal ⟨2, ![a, b]⟩ .f32) (D : FVec Ideal ⟨2, ![a, 1]⟩ .f32)
    (h : (⟨2, ![a, 1]⟩ : Shape).BroadcastsInDim ⟨2, ![a, b]⟩ ![0, 1])
    (hc : (⟨1, ![b]⟩ : Shape).ShapeCasts ⟨2, ![1, b]⟩) (hb : (⟨0, ![]⟩ : Shape).BroadcastsInDim ⟨1, ![b]⟩ ![])
    (I : Fin a) (q : Fin b) :
    Ideal.div (A (ix2 I q)) (D (ix2 I (0 : Fin 1)))
        + shapeCast ⟨2, ![1, b]⟩ (broadcastInDim ⟨1, ![b]⟩ ![] hb (constant (F := Ideal) ⟨0, ![]⟩ .f32 0x00000000#32)) hc
            (ix2 (0 : Fin 1) q)
      = Host.divf (F := Ideal) A (broadcastInDim ⟨2, ![a, b]⟩ ![0, 1] h D) (ix2 I q) := by
  rw [zero_row_apply, add_zero, norm_apply]

end Cert.KReg.Norm

end
-- ==== Proof.Reg1.lean ====
/-
  Region 1: each row of the summed rows divided by its degree. The region's chain over 25 points stages rows
  [2000 t, 2000 t + 2000) of the summed rows and of the degree column and the whole 1 × 256 bias row, and stores
  x / d + bias; the bias row is zero, and a + 0 = a on the extended reals, so the array the region leaves is the
  row-wise quotient of the whole arrays. Per point: the payload read at an index, each block's entry as an entry of its
  array (a block's coordinate on an axis is index × size + the coordinate inside the block); then the 25 blocks cover the
  50000 rows.
-/
import proofs.«110701_j74509092651627_1_alg».proof.Proof.Gen.KernelIdeal.Frame
import proofs.«110701_j74509092651627_1_alg».proof.Proof.Spec
import proofs.«110701_j74509092651627_1_alg».proof.Proof.RegNorm
import Idealize.ShloMosaic.Lib.Pipeline.Value

noncomputable section

namespace Cert.KReg.Norm1

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-- The store's offsets are all zero. -/
theorem zero_offsets1 : (![0, 0] : Fin 2 → Nat) = fun _ => 0 := funext fun a => by fin_cases a <;> rfl

/-- The region's payload read at `(p, q)`: x0(p,q) / x1(p,0) + x2(0,q). -/
theorem pay1_apply (x0 : Vec Ideal S2000x256 .f32) (x1 : Vec Ideal S2000x1 .f32) (x2 : Vec Ideal S1x256 .f32)
    (p : Fin 2000) (q : Fin 256) :
    k1_pay1 x0 x1 x2 (ix2 p q) = Ideal.div (x0 (ix2 p q)) (x1 (ix2 p (0 : Fin 1))) + x2 (ix2 (0 : Fin 1) q) :=
  Norm.pay_apply x0 x1 x2 _ _ _ _ _ p q

/-- The printed index maps, decided over the grid: point `t` stages row block `t` of the summed rows, of the degree column
    and of the output, and the whole bias row. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the row-wise quotient of the arrays as the region finds them. -/
theorem flushed1_eq (c : Dev nD) (hb : V c main_v29 = Cert.Spec.row256 Cert.Spec.zero256) (t : Fin cfg1.N) :
    (dat1 (F := Ideal) V c).flushed 3 t
      = ((cfg1.win 3).blk t).view.read (Elt Ideal) (Cert.Spec.norm256 (V c main_v27) (V c main_v16)) := by
  show (cfg1.win 3).cut (grid1.coords t) ((dat1 V c).after 3 t) = _
  rw [after1_3]
  unfold out1_3
  rw [View.canon_unit_zero zero_offsets1]
  simp only [View.ld_unit_zero (S := S2000x256) zero_offsets1, View.ld_unit_zero (S := S2000x1) zero_offsets1,
    View.ld_unit_zero (S := S1x256) zero_offsets1]
  obtain ⟨e0, e1, e2, e3, e4, e5, e6, e7⟩ := idx_facts1 t
  have hN : t.val < 25 := t.isLt
  funext j
  obtain ⟨p, q, rfl⟩ : ∃ (p : Fin 2000) (q : Fin 256), j = ix2 p q := ⟨j 0, j 1, eq_ix2 j⟩
  show k1_pay1 (iblk1 V c 0 t) (iblk1 V c 1 t) (iblk1 V c 2 t) (ix2 p q)
    = Cert.Spec.norm256 (V c main_v27) (V c main_v16) (((cfg1.win 3).blk t).view.emb (ix2 p q))
  refine (pay1_apply _ _ _ p q).trans ?_
  show Ideal.div (V c main_v27 (((cfg1.win 0).blk t).view.emb (ix2 p q)))
        (V c main_v16 (((cfg1.win 1).blk t).view.emb (ix2 p (0 : Fin 1))))
      + V c main_v29 (((cfg1.win 2).blk t).view.emb (ix2 (0 : Fin 1) q)) = _
  -- row `p` of block `t` is row `2000 t + p` of the array
  have hI : t.val * 2000 + p.val < 50000 := by have := p.isLt; omega
  have h0 : ((cfg1.win 0).blk t).view.emb (ix2 p q) = (ix2 (⟨t.val * 2000 + p.val, hI⟩ : Fin 50000) q : S50000x256.Idx) := by
    funext a; apply Fin.ext
    match a with
    | ⟨0, _⟩ => show win1_0.index t (0 : Fin 2) * 2000 + 1 * p.val = t.val * 2000 + p.val; omega
    | ⟨1, _⟩ => show win1_0.index t (1 : Fin 2) * 256 + 1 * q.val = q.val; omega
  have h1 : ((cfg1.win 1).blk t).view.emb (ix2 p (0 : Fin 1)) = (ix2 (⟨t.val * 2000 + p.val, hI⟩ : Fin 50000) (0 : Fin 1) : S50000x1.Idx) := by
    funext a; apply Fin.ext
    match a with
    | ⟨0, _⟩ => show win1_1.index t (0 : Fin 2) * 2000 + 1 * p.val = t.val * 2000 + p.val; omega
    | ⟨1, _⟩ => show win1_1.index t (1 : Fin 2) * 1 + 1 * 0 = 0; omega
  have h2 : ((cfg1.win 2).blk t).view.emb (ix2 (0 : Fin 1) q) = (ix2 (0 : Fin 1) q : S1x256.Idx) := by
    funext a; apply Fin.ext
    match a with
    | ⟨0, _⟩ => show win1_2.index t (0 : Fin 2) * 1 + 1 * 0 = 0; omega
    | ⟨1, _⟩ => show win1_2.index t (1 : Fin 2) * 256 + 1 * q.val = q.val; omega
  have h3 : ((cfg1.win 3).blk t).view.emb (ix2 p q) = (ix2 (⟨t.val * 2000 + p.val, hI⟩ : Fin 50000) q : S50000x256.Idx) := by
    funext a; apply Fin.ext
    match a with
    | ⟨0, _⟩ => show win1_3.index t (0 : Fin 2) * 2000 + 1 * p.val = t.val * 2000 + p.val; omega
    | ⟨1, _⟩ => show win1_3.index t (1 : Fin 2) * 256 + 1 * q.val = q.val; omega
  rw [h0, h1, h2, h3, hb]
  exact Norm.point_value (V c main_v27) (V c main_v16) _ _ _ ⟨t.val * 2000 + p.val, hI⟩ q

/-- An index of the array is in point `t`'s block iff each coordinate is in the block's range on its axis. -/
theorem mem_blk1 (t : Fin cfg1.N) (i : S50000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v30).slice (win1_3.rect t)).set ↔ _
  rw [View.set_slice_whole, Rect.mem_set_unit]
  exact Iff.rfl

/-- Every index is covered: row `r` lies in the block of point `r / 2000`, and 25 · 2000 = 50000. -/
theorem cover1 (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hlt : (i 0).val / 2000 < cfg1.N := by rw [show cfg1.N = 25 from N_1]; omega
  obtain ⟨e0, e1, e2, e3, e4, e5, e6, e7⟩ := idx_facts1 ⟨(i 0).val / 2000, hlt⟩
  have e6' : win1_3.index ⟨(i 0).val / 2000, hlt⟩ (0 : Fin 2) = (i 0).val / 2000 := e6
  refine ⟨⟨(i 0).val / 2000, hlt⟩, flush1_3 _, ?_⟩
  rw [mem_blk1]
  intro a
  match a with
  | ⟨0, _⟩ =>
    show win1_3.index ⟨(i 0).val / 2000, hlt⟩ (0 : Fin 2) * 2000 ≤ (i 0).val
      ∧ (i 0).val < win1_3.index ⟨(i 0).val / 2000, hlt⟩ (0 : Fin 2) * 2000 + 2000
    omega
  | ⟨1, _⟩ =>
    show win1_3.index ⟨(i 0).val / 2000, hlt⟩ (1 : Fin 2) * 256 ≤ (i 1).val
      ∧ (i 1).val < win1_3.index ⟨(i 0).val / 2000, hlt⟩ (1 : Fin 2) * 256 + 256
    omega

end Cert.KReg.Norm1

namespace Cert.KReg

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- THE ARRAY the region leaves: each row of the summed rows divided by its degree. -/
theorem final1 (c : Dev nD) (hb : V c main_v29 = Cert.Spec.row256 Cert.Spec.zero256) :
    (dat1 (F := Ideal) V c).arrAt 3 cfg1.N = Cert.Spec.norm256 (V c main_v27) (V c main_v16) :=
  (dat1 (F := Ideal) V c).arrAt_eq_of_cover 3 (Cert.Spec.norm256 (V c main_v27) (V c main_v16))
    (fun t _ => Norm1.flushed1_eq V c hb t) Norm1.cover1

end Cert.KReg

end
-- ==== Proof.RegBias.lean ====
/-
  The row-wise regions' common arithmetic, read index by index.

  Each such region divides every row of a [50000, C] array by that row's degree (a [50000, 1] column), adds a
  length-C bias to every row, and in two of the three regions applies ELU. The lemmas here read both spellings of
  that arithmetic at one index (p, q): the kernel's (vector broadcasts of a column and of a row inside a 2000-row
  block) and the specification's (host broadcasts over the whole array).
-/
import proofs.«110701_j74509092651627_1_alg».proof.Proof.Gen.KernelIdeal.Frame
import proofs.«110701_j74509092651627_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KReg.Bias

open Idealize.ShloMosaic Idealize.ShloMosaic.ValueIdx

variable {α : Type}

/-! ## Broadcasts and casts at an index -/

/-- An [a, 1] column broadcast to [a, b] reads, at (p, q), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host broadcast of an [a, 1] column along b columns reads, at (i, j), the column's entry i. -/
theorem bcastInDim_col_apply {a b : ℕ} (h : (⟨2, ![a, 1]⟩ : Shape).BroadcastsInDim ⟨2, ![a, b]⟩ ![0, 1])
    (v : (⟨2, ![a, 1]⟩ : Shape).Idx → α) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => rfl

/-- The host broadcast of a length-b vector to a [1, b] row and then along a rows reads, at (i, j), the vector's entry j. -/
theorem bcastInDim_bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (i : Fin a) (j : Fin b) :
    broadcastInDim ⟨2, ![a, b]⟩ ![0, 1] h2 (broadcastInDim ⟨2, ![1, b]⟩ ![1] h1 v) (ix2 i j) = v (ix1 j) := by
  refine (broadcastInDim_apply ![0, 1] h2 _ (ix2 i j) (ix2 (0 : Fin 1) j) fun ax => ?_).trans
    (broadcastInDim_apply ![1] h1 v (ix2 (0 : Fin 1) j) (ix1 j) fun ax => ?_)
  · match ax with
    | ⟨0, _⟩ => rfl
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A length-b vector laid out as a [1, b] row reads, at (0, j), the vector's entry j. -/
theorem shapeCast_row_apply {b : ℕ} (v : (⟨1, ![b]⟩ : Shape).Idx → α) (h : (⟨1, ![b]⟩ : Shape).ShapeCasts ⟨2, ![1, b]⟩)
    (j : Fin b) : shapeCast ⟨2, ![1, b]⟩ v h (ix2 (0 : Fin 1) j) = v (ix1 j) := by
  refine shapeCast_apply v h (ix2 (0 : Fin 1) j) (ix1 j) ?_
  rw [Shape.rowMajor_val_one, Shape.rowMajor_val_two]
  show j.val = 0 * b + j.val
  omega

/-! ## The bias and the degree over the whole array, 256 columns -/

/-- The specification's array before ELU at (i, j): the summed rows' entry divided by row i's degree, plus the bias at j. -/
theorem spec256_apply (xr : Cert.Spec.FA Cert.ReferenceIdeal.S50000x256) (deg : Cert.Spec.FA Cert.ReferenceIdeal.S50000x1)
    (b : Cert.Spec.FA Cert.ReferenceIdeal.S256) (i : Fin 50000) (j : Fin 256) :
    Cert.Spec.bias256 (Cert.Spec.norm256 xr deg) b (ix2 i j) = Ideal.div (xr (ix2 i j)) (deg (ix2 i (0 : Fin 1))) + b (ix1 j) := by
  show Ideal.div (xr (ix2 i j)) (broadcastInDim _ _ _ deg (ix2 i j)) + broadcastInDim _ _ _ (broadcastInDim _ _ _ b) (ix2 i j) = _
  rw [bcastInDim_col_apply (a := 50000) (b := 256), bcastInDim_bias_apply (a := 50000) (b := 256)]

/-! ## ELU at one entry -/

/-- The bit pattern 0x3F800000 is the number 1. -/
theorem ofBits_one_f32 : Ideal.ofBits .f32 0x3F800000#32 = 1 := by
  simp [Ideal.ofBits, Ideal.ieee, -EReal.coe_mul]; norm_num

/-- ELU of one number: y where y > 0, exp y - 1 elsewhere. -/
def elu1 (y : Ideal .f32) : Ideal .f32 := Scalar.select (Ideal.cmp .ogt y 0) y (Ideal.exp y - 1)

/-- The kernel's spelling, select (v > 0) v (exp v - 1) over a vector, is elu1 at each entry. -/
theorem kern_elu_apply {s : Shape} (v : FVec Ideal s .f32) (i : s.Idx) :
    select (cmpf .ogt v (broadcast s (Scalar.ofBits .f32 0x00000000#32))) v
        (subf (exp v) (broadcast s (Scalar.ofBits .f32 0x3F800000#32))) i = elu1 (v i) := by
  show Scalar.select (Ideal.cmp .ogt (v i) (Ideal.ofBits .f32 0x00000000#32)) (v i)
      (Ideal.exp (v i) - Ideal.ofBits .f32 0x3F800000#32) = _
  rw [Ideal.ofBits_zero_f32, ofBits_one_f32]
  rfl

/-- The specification's spelling, select (y > 0) y (1 · expm1 (select (y > 0) 0 y)), is elu1 at each entry: where the
    comparison holds both are y; where it fails the inner select is y and 1 · (exp y - 1) = exp y - 1. -/
theorem spec_elu_apply (y : Cert.Spec.FA Cert.ReferenceIdeal.S50000x256) (i : Cert.ReferenceIdeal.S50000x256.Idx) :
    Cert.Spec.elu y i = elu1 (y i) := by
  show Scalar.select (Ideal.cmp .ogt (y i) (Ideal.ofBits .f32 0x00000000#32)) (y i)
      (Ideal.ofBits .f32 0x3F800000#32
        * (Ideal.exp (Scalar.select (Ideal.cmp .ogt (y i) (Ideal.ofBits .f32 0x00000000#32)) (Ideal.ofBits .f32 0x00000000#32) (y i)) - 1)) = _
  rw [Ideal.ofBits_zero_f32, ofBits_one_f32]
  unfold elu1
  by_cases h : Ideal.cmp .ogt (y i) 0 = 1#1
  · simp only [h, select_one]
  · simp only [eq_zero_of_ne_one h, select_zero, one_mul]

/-- The offsets of a store at the origin of a rank-2 buffer. -/
theorem hz : (![0, 0] : Fin 2 → Nat) = fun _ => 0 := funext fun a => by fin_cases a <;> rfl

end Cert.KReg.Bias

end
-- ==== Proof.Reg2.lean ====
/-
  Region 2: a hidden layer's tail. Every row of the summed rows is divided by its degree, the bias row is added and
  ELU is applied. The grid has 25 points; point t stages rows [2000 t, 2000 t + 2000) of the summed rows and of the
  degree column and the whole bias row, and writes the same rows of the result. Read entry by entry, what a point
  stores is the specification's array at the entry moved to the point's rows; the 25 blocks cover the 50000 rows.
-/
import proofs.«110701_j74509092651627_1_alg».proof.Proof.Gen.KernelIdeal.Frame
import proofs.«110701_j74509092651627_1_alg».proof.Proof.Spec
import proofs.«110701_j74509092651627_1_alg».proof.Proof.RegBias

set_option maxRecDepth 16384

noncomputable section

namespace Cert.KReg

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

namespace Bias2

open Idealize.ShloMosaic.ValueIdx Cert.KReg.Bias
open Idealize.ShloMosaic.Pipeline (Dat)

/-- The payload at (p, q): ELU of the block's entry divided by the column's entry p, plus the row's entry q. -/
theorem pay_apply (x0 : Vec Ideal S2000x256 .f32) (x1 : Vec Ideal S2000x1 .f32) (x2 : Vec Ideal S1x256 .f32)
    (p : Fin 2000) (q : Fin 256) :
    k2_pay1 x0 x1 x2 (ix2 p q) = elu1 (Ideal.div (x0 (ix2 p q)) (x1 (ix2 p (0 : Fin 1))) + x2 (ix2 (0 : Fin 1) q)) := by
  unfold k2_pay1
  simp only [shapeCast_self]
  rw [kern_elu_apply, addf_apply, divf_apply, broadcastTo_a1_ab_apply (a := 2000) (b := 256), broadcastTo_1b_ab_apply (a := 2000) (b := 256)]

/-- The specification's array at (i, j): ELU of the summed rows' entry divided by row i's degree, plus the bias at j. -/
theorem spec_apply (xr : Cert.Spec.FA Cert.ReferenceIdeal.S50000x256) (deg : Cert.Spec.FA Cert.ReferenceIdeal.S50000x1)
    (b : Cert.Spec.FA Cert.ReferenceIdeal.S256) (i : Fin 50000) (j : Fin 256) :
    Cert.Spec.elu (Cert.Spec.bias256 (Cert.Spec.norm256 xr deg) b) (ix2 i j)
      = elu1 (Ideal.div (xr (ix2 i j)) (deg (ix2 i (0 : Fin 1))) + b (ix1 j)) := by
  rw [spec_elu_apply, spec256_apply]

/-- The index maps, decided over the grid: windows 0, 1 and 3 are at block (t, 0), window 2 at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 25 :=
  (by decide +kernel : ∀ t : Fin grid2.N, _)

/-- Window 0's block at point t, entry x, is the summed rows' entry k when k is x moved 2000 t rows down. -/
theorem iblk0_apply (c : Dev nD) (t : Fin cfg2.N) (x : S2000x256.Idx) (k : S50000x256.Idx)
    (hk0 : (k 0).val = 2000 * t.val + (x 0).val) (hk1 : (k 1).val = (x 1).val) :
    (iblk2 V c 0 t : Vec Ideal S2000x256 .f32) x = (V c main_v40 : S50000x256.Idx → Ideal .f32) k := by
  obtain ⟨e0, e1, -⟩ := idx_facts t
  unfold iblk2
  rw [View.read_apply]
  show V c main_v40 _ = V c main_v40 _
  congr 1
  funext a
  apply Fin.ext
  match a with
  | ⟨0, _⟩ => show win2_0.index t 0 * 2000 + 1 * (x 0).val = (k 0).val; rw [e0, hk0]; omega
  | ⟨1, _⟩ => show win2_0.index t 1 * 256 + 1 * (x 1).val = (k 1).val; rw [e1, hk1]; omega

/-- Window 1's block at point t, entry x, is the degree column's entry k when k is x moved 2000 t rows down. -/
theorem iblk1_apply (c : Dev nD) (t : Fin cfg2.N) (x : S2000x1.Idx) (k : S50000x1.Idx)
    (hk0 : (k 0).val = 2000 * t.val + (x 0).val) (hk1 : (k 1).val = (x 1).val) :
    (iblk2 V c 1 t : Vec Ideal S2000x1 .f32) x = (V c main_v10 : S50000x1.Idx → Ideal .f32) k := by
  obtain ⟨-, -, e2, e3, -⟩ := idx_facts t
  unfold iblk2
  rw [View.read_apply]
  show V c main_v10 _ = V c main_v10 _
  congr 1
  funext a
  apply Fin.ext
  match a with
  | ⟨0, _⟩ => show win2_1.index t 0 * 2000 + 1 * (x 0).val = (k 0).val; rw [e2, hk0]; omega
  | ⟨1, _⟩ => show win2_1.index t 1 * 1 + 1 * (x 1).val = (k 1).val; rw [e3, hk1]; omega

/-- Window 2's block at any point is the whole bias row: its entry (0, q) is the bias at q. -/
theorem iblk2_apply (c : Dev nD) (b : Cert.Spec.FA S256) (hb : V c main_v41 = Cert.Spec.row256 b) (t : Fin cfg2.N)
    (q q' : Fin 256) (h : q'.val = q.val) :
    (iblk2 V c 2 t : Vec Ideal S1x256 .f32) (ix2 (0 : Fin 1) q) = b (ix1 q') := by
  obtain ⟨-, -, -, -, e4, e5, -⟩ := idx_facts t
  unfold iblk2
  rw [View.read_apply]
  show V c main_v41 _ = _
  rw [hb]
  unfold Cert.Spec.row256
  refine Eq.trans (congrArg _ ?_) (shapeCast_row_apply b _ q')
  funext a
  apply Fin.ext
  match a with
  | ⟨0, _⟩ => show win2_2.index t 0 * 1 + 1 * 0 = 0; rw [e4]
  | ⟨1, _⟩ => show win2_2.index t 1 * 256 + 1 * q.val = q'.val; rw [e5, h]; omega

/-- One entry of what a point stores: entry x of its block is the specification's array at k, x moved to the point's rows. -/
theorem point (c : Dev nD) (b : Cert.Spec.FA S256) (hb : V c main_v41 = Cert.Spec.row256 b) (t : Fin cfg2.N)
    (x : S2000x256.Idx) (k : S50000x256.Idx)
    (hk0 : (k 0).val = 2000 * t.val + (x 0).val) (hk1 : (k 1).val = (x 1).val) :
    k2_pay1 (iblk2 V c 0 t) (iblk2 V c 1 t) (iblk2 V c 2 t) x
      = Cert.Spec.elu (Cert.Spec.bias256 (Cert.Spec.norm256 (V c main_v40) (V c main_v10)) b) k := by
  refine (congrArg (k2_pay1 _ _ _) (eq_ix2 x)).trans ?_
  refine (pay_apply _ _ _ (x 0) (x 1)).trans ?_
  refine Eq.trans ?_ (congrArg (Cert.Spec.elu (Cert.Spec.bias256 _ b)) (eq_ix2 k)).symm
  refine Eq.trans ?_ (spec_apply _ _ _ (k 0) (k 1)).symm
  rw [iblk0_apply V c t (ix2 (x 0) (x 1)) (ix2 (k 0) (k 1)) hk0 hk1,
    iblk1_apply V c t (ix2 (x 0) (0 : Fin 1)) (ix2 (k 0) (0 : Fin 1)) hk0 rfl,
    iblk2_apply V c b hb t (x 1) (k 1) hk1]

/-- What point t writes back is block t of the specification's array. -/
theorem flushed_eq (c : Dev nD) (b : Cert.Spec.FA S256) (hb : V c main_v41 = Cert.Spec.row256 b) (t : Fin cfg2.N) :
    (dat2 (F := Ideal) V c).flushed 3 t = ((cfg2.win 3).blk t).view.read (Elt Ideal) (Cert.Spec.elu (Cert.Spec.bias256 (Cert.Spec.norm256 (V c main_v40) (V c main_v10)) b)) := by
  show (cfg2.win 3).cut (grid2.coords t) ((dat2 V c).after 3 t) = _
  rw [after2_3]
  unfold out2_3
  rw [View.canon_unit_zero hz]
  simp only [View.ld_unit_zero (S := S2000x256) hz, View.ld_unit_zero (S := S2000x1) hz, View.ld_unit_zero (S := S1x256) hz]
  funext j
  obtain ⟨-, -, -, -, -, -, e6, e7, -⟩ := idx_facts t
  rw [View.read_apply]
  refine point V c b hb t ((win2 3).xinj (grid2.coords t) j) _ ?_ ?_
  · show win2_3.index t 0 * 2000 + 1 * (j 0).val = 2000 * t.val + (j 0).val
    rw [e6]; omega
  · show win2_3.index t 1 * 256 + 1 * (j 1).val = (j 1).val
    rw [e7]; omega

/-- An index of the array is in point t's block iff each coordinate is in the block's range on its axis. -/
theorem mem_blk (t : Fin cfg2.N) (i : S50000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v42).slice (win2_3.rect t)).set ↔ _
  rw [View.set_slice_whole, Rect.mem_set_unit]
  exact Iff.rfl

/-- Row r lies in the block of point r / 2000, and 25 · 2000 = 50000: the blocks cover the array. -/
theorem cover (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  have hN : cfg2.N = 25 := N_2
  have ht : (i 0).val / 2000 < cfg2.N := by rw [hN]; omega
  refine ⟨⟨(i 0).val / 2000, ht⟩, flush2_3 _, ?_⟩
  rw [mem_blk]
  obtain ⟨-, -, -, -, -, -, e6, e7, -⟩ := idx_facts ⟨(i 0).val / 2000, ht⟩
  intro a
  match a with
  | ⟨0, _⟩ =>
    show win2_3.index _ (0 : Fin 2) * 2000 ≤ (i 0).val ∧ (i 0).val < win2_3.index _ (0 : Fin 2) * 2000 + 2000
    rw [e6]
    show (i 0).val / 2000 * 2000 ≤ (i 0).val ∧ (i 0).val < (i 0).val / 2000 * 2000 + 2000
    omega
  | ⟨1, _⟩ =>
    show win2_3.index _ (1 : Fin 2) * 256 ≤ (i 1).val ∧ (i 1).val < win2_3.index _ (1 : Fin 2) * 256 + 256
    rw [e7]; omega

end Bias2

theorem final2 (c : Dev nD) (b : Cert.Spec.FA S256) (hb : V c main_v41 = Cert.Spec.row256 b) :
    (dat2 (F := Ideal) V c).arrAt 3 cfg2.N = Cert.Spec.elu (Cert.Spec.bias256 (Cert.Spec.norm256 (V c main_v40) (V c main_v10)) b) :=
  (dat2 (F := Ideal) V c).arrAt_eq_of_cover 3 _ (fun t _ => Bias2.flushed_eq V c b hb t) Bias2.cover

end Cert.KReg

end
-- ==== Proof.Reg3.lean ====
/-
  Region 3: a row-tiled matrix product. The grid has 25 points; point t holds rows 2000·t … 2000·t + 1999 of the
  left array and the whole weight, and writes rows 2000·t … 2000·t + 1999 of the product. The array the region leaves
  is the projection of the two whole arrays as the region finds them.
-/
import proofs.«110701_j74509092651627_1_alg».proof.Proof.Gen.KernelIdeal.Frame
import proofs.«110701_j74509092651627_1_alg».proof.Proof.Spec
import proofs.«110701_j74509092651627_1_alg».proof.Proof.LibPlainMatmul
import proofs.«110701_j74509092651627_1_alg».proof.Proof.RegMM
import Idealize.ShloMosaic.Lib.Pipeline.Value

noncomputable section

open scoped BigOperators

namespace Cert.KReg

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

namespace MM3

open Cert.KReg.MM
open Idealize.ShloMosaic.ValueIdx
open Idealize.ShloMosaic.Pipeline (Dat)

/-- The body's payload at (p, q): a shape cast to the same shape and a change of format are the identity at the ideal
    values, and the product into the zero accumulator is row p of the left block against column q of the weight block. -/
theorem pay3_apply (x0 : Vec Ideal S2000x256 .f32) (x1 : Vec Ideal S256x256 .f32) (p : Fin 2000) (q : Fin 256) :
    k3_pay1 (F := Ideal) x0 x1 (ix2 p q) = ∑ k : Fin 256, x0 (ix2 p k) * x1 (ix2 k q) := by
  unfold k3_pay1
  rw [shapeCast_self]
  exact PlainMatmul.matmul_zero_apply dot_S2000x256_S256x256_S2000x256_1_0_0_1_n_n rfl rfl rfl rfl rfl rfl none _ _ p q

/-- The index maps over the grid: the left and the output windows are at block (t, 0), the weight's at (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One point: when the left block holds rows T·2000 … T·2000 + 1999 of X and the weight block holds W, the payload at
    y is the product's entry at the array index i that y names. -/
theorem point3 (X : S50000x256.Idx → Elt Ideal .f32) (W : S256x256.Idx → Elt Ideal .f32)
    (x0 : Vec Ideal S2000x256 .f32) (x1 : Vec Ideal S256x256 .f32) (T : Nat)
    (h0 : ∀ (p : Fin 2000) (k : Fin 256) (i : S50000x256.Idx), (i 0).val = T * 2000 + p.val → (i 1).val = k.val → x0 (ix2 p k) = X i)
    (h1 : ∀ (k : Fin 256) (q : Fin 256) (i : S256x256.Idx), (i 0).val = k.val → (i 1).val = q.val → x1 (ix2 k q) = W i)
    (y : S2000x256.Idx) (i : S50000x256.Idx) (hi0 : (i 0).val = T * 2000 + (y 0).val) (hi1 : (i 1).val = (y 1).val) :
    k3_pay1 (F := Ideal) x0 x1 y = G256 X W i := by
  obtain ⟨p, q, rfl⟩ : ∃ (p : Fin 2000) (q : Fin 256), y = ix2 p q := ⟨y 0, y 1, eq_ix2 y⟩
  refine (pay3_apply x0 x1 p q).trans ?_
  refine Finset.sum_congr rfl fun k _ => ?_
  rw [h0 p k (ix2 (i 0) k) hi0 rfl, h1 k q (ix2 k (i 1)) rfl hi1]

/-- What point t writes back is block t of the product of the two arrays as the region finds them. -/
theorem flushed3_eq (c : Dev nD) (t : Fin cfg3.N) :
    (dat3 (F := Ideal) V c).flushed 2 t = ((cfg3.win 2).blk t).view.read (Elt Ideal) (G256 (V c main_v42) (V c main_arg5)) := by
  show (cfg3.win 2).cut (grid3.coords t) ((dat3 V c).after 2 t) = _
  rw [after3_2]
  unfold out3_2
  rw [View.canon_unit_zero hz]
  simp only [View.ld_unit_zero (S := S2000x256) hz, View.ld_unit_zero (S := S256x256) hz]
  obtain ⟨e0, e1, e2, e3, e4, e5⟩ := idx_facts3 t
  funext j
  show k3_pay1 (iblk3 V c 0 t) (iblk3 V c 1 t) ((win3 2).xinj (grid3.coords t) j)
    = G256 (V c main_v42) (V c main_arg5) (((cfg3.win 2).blk t).view.emb j)
  refine point3 (V c main_v42) (V c main_arg5) _ _ t.val ?_ ?_ _ _ ?_ ?_
  · intro p k i hi0 hi1
    show V c main_v42 (((cfg3.win 0).blk t).view.emb (ix2 p k)) = V c main_v42 i
    congr 1
    funext a
    apply Fin.ext
    match a with
    | ⟨0, _⟩ => show win3_0.index t (0 : Fin 2) * 2000 + 1 * p.val = (i 0).val; rw [e0, hi0]; omega
    | ⟨1, _⟩ => show win3_0.index t (1 : Fin 2) * 256 + 1 * k.val = (i 1).val; rw [e1, hi1]; omega
  · intro k q i hi0 hi1
    show V c main_arg5 (((cfg3.win 1).blk t).view.emb (ix2 k q)) = V c main_arg5 i
    congr 1
    funext a
    apply Fin.ext
    match a with
    | ⟨0, _⟩ => show win3_1.index t (0 : Fin 2) * 256 + 1 * k.val = (i 0).val; rw [e2, hi0]; omega
    | ⟨1, _⟩ => show win3_1.index t (1 : Fin 2) * 256 + 1 * q.val = (i 1).val; rw [e3, hi1]; omega
  · show win3_2.index t (0 : Fin 2) * 2000 + 1 * (j 0).val = t.val * 2000 + (j 0).val
    rw [e4]; omega
  · show win3_2.index t (1 : Fin 2) * 256 + 1 * (j 1).val = (j 1).val
    rw [e5]; omega

/-- An index of the array is in point t's block iff each coordinate is in the block's range on its axis. -/
theorem mem_blk3 (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v43).slice (win3_2.rect t)).set ↔ _
  rw [View.set_slice_whole, Rect.mem_set_unit]
  exact Iff.rfl

/-- Row r lies in the block of point r / 2000, and 25 · 2000 = 50000: every index is in some point's block. -/
theorem cover3 (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  have hN : cfg3.N = 25 := N_3
  obtain ⟨t, ht⟩ : ∃ t : Fin cfg3.N, t.val = (i 0).val / 2000 := ⟨⟨(i 0).val / 2000, by omega⟩, rfl⟩
  obtain ⟨e0, e1, e2, e3, e4, e5⟩ := idx_facts3 t
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; rw [e4, ht]; omega
  | ⟨1, _⟩ => show win3_2.index t (1 : Fin 2) * 256 ≤ (i 1).val ∧ (i 1).val < win3_2.index t (1 : Fin 2) * 256 + 256; rw [e5]; omega

end MM3

open Idealize.ShloMosaic.ValueIdx in
theorem final3 (c : Dev nD) : (dat3 (F := Ideal) V c).arrAt 2 cfg3.N = Cert.Spec.dense256 (V c main_v42) (V c main_arg5) := by
  refine ((dat3 (F := Ideal) V c).arrAt_eq_of_cover 2 (MM.G256 (V c main_v42) (V c main_arg5)) (fun t _ => MM3.flushed3_eq V c t) MM3.cover3).trans ?_
  funext i
  obtain ⟨a, b, rfl⟩ : ∃ (a : Fin 50000) (b : Fin 256), i = ix2 a b := ⟨i 0, i 1, eq_ix2 i⟩
  exact (MM.dense256_apply (V c main_v42) (V c main_arg5) a b).symm

end Cert.KReg

end
-- ==== Proof.Reg4.lean ====
/-
  Region 4: each row of the summed rows divided by its degree. The region's chain over 25 points stages rows
  [2000 t, 2000 t + 2000) of the summed rows and of the degree column and the whole 1 × 256 bias row, and stores
  x / d + bias; the bias row is zero, and a + 0 = a on the extended reals, so the array the region leaves is the
  row-wise quotient of the whole arrays. Per point: the payload read at an index, each block's entry as an entry of its
  array (a block's coordinate on an axis is index × size + the coordinate inside the block); then the 25 blocks cover the
  50000 rows.
-/
import proofs.«110701_j74509092651627_1_alg».proof.Proof.Gen.KernelIdeal.Frame
import proofs.«110701_j74509092651627_1_alg».proof.Proof.Spec
import proofs.«110701_j74509092651627_1_alg».proof.Proof.RegNorm
import Idealize.ShloMosaic.Lib.Pipeline.Value

noncomputable section

namespace Cert.KReg.Norm4

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-- The store's offsets are all zero. -/
theorem zero_offsets4 : (![0, 0] : Fin 2 → Nat) = fun _ => 0 := funext fun a => by fin_cases a <;> rfl

/-- The region's payload read at `(p, q)`: x0(p,q) / x1(p,0) + x2(0,q). -/
theorem pay4_apply (x0 : Vec Ideal S2000x256 .f32) (x1 : Vec Ideal S2000x1 .f32) (x2 : Vec Ideal S1x256 .f32)
    (p : Fin 2000) (q : Fin 256) :
    k4_pay1 x0 x1 x2 (ix2 p q) = Ideal.div (x0 (ix2 p q)) (x1 (ix2 p (0 : Fin 1))) + x2 (ix2 (0 : Fin 1) q) :=
  Norm.pay_apply x0 x1 x2 _ _ _ _ _ p q

/-- The printed index maps, decided over the grid: point `t` stages row block `t` of the summed rows, of the degree column
    and of the output, and the whole bias row. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- WHAT POINT `t` WRITES BACK is block `t` of the row-wise quotient of the arrays as the region finds them. -/
theorem flushed4_eq (c : Dev nD) (hb : V c main_v55 = Cert.Spec.row256 Cert.Spec.zero256) (t : Fin cfg4.N) :
    (dat4 (F := Ideal) V c).flushed 3 t
      = ((cfg4.win 3).blk t).view.read (Elt Ideal) (Cert.Spec.norm256 (V c main_v53) (V c main_v16)) := by
  show (cfg4.win 3).cut (grid4.coords t) ((dat4 V c).after 3 t) = _
  rw [after4_3]
  unfold out4_3
  rw [View.canon_unit_zero zero_offsets4]
  simp only [View.ld_unit_zero (S := S2000x256) zero_offsets4, View.ld_unit_zero (S := S2000x1) zero_offsets4,
    View.ld_unit_zero (S := S1x256) zero_offsets4]
  obtain ⟨e0, e1, e2, e3, e4, e5, e6, e7⟩ := idx_facts4 t
  have hN : t.val < 25 := t.isLt
  funext j
  obtain ⟨p, q, rfl⟩ : ∃ (p : Fin 2000) (q : Fin 256), j = ix2 p q := ⟨j 0, j 1, eq_ix2 j⟩
  show k4_pay1 (iblk4 V c 0 t) (iblk4 V c 1 t) (iblk4 V c 2 t) (ix2 p q)
    = Cert.Spec.norm256 (V c main_v53) (V c main_v16) (((cfg4.win 3).blk t).view.emb (ix2 p q))
  refine (pay4_apply _ _ _ p q).trans ?_
  show Ideal.div (V c main_v53 (((cfg4.win 0).blk t).view.emb (ix2 p q)))
        (V c main_v16 (((cfg4.win 1).blk t).view.emb (ix2 p (0 : Fin 1))))
      + V c main_v55 (((cfg4.win 2).blk t).view.emb (ix2 (0 : Fin 1) q)) = _
  -- row `p` of block `t` is row `2000 t + p` of the array
  have hI : t.val * 2000 + p.val < 50000 := by have := p.isLt; omega
  have h0 : ((cfg4.win 0).blk t).view.emb (ix2 p q) = (ix2 (⟨t.val * 2000 + p.val, hI⟩ : Fin 50000) q : S50000x256.Idx) := by
    funext a; apply Fin.ext
    match a with
    | ⟨0, _⟩ => show win4_0.index t (0 : Fin 2) * 2000 + 1 * p.val = t.val * 2000 + p.val; omega
    | ⟨1, _⟩ => show win4_0.index t (1 : Fin 2) * 256 + 1 * q.val = q.val; omega
  have h1 : ((cfg4.win 1).blk t).view.emb (ix2 p (0 : Fin 1)) = (ix2 (⟨t.val * 2000 + p.val, hI⟩ : Fin 50000) (0 : Fin 1) : S50000x1.Idx) := by
    funext a; apply Fin.ext
    match a with
    | ⟨0, _⟩ => show win4_1.index t (0 : Fin 2) * 2000 + 1 * p.val = t.val * 2000 + p.val; omega
    | ⟨1, _⟩ => show win4_1.index t (1 : Fin 2) * 1 + 1 * 0 = 0; omega
  have h2 : ((cfg4.win 2).blk t).view.emb (ix2 (0 : Fin 1) q) = (ix2 (0 : Fin 1) q : S1x256.Idx) := by
    funext a; apply Fin.ext
    match a with
    | ⟨0, _⟩ => show win4_2.index t (0 : Fin 2) * 1 + 1 * 0 = 0; omega
    | ⟨1, _⟩ => show win4_2.index t (1 : Fin 2) * 256 + 1 * q.val = q.val; omega
  have h3 : ((cfg4.win 3).blk t).view.emb (ix2 p q) = (ix2 (⟨t.val * 2000 + p.val, hI⟩ : Fin 50000) q : S50000x256.Idx) := by
    funext a; apply Fin.ext
    match a with
    | ⟨0, _⟩ => show win4_3.index t (0 : Fin 2) * 2000 + 1 * p.val = t.val * 2000 + p.val; omega
    | ⟨1, _⟩ => show win4_3.index t (1 : Fin 2) * 256 + 1 * q.val = q.val; omega
  rw [h0, h1, h2, h3, hb]
  exact Norm.point_value (V c main_v53) (V c main_v16) _ _ _ ⟨t.val * 2000 + p.val, hI⟩ q

/-- An index of the array is in point `t`'s block iff each coordinate is in the block's range on its axis. -/
theorem mem_blk4 (t : Fin cfg4.N) (i : S50000x256.Idx) :
    i ∈ ((cfg4.win 3).blk t).view.set ↔ ∀ a : Fin 2, win4_3.index t a * S2000x256.size a ≤ (i a).val
      ∧ (i a).val < win4_3.index t a * S2000x256.size a + S2000x256.size a := by
  show i ∈ ((View.whole main_v56).slice (win4_3.rect t)).set ↔ _
  rw [View.set_slice_whole, Rect.mem_set_unit]
  exact Iff.rfl

/-- Every index is covered: row `r` lies in the block of point `r / 2000`, and 25 · 2000 = 50000. -/
theorem cover4 (i : S50000x256.Idx) :
    ∃ t : Fin cfg4.N, (cfg4.win 3).flush t = true ∧ i ∈ ((cfg4.win 3).blk t).view.set := by
  have hi0 : (i 0).val < 50000 := (i 0).isLt
  have hi1 : (i 1).val < 256 := (i 1).isLt
  have hlt : (i 0).val / 2000 < cfg4.N := by rw [show cfg4.N = 25 from N_4]; omega
  obtain ⟨e0, e1, e2, e3, e4, e5, e6, e7⟩ := idx_facts4 ⟨(i 0).val / 2000, hlt⟩
  have e6' : win4_3.index ⟨(i 0).val / 2000, hlt⟩ (0 : Fin 2) = (i 0).val / 2000 := e6
  refine ⟨⟨(i 0).val / 2000, hlt⟩, flush4_3 _, ?_⟩
  rw [mem_blk4]
  intro a
  match a with
  | ⟨0, _⟩ =>
    show win4_3.index ⟨(i 0).val / 2000, hlt⟩ (0 : Fin 2) * 2000 ≤ (i 0).val
      ∧ (i 0).val < win4_3.index ⟨(i 0).val / 2000, hlt⟩ (0 : Fin 2) * 2000 + 2000
    omega
  | ⟨1, _⟩ =>
    show win4_3.index ⟨(i 0).val / 2000, hlt⟩ (1 : Fin 2) * 256 ≤ (i 1).val
      ∧ (i 1).val < win4_3.index ⟨(i 0).val / 2000, hlt⟩ (1 : Fin 2) * 256 + 256
    omega

end Cert.KReg.Norm4

namespace Cert.KReg

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- THE ARRAY the region leaves: each row of the summed rows divided by its degree. -/
theorem final4 (c : Dev nD) (hb : V c main_v55 = Cert.Spec.row256 Cert.Spec.zero256) :
    (dat4 (F := Ideal) V c).arrAt 3 cfg4.N = Cert.Spec.norm256 (V c main_v53) (V c main_v16) :=
  (dat4 (F := Ideal) V c).arrAt_eq_of_cover 3 (Cert.Spec.norm256 (V c main_v53) (V c main_v16))
    (fun t _ => Norm4.flushed4_eq V c hb t) Norm4.cover4

end Cert.KReg

end
-- ==== Proof.Reg5.lean ====
/-
  Region 5: a hidden layer's tail. Every row of the summed rows is divided by its degree, the bias row is added and
  ELU is applied. The grid has 25 points; point t stages rows [2000 t, 2000 t + 2000) of the summed rows and of the
  degree column and the whole bias row, and writes the same rows of the result. Read entry by entry, what a point
  stores is the specification's array at the entry moved to the point's rows; the 25 blocks cover the 50000 rows.
-/
import proofs.«110701_j74509092651627_1_alg».proof.Proof.Gen.KernelIdeal.Frame
import proofs.«110701_j74509092651627_1_alg».proof.Proof.Spec
import proofs.«110701_j74509092651627_1_alg».proof.Proof.RegBias

set_option maxRecDepth 16384

noncomputable section

namespace Cert.KReg

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

namespace Bias5

open Idealize.ShloMosaic.ValueIdx Cert.KReg.Bias
open Idealize.ShloMosaic.Pipeline (Dat)

/-- The payload at (p, q): ELU of the block's entry divided by the column's entry p, plus the row's entry q. -/
theorem pay_apply (x0 : Vec Ideal S2000x256 .f32) (x1 : Vec Ideal S2000x1 .f32) (x2 : Vec Ideal S1x256 .f32)
    (p : Fin 2000) (q : Fin 256) :
    k5_pay1 x0 x1 x2 (ix2 p q) = elu1 (Ideal.div (x0 (ix2 p q)) (x1 (ix2 p (0 : Fin 1))) + x2 (ix2 (0 : Fin 1) q)) := by
  unfold k5_pay1
  simp only [shapeCast_self]
  rw [kern_elu_apply, addf_apply, divf_apply, broadcastTo_a1_ab_apply (a := 2000) (b := 256), broadcastTo_1b_ab_apply (a := 2000) (b := 256)]

/-- The specification's array at (i, j): ELU of the summed rows' entry divided by row i's degree, plus the bias at j. -/
theorem spec_apply (xr : Cert.Spec.FA Cert.ReferenceIdeal.S50000x256) (deg : Cert.Spec.FA Cert.ReferenceIdeal.S50000x1)
    (b : Cert.Spec.FA Cert.ReferenceIdeal.S256) (i : Fin 50000) (j : Fin 256) :
    Cert.Spec.elu (Cert.Spec.bias256 (Cert.Spec.norm256 xr deg) b) (ix2 i j)
      = elu1 (Ideal.div (xr (ix2 i j)) (deg (ix2 i (0 : Fin 1))) + b (ix1 j)) := by
  rw [spec_elu_apply, spec256_apply]

/-- The index maps, decided over the grid: windows 0, 1 and 3 are at block (t, 0), window 2 at block (0, 0). -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 ∧ t.val < 25 :=
  (by decide +kernel : ∀ t : Fin grid5.N, _)

/-- Window 0's block at point t, entry x, is the summed rows' entry k when k is x moved 2000 t rows down. -/
theorem iblk0_apply (c : Dev nD) (t : Fin cfg5.N) (x : S2000x256.Idx) (k : S50000x256.Idx)
    (hk0 : (k 0).val = 2000 * t.val + (x 0).val) (hk1 : (k 1).val = (x 1).val) :
    (iblk5 V c 0 t : Vec Ideal S2000x256 .f32) x = (V c main_v66 : S50000x256.Idx → Ideal .f32) k := by
  obtain ⟨e0, e1, -⟩ := idx_facts t
  unfold iblk5
  rw [View.read_apply]
  show V c main_v66 _ = V c main_v66 _
  congr 1
  funext a
  apply Fin.ext
  match a with
  | ⟨0, _⟩ => show win5_0.index t 0 * 2000 + 1 * (x 0).val = (k 0).val; rw [e0, hk0]; omega
  | ⟨1, _⟩ => show win5_0.index t 1 * 256 + 1 * (x 1).val = (k 1).val; rw [e1, hk1]; omega

/-- Window 1's block at point t, entry x, is the degree column's entry k when k is x moved 2000 t rows down. -/
theorem iblk1_apply (c : Dev nD) (t : Fin cfg5.N) (x : S2000x1.Idx) (k : S50000x1.Idx)
    (hk0 : (k 0).val = 2000 * t.val + (x 0).val) (hk1 : (k 1).val = (x 1).val) :
    (iblk5 V c 1 t : Vec Ideal S2000x1 .f32) x = (V c main_v10 : S50000x1.Idx → Ideal .f32) k := by
  obtain ⟨-, -, e2, e3, -⟩ := idx_facts t
  unfold iblk5
  rw [View.read_apply]
  show V c main_v10 _ = V c main_v10 _
  congr 1
  funext a
  apply Fin.ext
  match a with
  | ⟨0, _⟩ => show win5_1.index t 0 * 2000 + 1 * (x 0).val = (k 0).val; rw [e2, hk0]; omega
  | ⟨1, _⟩ => show win5_1.index t 1 * 1 + 1 * (x 1).val = (k 1).val; rw [e3, hk1]; omega

/-- Window 2's block at any point is the whole bias row: its entry (0, q) is the bias at q. -/
theorem iblk2_apply (c : Dev nD) (b : Cert.Spec.FA S256) (hb : V c main_v67 = Cert.Spec.row256 b) (t : Fin cfg5.N)
    (q q' : Fin 256) (h : q'.val = q.val) :
    (iblk5 V c 2 t : Vec Ideal S1x256 .f32) (ix2 (0 : Fin 1) q) = b (ix1 q') := by
  obtain ⟨-, -, -, -, e4, e5, -⟩ := idx_facts t
  unfold iblk5
  rw [View.read_apply]
  show V c main_v67 _ = _
  rw [hb]
  unfold Cert.Spec.row256
  refine Eq.trans (congrArg _ ?_) (shapeCast_row_apply b _ q')
  funext a
  apply Fin.ext
  match a with
  | ⟨0, _⟩ => show win5_2.index t 0 * 1 + 1 * 0 = 0; rw [e4]
  | ⟨1, _⟩ => show win5_2.index t 1 * 256 + 1 * q.val = q'.val; rw [e5, h]; omega

/-- One entry of what a point stores: entry x of its block is the specification's array at k, x moved to the point's rows. -/
theorem point (c : Dev nD) (b : Cert.Spec.FA S256) (hb : V c main_v67 = Cert.Spec.row256 b) (t : Fin cfg5.N)
    (x : S2000x256.Idx) (k : S50000x256.Idx)
    (hk0 : (k 0).val = 2000 * t.val + (x 0).val) (hk1 : (k 1).val = (x 1).val) :
    k5_pay1 (iblk5 V c 0 t) (iblk5 V c 1 t) (iblk5 V c 2 t) x
      = Cert.Spec.elu (Cert.Spec.bias256 (Cert.Spec.norm256 (V c main_v66) (V c main_v10)) b) k := by
  refine (congrArg (k5_pay1 _ _ _) (eq_ix2 x)).trans ?_
  refine (pay_apply _ _ _ (x 0) (x 1)).trans ?_
  refine Eq.trans ?_ (congrArg (Cert.Spec.elu (Cert.Spec.bias256 _ b)) (eq_ix2 k)).symm
  refine Eq.trans ?_ (spec_apply _ _ _ (k 0) (k 1)).symm
  rw [iblk0_apply V c t (ix2 (x 0) (x 1)) (ix2 (k 0) (k 1)) hk0 hk1,
    iblk1_apply V c t (ix2 (x 0) (0 : Fin 1)) (ix2 (k 0) (0 : Fin 1)) hk0 rfl,
    iblk2_apply V c b hb t (x 1) (k 1) hk1]

/-- What point t writes back is block t of the specification's array. -/
theorem flushed_eq (c : Dev nD) (b : Cert.Spec.FA S256) (hb : V c main_v67 = Cert.Spec.row256 b) (t : Fin cfg5.N) :
    (dat5 (F := Ideal) V c).flushed 3 t = ((cfg5.win 3).blk t).view.read (Elt Ideal) (Cert.Spec.elu (Cert.Spec.bias256 (Cert.Spec.norm256 (V c main_v66) (V c main_v10)) b)) := by
  show (cfg5.win 3).cut (grid5.coords t) ((dat5 V c).after 3 t) = _
  rw [after5_3]
  unfold out5_3
  rw [View.canon_unit_zero hz]
  simp only [View.ld_unit_zero (S := S2000x256) hz, View.ld_unit_zero (S := S2000x1) hz, View.ld_unit_zero (S := S1x256) hz]
  funext j
  obtain ⟨-, -, -, -, -, -, e6, e7, -⟩ := idx_facts t
  rw [View.read_apply]
  refine point V c b hb t ((win5 3).xinj (grid5.coords t) j) _ ?_ ?_
  · show win5_3.index t 0 * 2000 + 1 * (j 0).val = 2000 * t.val + (j 0).val
    rw [e6]; omega
  · show win5_3.index t 1 * 256 + 1 * (j 1).val = (j 1).val
    rw [e7]; omega

/-- An index of the array is in point t's block iff each coordinate is in the block's range on its axis. -/
theorem mem_blk (t : Fin cfg5.N) (i : S50000x256.Idx) :
    i ∈ ((cfg5.win 3).blk t).view.set ↔ ∀ a : Fin 2, win5_3.index t a * S2000x256.size a ≤ (i a).val ∧ (i a).val < win5_3.index t a * S2000x256.size a + S2000x256.size a := by
  show i ∈ ((View.whole main_v68).slice (win5_3.rect t)).set ↔ _
  rw [View.set_slice_whole, Rect.mem_set_unit]
  exact Iff.rfl

/-- Row r lies in the block of point r / 2000, and 25 · 2000 = 50000: the blocks cover the array. -/
theorem cover (i : S50000x256.Idx) : ∃ t : Fin cfg5.N, (cfg5.win 3).flush t = true ∧ i ∈ ((cfg5.win 3).blk t).view.set := by
  have hi0 : (i 0).val < 50000 := (i 0).isLt
  have hi1 : (i 1).val < 256 := (i 1).isLt
  have hN : cfg5.N = 25 := N_5
  have ht : (i 0).val / 2000 < cfg5.N := by rw [hN]; omega
  refine ⟨⟨(i 0).val / 2000, ht⟩, flush5_3 _, ?_⟩
  rw [mem_blk]
  obtain ⟨-, -, -, -, -, -, e6, e7, -⟩ := idx_facts ⟨(i 0).val / 2000, ht⟩
  intro a
  match a with
  | ⟨0, _⟩ =>
    show win5_3.index _ (0 : Fin 2) * 2000 ≤ (i 0).val ∧ (i 0).val < win5_3.index _ (0 : Fin 2) * 2000 + 2000
    rw [e6]
    show (i 0).val / 2000 * 2000 ≤ (i 0).val ∧ (i 0).val < (i 0).val / 2000 * 2000 + 2000
    omega
  | ⟨1, _⟩ =>
    show win5_3.index _ (1 : Fin 2) * 256 ≤ (i 1).val ∧ (i 1).val < win5_3.index _ (1 : Fin 2) * 256 + 256
    rw [e7]; omega

end Bias5

theorem final5 (c : Dev nD) (b : Cert.Spec.FA S256) (hb : V c main_v67 = Cert.Spec.row256 b) :
    (dat5 (F := Ideal) V c).arrAt 3 cfg5.N = Cert.Spec.elu (Cert.Spec.bias256 (Cert.Spec.norm256 (V c main_v66) (V c main_v10)) b) :=
  (dat5 (F := Ideal) V c).arrAt_eq_of_cover 3 _ (fun t _ => Bias5.flushed_eq V c b hb t) Bias5.cover

end Cert.KReg

end
-- ==== Proof.Reg6.lean ====
/-
  Region 6: a row-tiled matrix product. The grid has 25 points; point t holds rows 2000·t … 2000·t + 1999 of the
  left array and the whole weight, and writes rows 2000·t … 2000·t + 1999 of the product. The array the region leaves
  is the projection of the two whole arrays as the region finds them.
-/
import proofs.«110701_j74509092651627_1_alg».proof.Proof.Gen.KernelIdeal.Frame
import proofs.«110701_j74509092651627_1_alg».proof.Proof.Spec
import proofs.«110701_j74509092651627_1_alg».proof.Proof.LibPlainMatmul
import proofs.«110701_j74509092651627_1_alg».proof.Proof.RegMM
import Idealize.ShloMosaic.Lib.Pipeline.Value

noncomputable section

open scoped BigOperators

namespace Cert.KReg

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

namespace MM6

open Cert.KReg.MM
open Idealize.ShloMosaic.ValueIdx
open Idealize.ShloMosaic.Pipeline (Dat)

/-- The body's payload at (p, q): a shape cast to the same shape and a change of format are the identity at the ideal
    values, and the product into the zero accumulator is row p of the left block against column q of the weight block. -/
theorem pay6_apply (x0 : Vec Ideal S2000x256 .f32) (x1 : Vec Ideal S256x128 .f32) (p : Fin 2000) (q : Fin 128) :
    k6_pay1 (F := Ideal) x0 x1 (ix2 p q) = ∑ k : Fin 256, x0 (ix2 p k) * x1 (ix2 k q) := by
  unfold k6_pay1
  rw [shapeCast_self]
  exact PlainMatmul.matmul_zero_apply dot_S2000x256_S256x128_S2000x128_1_0_0_1_n_n rfl rfl rfl rfl rfl rfl none _ _ p q

/-- The index maps over the grid: the left and the output windows are at block (t, 0), the weight's at (0, 0). -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- One point: when the left block holds rows T·2000 … T·2000 + 1999 of X and the weight block holds W, the payload at
    y is the product's entry at the array index i that y names. -/
theorem point6 (X : S50000x256.Idx → Elt Ideal .f32) (W : S256x128.Idx → Elt Ideal .f32)
    (x0 : Vec Ideal S2000x256 .f32) (x1 : Vec Ideal S256x128 .f32) (T : Nat)
    (h0 : ∀ (p : Fin 2000) (k : Fin 256) (i : S50000x256.Idx), (i 0).val = T * 2000 + p.val → (i 1).val = k.val → x0 (ix2 p k) = X i)
    (h1 : ∀ (k : Fin 256) (q : Fin 128) (i : S256x128.Idx), (i 0).val = k.val → (i 1).val = q.val → x1 (ix2 k q) = W i)
    (y : S2000x128.Idx) (i : S50000x128.Idx) (hi0 : (i 0).val = T * 2000 + (y 0).val) (hi1 : (i 1).val = (y 1).val) :
    k6_pay1 (F := Ideal) x0 x1 y = G128 X W i := by
  obtain ⟨p, q, rfl⟩ : ∃ (p : Fin 2000) (q : Fin 128), y = ix2 p q := ⟨y 0, y 1, eq_ix2 y⟩
  refine (pay6_apply x0 x1 p q).trans ?_
  refine Finset.sum_congr rfl fun k _ => ?_
  rw [h0 p k (ix2 (i 0) k) hi0 rfl, h1 k q (ix2 k (i 1)) rfl hi1]

/-- What point t writes back is block t of the product of the two arrays as the region finds them. -/
theorem flushed6_eq (c : Dev nD) (t : Fin cfg6.N) :
    (dat6 (F := Ideal) V c).flushed 2 t = ((cfg6.win 2).blk t).view.read (Elt Ideal) (G128 (V c main_v68) (V c main_arg7)) := by
  show (cfg6.win 2).cut (grid6.coords t) ((dat6 V c).after 2 t) = _
  rw [after6_2]
  unfold out6_2
  rw [View.canon_unit_zero hz]
  simp only [View.ld_unit_zero (S := S2000x256) hz, View.ld_unit_zero (S := S256x128) hz]
  obtain ⟨e0, e1, e2, e3, e4, e5⟩ := idx_facts6 t
  funext j
  show k6_pay1 (iblk6 V c 0 t) (iblk6 V c 1 t) ((win6 2).xinj (grid6.coords t) j)
    = G128 (V c main_v68) (V c main_arg7) (((cfg6.win 2).blk t).view.emb j)
  refine point6 (V c main_v68) (V c main_arg7) _ _ t.val ?_ ?_ _ _ ?_ ?_
  · intro p k i hi0 hi1
    show V c main_v68 (((cfg6.win 0).blk t).view.emb (ix2 p k)) = V c main_v68 i
    congr 1
    funext a
    apply Fin.ext
    match a with
    | ⟨0, _⟩ => show win6_0.index t (0 : Fin 2) * 2000 + 1 * p.val = (i 0).val; rw [e0, hi0]; omega
    | ⟨1, _⟩ => show win6_0.index t (1 : Fin 2) * 256 + 1 * k.val = (i 1).val; rw [e1, hi1]; omega
  · intro k q i hi0 hi1
    show V c main_arg7 (((cfg6.win 1).blk t).view.emb (ix2 k q)) = V c main_arg7 i
    congr 1
    funext a
    apply Fin.ext
    match a with
    | ⟨0, _⟩ => show win6_1.index t (0 : Fin 2) * 256 + 1 * k.val = (i 0).val; rw [e2, hi0]; omega
    | ⟨1, _⟩ => show win6_1.index t (1 : Fin 2) * 128 + 1 * q.val = (i 1).val; rw [e3, hi1]; omega
  · show win6_2.index t (0 : Fin 2) * 2000 + 1 * (j 0).val = t.val * 2000 + (j 0).val
    rw [e4]; omega
  · show win6_2.index t (1 : Fin 2) * 128 + 1 * (j 1).val = (j 1).val
    rw [e5]; omega

/-- An index of the array is in point t's block iff each coordinate is in the block's range on its axis. -/
theorem mem_blk6 (t : Fin cfg6.N) (i : S50000x128.Idx) :
    i ∈ ((cfg6.win 2).blk t).view.set ↔ ∀ a : Fin 2, win6_2.index t a * S2000x128.size a ≤ (i a).val ∧ (i a).val < win6_2.index t a * S2000x128.size a + S2000x128.size a := by
  show i ∈ ((View.whole main_v69).slice (win6_2.rect t)).set ↔ _
  rw [View.set_slice_whole, Rect.mem_set_unit]
  exact Iff.rfl

/-- Row r lies in the block of point r / 2000, and 25 · 2000 = 50000: every index is in some point's block. -/
theorem cover6 (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 25 := N_6
  obtain ⟨t, ht⟩ : ∃ t : Fin cfg6.N, t.val = (i 0).val / 2000 := ⟨⟨(i 0).val / 2000, by omega⟩, rfl⟩
  obtain ⟨e0, e1, e2, e3, e4, e5⟩ := idx_facts6 t
  refine ⟨t, flush6_2 t, ?_⟩
  rw [mem_blk6]
  intro a
  match a with
  | ⟨0, _⟩ => show win6_2.index t (0 : Fin 2) * 2000 ≤ (i 0).val ∧ (i 0).val < win6_2.index t (0 : Fin 2) * 2000 + 2000; rw [e4, ht]; omega
  | ⟨1, _⟩ => show win6_2.index t (1 : Fin 2) * 128 ≤ (i 1).val ∧ (i 1).val < win6_2.index t (1 : Fin 2) * 128 + 128; rw [e5]; omega

end MM6

open Idealize.ShloMosaic.ValueIdx in
theorem final6 (c : Dev nD) : (dat6 (F := Ideal) V c).arrAt 2 cfg6.N = Cert.Spec.dense128 (V c main_v68) (V c main_arg7) := by
  refine ((dat6 (F := Ideal) V c).arrAt_eq_of_cover 2 (MM.G128 (V c main_v68) (V c main_arg7)) (fun t _ => MM6.flushed6_eq V c t) MM6.cover6).trans ?_
  funext i
  obtain ⟨a, b, rfl⟩ : ∃ (a : Fin 50000) (b : Fin 128), i = ix2 a b := ⟨i 0, i 1, eq_ix2 i⟩
  exact (MM.dense128_apply (V c main_v68) (V c main_arg7) a b).symm

end Cert.KReg

end
-- ==== Proof.Reg7.lean ====
/-
  Region 7: each row of the summed rows divided by its degree. The region's chain over 25 points stages rows
  [2000 t, 2000 t + 2000) of the summed rows and of the degree column and the whole 1 × 128 bias row, and stores
  x / d + bias; the bias row is zero, and a + 0 = a on the extended reals, so the array the region leaves is the
  row-wise quotient of the whole arrays. Per point: the payload read at an index, each block's entry as an entry of its
  array (a block's coordinate on an axis is index × size + the coordinate inside the block); then the 25 blocks cover the
  50000 rows.
-/
import proofs.«110701_j74509092651627_1_alg».proof.Proof.Gen.KernelIdeal.Frame
import proofs.«110701_j74509092651627_1_alg».proof.Proof.Spec
import proofs.«110701_j74509092651627_1_alg».proof.Proof.RegNorm
import Idealize.ShloMosaic.Lib.Pipeline.Value

noncomputable section

namespace Cert.KReg.Norm7

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-- The store's offsets are all zero. -/
theorem zero_offsets7 : (![0, 0] : Fin 2 → Nat) = fun _ => 0 := funext fun a => by fin_cases a <;> rfl

/-- The region's payload read at `(p, q)`: x0(p,q) / x1(p,0) + x2(0,q). -/
theorem pay7_apply (x0 : Vec Ideal S2000x128 .f32) (x1 : Vec Ideal S2000x1 .f32) (x2 : Vec Ideal S1x128 .f32)
    (p : Fin 2000) (q : Fin 128) :
    k7_pay1 x0 x1 x2 (ix2 p q) = Ideal.div (x0 (ix2 p q)) (x1 (ix2 p (0 : Fin 1))) + x2 (ix2 (0 : Fin 1) q) :=
  Norm.pay_apply x0 x1 x2 _ _ _ _ _ p q

/-- The printed index maps, decided over the grid: point `t` stages row block `t` of the summed rows, of the degree column
    and of the output, and the whole bias row. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- WHAT POINT `t` WRITES BACK is block `t` of the row-wise quotient of the arrays as the region finds them. -/
theorem flushed7_eq (c : Dev nD) (hb : V c main_v81 = Cert.Spec.row128 Cert.Spec.zero128) (t : Fin cfg7.N) :
    (dat7 (F := Ideal) V c).flushed 3 t
      = ((cfg7.win 3).blk t).view.read (Elt Ideal) (Cert.Spec.norm128 (V c main_v79) (V c main_v16)) := by
  show (cfg7.win 3).cut (grid7.coords t) ((dat7 V c).after 3 t) = _
  rw [after7_3]
  unfold out7_3
  rw [View.canon_unit_zero zero_offsets7]
  simp only [View.ld_unit_zero (S := S2000x128) zero_offsets7, View.ld_unit_zero (S := S2000x1) zero_offsets7,
    View.ld_unit_zero (S := S1x128) zero_offsets7]
  obtain ⟨e0, e1, e2, e3, e4, e5, e6, e7⟩ := idx_facts7 t
  have hN : t.val < 25 := t.isLt
  funext j
  obtain ⟨p, q, rfl⟩ : ∃ (p : Fin 2000) (q : Fin 128), j = ix2 p q := ⟨j 0, j 1, eq_ix2 j⟩
  show k7_pay1 (iblk7 V c 0 t) (iblk7 V c 1 t) (iblk7 V c 2 t) (ix2 p q)
    = Cert.Spec.norm128 (V c main_v79) (V c main_v16) (((cfg7.win 3).blk t).view.emb (ix2 p q))
  refine (pay7_apply _ _ _ p q).trans ?_
  show Ideal.div (V c main_v79 (((cfg7.win 0).blk t).view.emb (ix2 p q)))
        (V c main_v16 (((cfg7.win 1).blk t).view.emb (ix2 p (0 : Fin 1))))
      + V c main_v81 (((cfg7.win 2).blk t).view.emb (ix2 (0 : Fin 1) q)) = _
  -- row `p` of block `t` is row `2000 t + p` of the array
  have hI : t.val * 2000 + p.val < 50000 := by have := p.isLt; omega
  have h0 : ((cfg7.win 0).blk t).view.emb (ix2 p q) = (ix2 (⟨t.val * 2000 + p.val, hI⟩ : Fin 50000) q : S50000x128.Idx) := by
    funext a; apply Fin.ext
    match a with
    | ⟨0, _⟩ => show win7_0.index t (0 : Fin 2) * 2000 + 1 * p.val = t.val * 2000 + p.val; omega
    | ⟨1, _⟩ => show win7_0.index t (1 : Fin 2) * 128 + 1 * q.val = q.val; omega
  have h1 : ((cfg7.win 1).blk t).view.emb (ix2 p (0 : Fin 1)) = (ix2 (⟨t.val * 2000 + p.val, hI⟩ : Fin 50000) (0 : Fin 1) : S50000x1.Idx) := by
    funext a; apply Fin.ext
    match a with
    | ⟨0, _⟩ => show win7_1.index t (0 : Fin 2) * 2000 + 1 * p.val = t.val * 2000 + p.val; omega
    | ⟨1, _⟩ => show win7_1.index t (1 : Fin 2) * 1 + 1 * 0 = 0; omega
  have h2 : ((cfg7.win 2).blk t).view.emb (ix2 (0 : Fin 1) q) = (ix2 (0 : Fin 1) q : S1x128.Idx) := by
    funext a; apply Fin.ext
    match a with
    | ⟨0, _⟩ => show win7_2.index t (0 : Fin 2) * 1 + 1 * 0 = 0; omega
    | ⟨1, _⟩ => show win7_2.index t (1 : Fin 2) * 128 + 1 * q.val = q.val; omega
  have h3 : ((cfg7.win 3).blk t).view.emb (ix2 p q) = (ix2 (⟨t.val * 2000 + p.val, hI⟩ : Fin 50000) q : S50000x128.Idx) := by
    funext a; apply Fin.ext
    match a with
    | ⟨0, _⟩ => show win7_3.index t (0 : Fin 2) * 2000 + 1 * p.val = t.val * 2000 + p.val; omega
    | ⟨1, _⟩ => show win7_3.index t (1 : Fin 2) * 128 + 1 * q.val = q.val; omega
  rw [h0, h1, h2, h3, hb]
  exact Norm.point_value (V c main_v79) (V c main_v16) _ _ _ ⟨t.val * 2000 + p.val, hI⟩ q

/-- An index of the array is in point `t`'s block iff each coordinate is in the block's range on its axis. -/
theorem mem_blk7 (t : Fin cfg7.N) (i : S50000x128.Idx) :
    i ∈ ((cfg7.win 3).blk t).view.set ↔ ∀ a : Fin 2, win7_3.index t a * S2000x128.size a ≤ (i a).val
      ∧ (i a).val < win7_3.index t a * S2000x128.size a + S2000x128.size a := by
  show i ∈ ((View.whole main_v82).slice (win7_3.rect t)).set ↔ _
  rw [View.set_slice_whole, Rect.mem_set_unit]
  exact Iff.rfl

/-- Every index is covered: row `r` lies in the block of point `r / 2000`, and 25 · 2000 = 50000. -/
theorem cover7 (i : S50000x128.Idx) :
    ∃ t : Fin cfg7.N, (cfg7.win 3).flush t = true ∧ i ∈ ((cfg7.win 3).blk t).view.set := by
  have hi0 : (i 0).val < 50000 := (i 0).isLt
  have hi1 : (i 1).val < 128 := (i 1).isLt
  have hlt : (i 0).val / 2000 < cfg7.N := by rw [show cfg7.N = 25 from N_7]; omega
  obtain ⟨e0, e1, e2, e3, e4, e5, e6, e7⟩ := idx_facts7 ⟨(i 0).val / 2000, hlt⟩
  have e6' : win7_3.index ⟨(i 0).val / 2000, hlt⟩ (0 : Fin 2) = (i 0).val / 2000 := e6
  refine ⟨⟨(i 0).val / 2000, hlt⟩, flush7_3 _, ?_⟩
  rw [mem_blk7]
  intro a
  match a with
  | ⟨0, _⟩ =>
    show win7_3.index ⟨(i 0).val / 2000, hlt⟩ (0 : Fin 2) * 2000 ≤ (i 0).val
      ∧ (i 0).val < win7_3.index ⟨(i 0).val / 2000, hlt⟩ (0 : Fin 2) * 2000 + 2000
    omega
  | ⟨1, _⟩ =>
    show win7_3.index ⟨(i 0).val / 2000, hlt⟩ (1 : Fin 2) * 128 ≤ (i 1).val
      ∧ (i 1).val < win7_3.index ⟨(i 0).val / 2000, hlt⟩ (1 : Fin 2) * 128 + 128
    omega

end Cert.KReg.Norm7

namespace Cert.KReg

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- THE ARRAY the region leaves: each row of the summed rows divided by its degree. -/
theorem final7 (c : Dev nD) (hb : V c main_v81 = Cert.Spec.row128 Cert.Spec.zero128) :
    (dat7 (F := Ideal) V c).arrAt 3 cfg7.N = Cert.Spec.norm128 (V c main_v79) (V c main_v16) :=
  (dat7 (F := Ideal) V c).arrAt_eq_of_cover 3 (Cert.Spec.norm128 (V c main_v79) (V c main_v16))
    (fun t _ => Norm7.flushed7_eq V c hb t) Norm7.cover7

end Cert.KReg

end
-- ==== Proof.Reg8.lean ====
/-
  Region 8: the last layer's tail. Every row of the summed rows is divided by its degree and the bias row is added.
  The grid has 25 points; point t stages rows [2000 t, 2000 t + 2000) of the summed rows and of the degree column
  and the whole bias row, and writes the same rows of the result. Read entry by entry, what a point stores is the
  specification's array at the entry moved to the point's rows; the 25 blocks cover the 50000 rows.
-/
import proofs.«110701_j74509092651627_1_alg».proof.Proof.Gen.KernelIdeal.Frame
import proofs.«110701_j74509092651627_1_alg».proof.Proof.Spec
import proofs.«110701_j74509092651627_1_alg».proof.Proof.RegBias

set_option maxRecDepth 16384

noncomputable section

namespace Cert.KReg

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

namespace Bias8

open Idealize.ShloMosaic.ValueIdx Cert.KReg.Bias
open Idealize.ShloMosaic.Pipeline (Dat)

/-- The payload at (p, q): the block's entry divided by the column's entry p, plus the row's entry q. -/
theorem pay_apply (x0 : Vec Ideal S2000x128 .f32) (x1 : Vec Ideal S2000x1 .f32) (x2 : Vec Ideal S1x128 .f32)
    (p : Fin 2000) (q : Fin 128) :
    k8_pay1 x0 x1 x2 (ix2 p q) = Ideal.div (x0 (ix2 p q)) (x1 (ix2 p (0 : Fin 1))) + x2 (ix2 (0 : Fin 1) q) := by
  unfold k8_pay1
  simp only [shapeCast_self]
  rw [addf_apply, divf_apply, broadcastTo_a1_ab_apply (a := 2000) (b := 128), broadcastTo_1b_ab_apply (a := 2000) (b := 128)]

/-- The specification's array at (i, j): the summed rows' entry divided by row i's degree, plus the bias at j. -/
theorem spec_apply (xr : Cert.Spec.FA Cert.ReferenceIdeal.S50000x128) (deg : Cert.Spec.FA Cert.ReferenceIdeal.S50000x1)
    (b : Cert.Spec.FA Cert.ReferenceIdeal.S128) (i : Fin 50000) (j : Fin 128) :
    Cert.Spec.bias128 (Cert.Spec.norm128 xr deg) b (ix2 i j) = Ideal.div (xr (ix2 i j)) (deg (ix2 i (0 : Fin 1))) + b (ix1 j) := by
  show Ideal.div (xr (ix2 i j)) (broadcastInDim _ _ _ deg (ix2 i j)) + broadcastInDim _ _ _ (broadcastInDim _ _ _ b) (ix2 i j) = _
  rw [bcastInDim_col_apply (a := 50000) (b := 128), bcastInDim_bias_apply (a := 50000) (b := 128)]

/-- The index maps, decided over the grid: windows 0, 1 and 3 are at block (t, 0), window 2 at block (0, 0). -/
theorem idx_facts : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 ∧ t.val < 25 :=
  (by decide +kernel : ∀ t : Fin grid8.N, _)

/-- Window 0's block at point t, entry x, is the summed rows' entry k when k is x moved 2000 t rows down. -/
theorem iblk0_apply (c : Dev nD) (t : Fin cfg8.N) (x : S2000x128.Idx) (k : S50000x128.Idx)
    (hk0 : (k 0).val = 2000 * t.val + (x 0).val) (hk1 : (k 1).val = (x 1).val) :
    (iblk8 V c 0 t : Vec Ideal S2000x128 .f32) x = (V c main_v92 : S50000x128.Idx → Ideal .f32) k := by
  obtain ⟨e0, e1, -⟩ := idx_facts t
  unfold iblk8
  rw [View.read_apply]
  show V c main_v92 _ = V c main_v92 _
  congr 1
  funext a
  apply Fin.ext
  match a with
  | ⟨0, _⟩ => show win8_0.index t 0 * 2000 + 1 * (x 0).val = (k 0).val; rw [e0, hk0]; omega
  | ⟨1, _⟩ => show win8_0.index t 1 * 128 + 1 * (x 1).val = (k 1).val; rw [e1, hk1]; omega

/-- Window 1's block at point t, entry x, is the degree column's entry k when k is x moved 2000 t rows down. -/
theorem iblk1_apply (c : Dev nD) (t : Fin cfg8.N) (x : S2000x1.Idx) (k : S50000x1.Idx)
    (hk0 : (k 0).val = 2000 * t.val + (x 0).val) (hk1 : (k 1).val = (x 1).val) :
    (iblk8 V c 1 t : Vec Ideal S2000x1 .f32) x = (V c main_v10 : S50000x1.Idx → Ideal .f32) k := by
  obtain ⟨-, -, e2, e3, -⟩ := idx_facts t
  unfold iblk8
  rw [View.read_apply]
  show V c main_v10 _ = V c main_v10 _
  congr 1
  funext a
  apply Fin.ext
  match a with
  | ⟨0, _⟩ => show win8_1.index t 0 * 2000 + 1 * (x 0).val = (k 0).val; rw [e2, hk0]; omega
  | ⟨1, _⟩ => show win8_1.index t 1 * 1 + 1 * (x 1).val = (k 1).val; rw [e3, hk1]; omega

/-- Window 2's block at any point is the whole bias row: its entry (0, q) is the bias at q. -/
theorem iblk2_apply (c : Dev nD) (b : Cert.Spec.FA S128) (hb : V c main_v93 = Cert.Spec.row128 b) (t : Fin cfg8.N)
    (q q' : Fin 128) (h : q'.val = q.val) :
    (iblk8 V c 2 t : Vec Ideal S1x128 .f32) (ix2 (0 : Fin 1) q) = b (ix1 q') := by
  obtain ⟨-, -, -, -, e4, e5, -⟩ := idx_facts t
  unfold iblk8
  rw [View.read_apply]
  show V c main_v93 _ = _
  rw [hb]
  unfold Cert.Spec.row128
  refine Eq.trans (congrArg _ ?_) (shapeCast_row_apply b _ q')
  funext a
  apply Fin.ext
  match a with
  | ⟨0, _⟩ => show win8_2.index t 0 * 1 + 1 * 0 = 0; rw [e4]
  | ⟨1, _⟩ => show win8_2.index t 1 * 128 + 1 * q.val = q'.val; rw [e5, h]; omega

/-- One entry of what a point stores: entry x of its block is the specification's array at k, x moved to the point's rows. -/
theorem point (c : Dev nD) (b : Cert.Spec.FA S128) (hb : V c main_v93 = Cert.Spec.row128 b) (t : Fin cfg8.N)
    (x : S2000x128.Idx) (k : S50000x128.Idx)
    (hk0 : (k 0).val = 2000 * t.val + (x 0).val) (hk1 : (k 1).val = (x 1).val) :
    k8_pay1 (iblk8 V c 0 t) (iblk8 V c 1 t) (iblk8 V c 2 t) x
      = Cert.Spec.bias128 (Cert.Spec.norm128 (V c main_v92) (V c main_v10)) b k := by
  refine (congrArg (k8_pay1 _ _ _) (eq_ix2 x)).trans ?_
  refine (pay_apply _ _ _ (x 0) (x 1)).trans ?_
  refine Eq.trans ?_ (congrArg (Cert.Spec.bias128 _ b) (eq_ix2 k)).symm
  refine Eq.trans ?_ (spec_apply _ _ _ (k 0) (k 1)).symm
  rw [iblk0_apply V c t (ix2 (x 0) (x 1)) (ix2 (k 0) (k 1)) hk0 hk1,
    iblk1_apply V c t (ix2 (x 0) (0 : Fin 1)) (ix2 (k 0) (0 : Fin 1)) hk0 rfl,
    iblk2_apply V c b hb t (x 1) (k 1) hk1]

/-- What point t writes back is block t of the specification's array. -/
theorem flushed_eq (c : Dev nD) (b : Cert.Spec.FA S128) (hb : V c main_v93 = Cert.Spec.row128 b) (t : Fin cfg8.N) :
    (dat8 (F := Ideal) V c).flushed 3 t = ((cfg8.win 3).blk t).view.read (Elt Ideal) (Cert.Spec.bias128 (Cert.Spec.norm128 (V c main_v92) (V c main_v10)) b) := by
  show (cfg8.win 3).cut (grid8.coords t) ((dat8 V c).after 3 t) = _
  rw [after8_3]
  unfold out8_3
  rw [View.canon_unit_zero hz]
  simp only [View.ld_unit_zero (S := S2000x128) hz, View.ld_unit_zero (S := S2000x1) hz, View.ld_unit_zero (S := S1x128) hz]
  funext j
  obtain ⟨-, -, -, -, -, -, e6, e7, -⟩ := idx_facts t
  rw [View.read_apply]
  refine point V c b hb t ((win8 3).xinj (grid8.coords t) j) _ ?_ ?_
  · show win8_3.index t 0 * 2000 + 1 * (j 0).val = 2000 * t.val + (j 0).val
    rw [e6]; omega
  · show win8_3.index t 1 * 128 + 1 * (j 1).val = (j 1).val
    rw [e7]; omega

/-- An index of the array is in point t's block iff each coordinate is in the block's range on its axis. -/
theorem mem_blk (t : Fin cfg8.N) (i : S50000x128.Idx) :
    i ∈ ((cfg8.win 3).blk t).view.set ↔ ∀ a : Fin 2, win8_3.index t a * S2000x128.size a ≤ (i a).val ∧ (i a).val < win8_3.index t a * S2000x128.size a + S2000x128.size a := by
  show i ∈ ((View.whole main_v94).slice (win8_3.rect t)).set ↔ _
  rw [View.set_slice_whole, Rect.mem_set_unit]
  exact Iff.rfl

/-- Row r lies in the block of point r / 2000, and 25 · 2000 = 50000: the blocks cover the array. -/
theorem cover (i : S50000x128.Idx) : ∃ t : Fin cfg8.N, (cfg8.win 3).flush t = true ∧ i ∈ ((cfg8.win 3).blk t).view.set := by
  have hi0 : (i 0).val < 50000 := (i 0).isLt
  have hi1 : (i 1).val < 128 := (i 1).isLt
  have hN : cfg8.N = 25 := N_8
  have ht : (i 0).val / 2000 < cfg8.N := by rw [hN]; omega
  refine ⟨⟨(i 0).val / 2000, ht⟩, flush8_3 _, ?_⟩
  rw [mem_blk]
  obtain ⟨-, -, -, -, -, -, e6, e7, -⟩ := idx_facts ⟨(i 0).val / 2000, ht⟩
  intro a
  match a with
  | ⟨0, _⟩ =>
    show win8_3.index _ (0 : Fin 2) * 2000 ≤ (i 0).val ∧ (i 0).val < win8_3.index _ (0 : Fin 2) * 2000 + 2000
    rw [e6]
    show (i 0).val / 2000 * 2000 ≤ (i 0).val ∧ (i 0).val < (i 0).val / 2000 * 2000 + 2000
    omega
  | ⟨1, _⟩ =>
    show win8_3.index _ (1 : Fin 2) * 128 ≤ (i 1).val ∧ (i 1).val < win8_3.index _ (1 : Fin 2) * 128 + 128
    rw [e7]; omega

end Bias8

theorem final8 (c : Dev nD) (b : Cert.Spec.FA S128) (hb : V c main_v93 = Cert.Spec.row128 b) :
    (dat8 (F := Ideal) V c).arrAt 3 cfg8.N = Cert.Spec.bias128 (Cert.Spec.norm128 (V c main_v92) (V c main_v10)) b :=
  (dat8 (F := Ideal) V c).arrAt_eq_of_cover 3 _ (fun t _ => Bias8.flushed_eq V c b hb t) Bias8.cover

end Cert.KReg

end
-- ==== Proof.KChain.lean ====
/-
  What the idealized kernel's last segment boundary holds at the result buffer: the network `Spec.out` of the argument
  arrays as launched.

  The segment fold of the frame is walked forward from the launch memory. A stretch of host operations is read back as
  the stage it computes (the two index vectors and the two degree columns first; then, between regions, one gather and
  scatter-add and the bias laid out as a row). A region's output array is its `final` theorem at the region's entry
  contents. A buffer that a segment neither writes nor flushes keeps its contents; an array a region only reads through
  an input window keeps them too. Composing the sixteen steps gives the three layers in order.
-/
import proofs.«110701_j74509092651627_1_alg».proof.Proof.Gen.KernelIdeal.Frame
import proofs.«110701_j74509092651627_1_alg».proof.Proof.Spec
import proofs.«110701_j74509092651627_1_alg».proof.Proof.Reg0
import proofs.«110701_j74509092651627_1_alg».proof.Proof.Reg1
import proofs.«110701_j74509092651627_1_alg».proof.Proof.Reg2
import proofs.«110701_j74509092651627_1_alg».proof.Proof.Reg3
import proofs.«110701_j74509092651627_1_alg».proof.Proof.Reg4
import proofs.«110701_j74509092651627_1_alg».proof.Proof.Reg5
import proofs.«110701_j74509092651627_1_alg».proof.Proof.Reg6
import proofs.«110701_j74509092651627_1_alg».proof.Proof.Reg7
import proofs.«110701_j74509092651627_1_alg».proof.Proof.Reg8
import Idealize.ShloMosaic.Lib.StableHlo.Run

set_option maxRecDepth 16384

noncomputable section

namespace Cert.KChain

open Cert.KernelIdeal Cert.KernelIdeal.Gen
open Idealize.ShloMosaic Idealize.ShloMosaic.TcCoe Idealize.SL.Sem Idealize.ShloMosaic.StableHlo
open Cert.Spec (FA IA vi hi degree agg256 agg128 dense256 dense128 norm256 norm128 bias256 bias128 elu row256 row128 zero256 zero128)

/-- A buffer that no operation of a host stretch writes keeps its contents through the stretch. -/
local macro "hkeep" ops:ident : term =>
  `(StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## The host stretches, each read back over any contents -/

section Stretches

-- a read-back walks every operation of its stretch
set_option maxHeartbeats 4000000

variable (V : Valuation τ sig (Elt Ideal))

theorem host0_v1 : after hostOps0 V (Proc.devRef .tc main_v1) = vi (V (Proc.devRef .tc main_arg1)) := by
  after_results_simp; rfl
theorem host0_v3 : after hostOps0 V (Proc.devRef .tc main_v3) = hi (V (Proc.devRef .tc main_arg1)) := by
  after_results_simp; rfl
theorem host0_v10 : after hostOps0 V (Proc.devRef .tc main_v10) = degree (vi (V (Proc.devRef .tc main_arg1))) := by
  after_results_simp; rfl
theorem host0_v16 : after hostOps0 V (Proc.devRef .tc main_v16) = degree (hi (V (Proc.devRef .tc main_arg1))) := by
  after_results_simp; rfl

theorem host1_v27 : after hostOps1 V (Proc.devRef .tc main_v27)
    = agg256 (V (Proc.devRef .tc main_v1)) (V (Proc.devRef .tc main_v3)) (V (Proc.devRef .tc main_v17)) := by
  after_results_simp; rfl
theorem host1_v29 : after hostOps1 V (Proc.devRef .tc main_v29) = row256 zero256 := by
  after_results_simp; rfl

theorem host2_v40 : after hostOps2 V (Proc.devRef .tc main_v40)
    = agg256 (V (Proc.devRef .tc main_v3)) (V (Proc.devRef .tc main_v1)) (V (Proc.devRef .tc main_v30)) := by
  after_results_simp; rfl
theorem host2_v41 : after hostOps2 V (Proc.devRef .tc main_v41) = row256 (V (Proc.devRef .tc main_arg4)) := by
  after_results_simp; rfl

theorem host4_v53 : after hostOps4 V (Proc.devRef .tc main_v53)
    = agg256 (V (Proc.devRef .tc main_v1)) (V (Proc.devRef .tc main_v3)) (V (Proc.devRef .tc main_v43)) := by
  after_results_simp; rfl
theorem host4_v55 : after hostOps4 V (Proc.devRef .tc main_v55) = row256 zero256 := by
  after_results_simp; rfl

theorem host5_v66 : after hostOps5 V (Proc.devRef .tc main_v66)
    = agg256 (V (Proc.devRef .tc main_v3)) (V (Proc.devRef .tc main_v1)) (V (Proc.devRef .tc main_v56)) := by
  after_results_simp; rfl
theorem host5_v67 : after hostOps5 V (Proc.devRef .tc main_v67) = row256 (V (Proc.devRef .tc main_arg6)) := by
  after_results_simp; rfl

theorem host7_v79 : after hostOps7 V (Proc.devRef .tc main_v79)
    = agg128 (V (Proc.devRef .tc main_v1)) (V (Proc.devRef .tc main_v3)) (V (Proc.devRef .tc main_v69)) := by
  after_results_simp; rfl
theorem host7_v81 : after hostOps7 V (Proc.devRef .tc main_v81) = row128 zero128 := by
  after_results_simp; rfl

theorem host8_v92 : after hostOps8 V (Proc.devRef .tc main_v92)
    = agg128 (V (Proc.devRef .tc main_v3)) (V (Proc.devRef .tc main_v1)) (V (Proc.devRef .tc main_v82)) := by
  after_results_simp; rfl
theorem host8_v93 : after hostOps8 V (Proc.devRef .tc main_v93) = row128 (V (Proc.devRef .tc main_arg8)) := by
  after_results_simp; rfl

end Stretches

/-! ## The values along the run -/

variable (m : (ℓ : Loc nD τ sig) → Buf (Elt Ideal) ℓ) (ρ : Dev nD → PrngReg) (c : Dev nD)

/-- The node of each incidence. -/
def sVI : IA S800000 := vi (m ((c : Thread nD τ).loc main_arg1))
/-- The hyperedge of each incidence. -/
def sHI : IA S800000 := hi (m ((c : Thread nD τ).loc main_arg1))
/-- The node degrees. -/
def sDV : FA S50000x1 := degree (sVI m c)
/-- The hyperedge degrees. -/
def sDE : FA S50000x1 := degree (sHI m c)
/-- Layer 1: the projection, the hyperedge averages, the activated node averages. -/
def sM1 : FA S50000x256 := dense256 (m ((c : Thread nD τ).loc main_arg0)) (m ((c : Thread nD τ).loc main_arg3))
def sE1 : FA S50000x256 := norm256 (agg256 (sVI m c) (sHI m c) (sM1 m c)) (sDE m c)
def sH1 : FA S50000x256 := elu (bias256 (norm256 (agg256 (sHI m c) (sVI m c) (sE1 m c)) (sDV m c)) (m ((c : Thread nD τ).loc main_arg4)))
/-- Layer 2. -/
def sM2 : FA S50000x256 := dense256 (sH1 m c) (m ((c : Thread nD τ).loc main_arg5))
def sE2 : FA S50000x256 := norm256 (agg256 (sVI m c) (sHI m c) (sM2 m c)) (sDE m c)
def sH2 : FA S50000x256 := elu (bias256 (norm256 (agg256 (sHI m c) (sVI m c) (sE2 m c)) (sDV m c)) (m ((c : Thread nD τ).loc main_arg6)))
/-- Layer 3. -/
def sM3 : FA S50000x128 := dense128 (sH2 m c) (m ((c : Thread nD τ).loc main_arg7))
def sE3 : FA S50000x128 := norm128 (agg128 (sVI m c) (sHI m c) (sM3 m c)) (sDE m c)
def sOut : FA S50000x128 := bias128 (norm128 (agg128 (sHI m c) (sVI m c) (sE3 m c)) (sDV m c)) (m ((c : Thread nD τ).loc main_arg8))

/-- The composed stages are the network. -/
theorem sOut_eq : sOut m c = Cert.Spec.out (m ((c : Thread nD τ).loc main_arg0)) (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) := rfl

/-! ## The buffers later segments still read -/

/-- The two index vectors, the two degree columns, and the weights and biases of the later layers. -/
abbrev live : List (Ref sig .tc) :=
  [main_v1, main_v3, main_v10, main_v16, main_arg4, main_arg5, main_arg6, main_arg7, main_arg8]

/-- The second contents agree with the first on every such buffer. -/
def Keeps (Wa Wb : Valuation τ sig (Elt Ideal)) : Prop :=
  ∀ r ∈ live, Wb (Proc.devRef .tc r) = Wa (Proc.devRef .tc r)

theorem Keeps.trans {Wa Wb Wc : Valuation τ sig (Elt Ideal)} (h₁ : Keeps Wa Wb) (h₂ : Keeps Wb Wc) : Keeps Wa Wc :=
  fun r hr => (h₂ r hr).trans (h₁ r hr)

/-! Each segment keeps them: a region does not flush into them (where one is the region's second operand, an input
    window, its array ends as it was entered), and a host stretch does not write them. -/

theorem keep_2 : Keeps (W1 m ρ c) (W2 m ρ c) := by
  intro r hr
  simp only [live, List.mem_cons, List.mem_nil_iff, or_false] at hr
  rcases hr with rfl | rfl | rfl | rfl | rfl | rfl | rfl | rfl | rfl <;>
    first
      | exact W2_of_ne m ρ c _ (by decide)
      | exact (W2_arr m ρ c 1).trans (((dat0 (V1 m ρ) c).arrAt_in 1 rfl _).trans (A_eq0 (V1 m ρ) c 1))
theorem keep_3 : Keeps (W2 m ρ c) (W3 m ρ c) := by
  intro r hr
  simp only [live, List.mem_cons, List.mem_nil_iff, or_false] at hr
  rcases hr with rfl | rfl | rfl | rfl | rfl | rfl | rfl | rfl | rfl <;> exact hkeep hostOps1
theorem keep_4 : Keeps (W3 m ρ c) (W4 m ρ c) := by
  intro r hr
  simp only [live, List.mem_cons, List.mem_nil_iff, or_false] at hr
  rcases hr with rfl | rfl | rfl | rfl | rfl | rfl | rfl | rfl | rfl <;>
    first
      | exact W4_of_ne m ρ c _ (by decide)
      | exact (W4_arr m ρ c 1).trans (((dat1 (V3 m ρ) c).arrAt_in 1 rfl _).trans (A_eq1 (V3 m ρ) c 1))
theorem keep_5 : Keeps (W4 m ρ c) (W5 m ρ c) := by
  intro r hr
  simp only [live, List.mem_cons, List.mem_nil_iff, or_false] at hr
  rcases hr with rfl | rfl | rfl | rfl | rfl | rfl | rfl | rfl | rfl <;> exact hkeep hostOps2
theorem keep_6 : Keeps (W5 m ρ c) (W6 m ρ c) := by
  intro r hr
  simp only [live, List.mem_cons, List.mem_nil_iff, or_false] at hr
  rcases hr with rfl | rfl | rfl | rfl | rfl | rfl | rfl | rfl | rfl <;>
    first
      | exact W6_of_ne m ρ c _ (by decide)
      | exact (W6_arr m ρ c 1).trans (((dat2 (V5 m ρ) c).arrAt_in 1 rfl _).trans (A_eq2 (V5 m ρ) c 1))
theorem keep_7 : Keeps (W6 m ρ c) (W7 m ρ c) := by
  intro r hr
  simp only [live, List.mem_cons, List.mem_nil_iff, or_false] at hr
  rcases hr with rfl | rfl | rfl | rfl | rfl | rfl | rfl | rfl | rfl <;>
    first
      | exact W7_of_ne m ρ c _ (by decide)
      | exact (W7_arr m ρ c 1).trans (((dat3 (V6 m ρ) c).arrAt_in 1 rfl _).trans (A_eq3 (V6 m ρ) c 1))
theorem keep_8 : Keeps (W7 m ρ c) (W8 m ρ c) := by
  intro r hr
  simp only [live, List.mem_cons, List.mem_nil_iff, or_false] at hr
  rcases hr with rfl | rfl | rfl | rfl | rfl | rfl | rfl | rfl | rfl <;> exact hkeep hostOps4
theorem keep_9 : Keeps (W8 m ρ c) (W9 m ρ c) := by
  intro r hr
  simp only [live, List.mem_cons, List.mem_nil_iff, or_false] at hr
  rcases hr with rfl | rfl | rfl | rfl | rfl | rfl | rfl | rfl | rfl <;>
    first
      | exact W9_of_ne m ρ c _ (by decide)
      | exact (W9_arr m ρ c 1).trans (((dat4 (V8 m ρ) c).arrAt_in 1 rfl _).trans (A_eq4 (V8 m ρ) c 1))
theorem keep_10 : Keeps (W9 m ρ c) (W10 m ρ c) := by
  intro r hr
  simp only [live, List.mem_cons, List.mem_nil_iff, or_false] at hr
  rcases hr with rfl | rfl | rfl | rfl | rfl | rfl | rfl | rfl | rfl <;> exact hkeep hostOps5
theorem keep_11 : Keeps (W10 m ρ c) (W11 m ρ c) := by
  intro r hr
  simp only [live, List.mem_cons, List.mem_nil_iff, or_false] at hr
  rcases hr with rfl | rfl | rfl | rfl | rfl | rfl | rfl | rfl | rfl <;>
    first
      | exact W11_of_ne m ρ c _ (by decide)
      | exact (W11_arr m ρ c 1).trans (((dat5 (V10 m ρ) c).arrAt_in 1 rfl _).trans (A_eq5 (V10 m ρ) c 1))
theorem keep_12 : Keeps (W11 m ρ c) (W12 m ρ c) := by
  intro r hr
  simp only [live, List.mem_cons, List.mem_nil_iff, or_false] at hr
  rcases hr with rfl | rfl | rfl | rfl | rfl | rfl | rfl | rfl | rfl <;>
    first
      | exact W12_of_ne m ρ c _ (by decide)
      | exact (W12_arr m ρ c 1).trans (((dat6 (V11 m ρ) c).arrAt_in 1 rfl _).trans (A_eq6 (V11 m ρ) c 1))
theorem keep_13 : Keeps (W12 m ρ c) (W13 m ρ c) := by
  intro r hr
  simp only [live, List.mem_cons, List.mem_nil_iff, or_false] at hr
  rcases hr with rfl | rfl | rfl | rfl | rfl | rfl | rfl | rfl | rfl <;> exact hkeep hostOps7
theorem keep_14 : Keeps (W13 m ρ c) (W14 m ρ c) := by
  intro r hr
  simp only [live, List.mem_cons, List.mem_nil_iff, or_false] at hr
  rcases hr with rfl | rfl | rfl | rfl | rfl | rfl | rfl | rfl | rfl <;>
    first
      | exact W14_of_ne m ρ c _ (by decide)
      | exact (W14_arr m ρ c 1).trans (((dat7 (V13 m ρ) c).arrAt_in 1 rfl _).trans (A_eq7 (V13 m ρ) c 1))
theorem keep_15 : Keeps (W14 m ρ c) (W15 m ρ c) := by
  intro r hr
  simp only [live, List.mem_cons, List.mem_nil_iff, or_false] at hr
  rcases hr with rfl | rfl | rfl | rfl | rfl | rfl | rfl | rfl | rfl <;> exact hkeep hostOps8

/-- From the first region's entry to each later boundary. -/
theorem kept_2 : Keeps (W1 m ρ c) (W2 m ρ c) := keep_2 m ρ c
theorem kept_3 : Keeps (W1 m ρ c) (W3 m ρ c) := (kept_2 m ρ c).trans (keep_3 m ρ c)
theorem kept_4 : Keeps (W1 m ρ c) (W4 m ρ c) := (kept_3 m ρ c).trans (keep_4 m ρ c)
theorem kept_5 : Keeps (W1 m ρ c) (W5 m ρ c) := (kept_4 m ρ c).trans (keep_5 m ρ c)
theorem kept_6 : Keeps (W1 m ρ c) (W6 m ρ c) := (kept_5 m ρ c).trans (keep_6 m ρ c)
theorem kept_7 : Keeps (W1 m ρ c) (W7 m ρ c) := (kept_6 m ρ c).trans (keep_7 m ρ c)
theorem kept_8 : Keeps (W1 m ρ c) (W8 m ρ c) := (kept_7 m ρ c).trans (keep_8 m ρ c)
theorem kept_9 : Keeps (W1 m ρ c) (W9 m ρ c) := (kept_8 m ρ c).trans (keep_9 m ρ c)
theorem kept_10 : Keeps (W1 m ρ c) (W10 m ρ c) := (kept_9 m ρ c).trans (keep_10 m ρ c)
theorem kept_11 : Keeps (W1 m ρ c) (W11 m ρ c) := (kept_10 m ρ c).trans (keep_11 m ρ c)
theorem kept_12 : Keeps (W1 m ρ c) (W12 m ρ c) := (kept_11 m ρ c).trans (keep_12 m ρ c)
theorem kept_13 : Keeps (W1 m ρ c) (W13 m ρ c) := (kept_12 m ρ c).trans (keep_13 m ρ c)
theorem kept_14 : Keeps (W1 m ρ c) (W14 m ρ c) := (kept_13 m ρ c).trans (keep_14 m ρ c)
theorem kept_15 : Keeps (W1 m ρ c) (W15 m ρ c) := (kept_14 m ρ c).trans (keep_15 m ρ c)

/-- What the first stretch leaves in them, and hence what any contents that kept them hold. -/
theorem live_eq {W : Valuation τ sig (Elt Ideal)} (h : Keeps (W1 m ρ c) W) :
    W (Proc.devRef .tc main_v1) = sVI m c ∧ W (Proc.devRef .tc main_v3) = sHI m c
    ∧ W (Proc.devRef .tc main_v10) = sDV m c ∧ W (Proc.devRef .tc main_v16) = sDE m c
    ∧ W (Proc.devRef .tc main_arg4) = m ((c : Thread nD τ).loc main_arg4) ∧ W (Proc.devRef .tc main_arg5) = m ((c : Thread nD τ).loc main_arg5)
    ∧ W (Proc.devRef .tc main_arg6) = m ((c : Thread nD τ).loc main_arg6) ∧ W (Proc.devRef .tc main_arg7) = m ((c : Thread nD τ).loc main_arg7)
    ∧ W (Proc.devRef .tc main_arg8) = m ((c : Thread nD τ).loc main_arg8) :=
  ⟨(h main_v1 (by decide)).trans (host0_v1 (W0 m ρ c)), (h main_v3 (by decide)).trans (host0_v3 (W0 m ρ c)),
   (h main_v10 (by decide)).trans (host0_v10 (W0 m ρ c)), (h main_v16 (by decide)).trans (host0_v16 (W0 m ρ c)),
   (h main_arg4 (by decide)).trans (hkeep hostOps0 : after hostOps0 (W0 m ρ c) (Proc.devRef .tc main_arg4) = W0 m ρ c (Proc.devRef .tc main_arg4)),
   (h main_arg5 (by decide)).trans (hkeep hostOps0 : after hostOps0 (W0 m ρ c) (Proc.devRef .tc main_arg5) = W0 m ρ c (Proc.devRef .tc main_arg5)),
   (h main_arg6 (by decide)).trans (hkeep hostOps0 : after hostOps0 (W0 m ρ c) (Proc.devRef .tc main_arg6) = W0 m ρ c (Proc.devRef .tc main_arg6)),
   (h main_arg7 (by decide)).trans (hkeep hostOps0 : after hostOps0 (W0 m ρ c) (Proc.devRef .tc main_arg7) = W0 m ρ c (Proc.devRef .tc main_arg7)),
   (h main_arg8 (by decide)).trans (hkeep hostOps0 : after hostOps0 (W0 m ρ c) (Proc.devRef .tc main_arg8) = W0 m ρ c (Proc.devRef .tc main_arg8))⟩

theorem keeps_refl : Keeps (W1 m ρ c) (W1 m ρ c) := fun _ _ => rfl

/-- The first region's two operands are arguments no host operation before it writes. -/
theorem a0_1 : W1 m ρ c (Proc.devRef .tc main_arg0) = m ((c : Thread nD τ).loc main_arg0) :=
  (hkeep hostOps0 : after hostOps0 (W0 m ρ c) (Proc.devRef .tc main_arg0) = W0 m ρ c (Proc.devRef .tc main_arg0))
theorem a3_1 : W1 m ρ c (Proc.devRef .tc main_arg3) = m ((c : Thread nD τ).loc main_arg3) :=
  (hkeep hostOps0 : after hostOps0 (W0 m ρ c) (Proc.devRef .tc main_arg3) = W0 m ρ c (Proc.devRef .tc main_arg3))

/-! ## What each segment writes -/

theorem v17_2 : W2 m ρ c (Proc.devRef .tc main_v17) = sM1 m c := by
  refine (W2_arr m ρ c 2).trans ((Cert.KReg.final0 (V1 m ρ) c).trans ?_)
  show dense256 (W1 m ρ c (Proc.devRef .tc main_arg0)) (W1 m ρ c (Proc.devRef .tc main_arg3)) = _
  rw [a0_1, a3_1]; rfl

theorem v27_3 : W3 m ρ c (Proc.devRef .tc main_v27) = agg256 (sVI m c) (sHI m c) (sM1 m c) := by
  refine (host1_v27 (W2 m ρ c)).trans ?_
  obtain ⟨h1, h3, h10, h16, h4, h5, h6, h7, h8⟩ := live_eq m ρ c (kept_2 m ρ c)
  rw [h1, h3, v17_2]

theorem v30_4 : W4 m ρ c (Proc.devRef .tc main_v30) = sE1 m c := by
  refine (W4_arr m ρ c 3).trans ((Cert.KReg.final1 (V3 m ρ) c (host1_v29 (W2 m ρ c))).trans ?_)
  show norm256 (W3 m ρ c (Proc.devRef .tc main_v27)) (W3 m ρ c (Proc.devRef .tc main_v16)) = _
  obtain ⟨h1, h3, h10, h16, h4, h5, h6, h7, h8⟩ := live_eq m ρ c (kept_3 m ρ c)
  rw [v27_3, h16]; rfl

theorem v40_5 : W5 m ρ c (Proc.devRef .tc main_v40) = agg256 (sHI m c) (sVI m c) (sE1 m c) := by
  refine (host2_v40 (W4 m ρ c)).trans ?_
  obtain ⟨h1, h3, h10, h16, h4, h5, h6, h7, h8⟩ := live_eq m ρ c (kept_4 m ρ c)
  rw [h3, h1, v30_4]

theorem v41_5 : W5 m ρ c (Proc.devRef .tc main_v41) = row256 (m ((c : Thread nD τ).loc main_arg4)) := by
  refine (host2_v41 (W4 m ρ c)).trans ?_
  obtain ⟨h1, h3, h10, h16, h4, h5, h6, h7, h8⟩ := live_eq m ρ c (kept_4 m ρ c)
  rw [h4]

theorem v42_6 : W6 m ρ c (Proc.devRef .tc main_v42) = sH1 m c := by
  refine (W6_arr m ρ c 3).trans ((Cert.KReg.final2 (V5 m ρ) c _ (v41_5 m ρ c)).trans ?_)
  show elu (bias256 (norm256 (W5 m ρ c (Proc.devRef .tc main_v40)) (W5 m ρ c (Proc.devRef .tc main_v10))) _) = _
  obtain ⟨h1, h3, h10, h16, h4, h5, h6, h7, h8⟩ := live_eq m ρ c (kept_5 m ρ c)
  rw [v40_5, h10]; rfl

theorem v43_7 : W7 m ρ c (Proc.devRef .tc main_v43) = sM2 m c := by
  refine (W7_arr m ρ c 2).trans ((Cert.KReg.final3 (V6 m ρ) c).trans ?_)
  show dense256 (W6 m ρ c (Proc.devRef .tc main_v42)) (W6 m ρ c (Proc.devRef .tc main_arg5)) = _
  obtain ⟨h1, h3, h10, h16, h4, h5, h6, h7, h8⟩ := live_eq m ρ c (kept_6 m ρ c)
  rw [v42_6, h5]; rfl

theorem v53_8 : W8 m ρ c (Proc.devRef .tc main_v53) = agg256 (sVI m c) (sHI m c) (sM2 m c) := by
  refine (host4_v53 (W7 m ρ c)).trans ?_
  obtain ⟨h1, h3, h10, h16, h4, h5, h6, h7, h8⟩ := live_eq m ρ c (kept_7 m ρ c)
  rw [h1, h3, v43_7]

theorem v56_9 : W9 m ρ c (Proc.devRef .tc main_v56) = sE2 m c := by
  refine (W9_arr m ρ c 3).trans ((Cert.KReg.final4 (V8 m ρ) c (host4_v55 (W7 m ρ c))).trans ?_)
  show norm256 (W8 m ρ c (Proc.devRef .tc main_v53)) (W8 m ρ c (Proc.devRef .tc main_v16)) = _
  obtain ⟨h1, h3, h10, h16, h4, h5, h6, h7, h8⟩ := live_eq m ρ c (kept_8 m ρ c)
  rw [v53_8, h16]; rfl

theorem v66_10 : W10 m ρ c (Proc.devRef .tc main_v66) = agg256 (sHI m c) (sVI m c) (sE2 m c) := by
  refine (host5_v66 (W9 m ρ c)).trans ?_
  obtain ⟨h1, h3, h10, h16, h4, h5, h6, h7, h8⟩ := live_eq m ρ c (kept_9 m ρ c)
  rw [h3, h1, v56_9]

theorem v67_10 : W10 m ρ c (Proc.devRef .tc main_v67) = row256 (m ((c : Thread nD τ).loc main_arg6)) := by
  refine (host5_v67 (W9 m ρ c)).trans ?_
  obtain ⟨h1, h3, h10, h16, h4, h5, h6, h7, h8⟩ := live_eq m ρ c (kept_9 m ρ c)
  rw [h6]

theorem v68_11 : W11 m ρ c (Proc.devRef .tc main_v68) = sH2 m c := by
  refine (W11_arr m ρ c 3).trans ((Cert.KReg.final5 (V10 m ρ) c _ (v67_10 m ρ c)).trans ?_)
  show elu (bias256 (norm256 (W10 m ρ c (Proc.devRef .tc main_v66)) (W10 m ρ c (Proc.devRef .tc main_v10))) _) = _
  obtain ⟨h1, h3, h10, h16, h4, h5, h6, h7, h8⟩ := live_eq m ρ c (kept_10 m ρ c)
  rw [v66_10, h10]; rfl

theorem v69_12 : W12 m ρ c (Proc.devRef .tc main_v69) = sM3 m c := by
  refine (W12_arr m ρ c 2).trans ((Cert.KReg.final6 (V11 m ρ) c).trans ?_)
  show dense128 (W11 m ρ c (Proc.devRef .tc main_v68)) (W11 m ρ c (Proc.devRef .tc main_arg7)) = _
  obtain ⟨h1, h3, h10, h16, h4, h5, h6, h7, h8⟩ := live_eq m ρ c (kept_11 m ρ c)
  rw [v68_11, h7]; rfl

theorem v79_13 : W13 m ρ c (Proc.devRef .tc main_v79) = agg128 (sVI m c) (sHI m c) (sM3 m c) := by
  refine (host7_v79 (W12 m ρ c)).trans ?_
  obtain ⟨h1, h3, h10, h16, h4, h5, h6, h7, h8⟩ := live_eq m ρ c (kept_12 m ρ c)
  rw [h1, h3, v69_12]

theorem v82_14 : W14 m ρ c (Proc.devRef .tc main_v82) = sE3 m c := by
  refine (W14_arr m ρ c 3).trans ((Cert.KReg.final7 (V13 m ρ) c (host7_v81 (W12 m ρ c))).trans ?_)
  show norm128 (W13 m ρ c (Proc.devRef .tc main_v79)) (W13 m ρ c (Proc.devRef .tc main_v16)) = _
  obtain ⟨h1, h3, h10, h16, h4, h5, h6, h7, h8⟩ := live_eq m ρ c (kept_13 m ρ c)
  rw [v79_13, h16]; rfl

theorem v92_15 : W15 m ρ c (Proc.devRef .tc main_v92) = agg128 (sHI m c) (sVI m c) (sE3 m c) := by
  refine (host8_v92 (W14 m ρ c)).trans ?_
  obtain ⟨h1, h3, h10, h16, h4, h5, h6, h7, h8⟩ := live_eq m ρ c (kept_14 m ρ c)
  rw [h3, h1, v82_14]

theorem v93_15 : W15 m ρ c (Proc.devRef .tc main_v93) = row128 (m ((c : Thread nD τ).loc main_arg8)) := by
  refine (host8_v93 (W14 m ρ c)).trans ?_
  obtain ⟨h1, h3, h10, h16, h4, h5, h6, h7, h8⟩ := live_eq m ρ c (kept_14 m ρ c)
  rw [h8]

/-- The last boundary at the result buffer is the network of the argument arrays. -/
theorem out_eq : W16 m ρ c (Proc.devRef .tc main_v94) = Cert.Spec.out (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8)) := by
  refine (W16_arr m ρ c 3).trans ((Cert.KReg.final8 (V15 m ρ) c _ (v93_15 m ρ c)).trans ?_)
  show bias128 (norm128 (W15 m ρ c (Proc.devRef .tc main_v92)) (W15 m ρ c (Proc.devRef .tc main_v10))) _ = _
  obtain ⟨h1, h3, h10, h16, h4, h5, h6, h7, h8⟩ := live_eq m ρ c (kept_15 m ρ c)
  rw [v92_15, h10]; exact sOut_eq m c

end Cert.KChain

end
-- ==== Proof.RefOps.lean ====
/-
  The reference's host program as lists of its operations.

  The program is a straight line of 154 host operations: 124 written in @main itself and twice the 15 of the ELU function
  (its own eleven, the three of the select-with-scalar it calls, the one of the plain select it calls).  They are listed
  here in program order, cut into six stretches by what they compute: the index vectors and degree columns, then for each
  of the three layers the layer proper and, after the first two, the ELU.  The same operations are also listed by the
  three windows the program text is printed in, for comparing with that text.
-/
import proofs.«110701_j74509092651627_1_alg».proof.Proof.Gen.ReferenceIdeal
import Idealize.ShloMosaic.Lib.StableHlo.Run

noncomputable section

namespace Cert.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The incidence list's two rows as index vectors, and the two degree columns (22 operations). -/
def s0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v1 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (maximumf : (⟨S50000, .f32⟩ : BufTy).Contents (Elt F) → (⟨S50000, .f32⟩ : BufTy).Contents (Elt F) → (⟨S50000, .f32⟩ : BufTy).Contents (Elt F)),
    StableHlo.unary main_v9 main_v10 (broadcastInDim S50000x1 ![0] bcast_S50000_S50000x1_0 : (⟨S50000, .f32⟩ : BufTy).Contents (Elt F) → (⟨S50000x1, .f32⟩ : BufTy).Contents (Elt F)),
    StableHlo.nullary main_cst_2 (constant S_ .f32 0x00000000#32),
    StableHlo.unary main_cst_2 main_v11 (broadcastInDim S50000 ![] bcast_S_S50000 : (⟨S_, .f32⟩ : BufTy).Contents (Elt F) → (⟨S50000, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v4 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v14 (broadcastInDim S50000 ![] bcast_S_S50000 : (⟨S_, .f32⟩ : BufTy).Contents (Elt F) → (⟨S50000, .f32⟩ : BufTy).Contents (Elt F)),
    StableHlo.binary main_v13 main_v14 main_v15 (maximumf : (⟨S50000, .f32⟩ : BufTy).Contents (Elt F) → (⟨S50000, .f32⟩ : BufTy).Contents (Elt F) → (⟨S50000, .f32⟩ : BufTy).Contents (Elt F)),
    StableHlo.unary main_v15 main_v16 (broadcastInDim S50000x1 ![0] bcast_S50000_S50000x1_0 : (⟨S50000, .f32⟩ : BufTy).Contents (Elt F) → (⟨S50000x1, .f32⟩ : BufTy).Contents (Elt F)) ]

/-- The first layer before its activation: projection, two gather / scatter-add / divide rounds, bias (34 operations). -/
def l1 : List (HloOp τ sig (Elt F)) :=
  [ StableHlo.binary main_arg0 main_arg3 main_v17 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c (constantI S_ 32 0#32),
    StableHlo.unary main_c main_v18 (broadcastInDim S800000 ![] bcast_S_S800000 : (⟨S_, .i32⟩ : BufTy).Contents (Elt F) → (⟨S800000, .i32⟩ : BufTy).Contents (Elt F)),
    StableHlo.binary main_v1 main_v18 main_v19 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v20 (broadcastInDim S800000 ![] bcast_S_S800000 : (⟨S_, .i32⟩ : BufTy).Contents (Elt F) → (⟨S800000, .i32⟩ : BufTy).Contents (Elt F)),
    StableHlo.binary main_v1 main_v20 main_v21 (addi : (⟨S800000, .i32⟩ : BufTy).Contents (Elt F) → (⟨S800000, .i32⟩ : BufTy).Contents (Elt F) → (⟨S800000, .i32⟩ : BufTy).Contents (Elt F)),
    StableHlo.ternary main_v19 main_v21 main_v1 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v22 main_v23 (broadcastInDim S800000x1 ![0] bcast_S800000_S800000x1_0 : (⟨S800000, .i32⟩ : BufTy).Contents (Elt F) → (⟨S800000x1, .i32⟩ : BufTy).Contents (Elt F)),
    StableHlo.binary main_v17 main_v23 main_v24 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_5 (constant S_ .f32 0x00000000#32),
    StableHlo.unary main_cst_5 main_v25 (broadcastInDim S50000x256 ![] bcast_S_S50000x256 : (⟨S_, .f32⟩ : BufTy).Contents (Elt F) → (⟨S50000x256, .f32⟩ : BufTy).Contents (Elt F)),
    StableHlo.unary main_v3 main_v26 (broadcastInDim S800000x1 ![0] bcast_S800000_S800000x1_0 : (⟨S800000, .i32⟩ : BufTy).Contents (Elt F) → (⟨S800000x1, .i32⟩ : BufTy).Contents (Elt F)),
    StableHlo.ternary main_v25 main_v26 main_v24 main_v27 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_v16 main_v28 (broadcastInDim S50000x256 ![0, 1] bcast_S50000x1_S50000x256_0_1 : (⟨S50000x1, .f32⟩ : BufTy).Contents (Elt F) → (⟨S50000x256, .f32⟩ : BufTy).Contents (Elt F)),
    StableHlo.binary main_v27 main_v28 main_v29 (Host.divf : (⟨S50000x256, .f32⟩ : BufTy).Contents (Elt F) → (⟨S50000x256, .f32⟩ : BufTy).Contents (Elt F) → (⟨S50000x256, .f32⟩ : BufTy).Contents (Elt F)),
    StableHlo.nullary main_c_6 (constantI S_ 32 0#32),
    StableHlo.unary main_c_6 main_v30 (broadcastInDim S800000 ![] bcast_S_S800000 : (⟨S_, .i32⟩ : BufTy).Contents (Elt F) → (⟨S800000, .i32⟩ : BufTy).Contents (Elt F)),
    StableHlo.binary main_v3 main_v30 main_v31 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v32 (broadcastInDim S800000 ![] bcast_S_S800000 : (⟨S_, .i32⟩ : BufTy).Contents (Elt F) → (⟨S800000, .i32⟩ : BufTy).Contents (Elt F)),
    StableHlo.binary main_v3 main_v32 main_v33 (addi : (⟨S800000, .i32⟩ : BufTy).Contents (Elt F) → (⟨S800000, .i32⟩ : BufTy).Contents (Elt F) → (⟨S800000, .i32⟩ : BufTy).Contents (Elt F)),
    StableHlo.ternary main_v31 main_v33 main_v3 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v34 main_v35 (broadcastInDim S800000x1 ![0] bcast_S800000_S800000x1_0 : (⟨S800000, .i32⟩ : BufTy).Contents (Elt F) → (⟨S800000x1, .i32⟩ : BufTy).Contents (Elt F)),
    StableHlo.binary main_v29 main_v35 main_v36 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_8 (constant S_ .f32 0x00000000#32),
    StableHlo.unary main_cst_8 main_v37 (broadcastInDim S50000x256 ![] bcast_S_S50000x256 : (⟨S_, .f32⟩ : BufTy).Contents (Elt F) → (⟨S50000x256, .f32⟩ : BufTy).Contents (Elt F)),
    StableHlo.unary main_v1 main_v38 (broadcastInDim S800000x1 ![0] bcast_S800000_S800000x1_0 : (⟨S800000, .i32⟩ : BufTy).Contents (Elt F) → (⟨S800000x1, .i32⟩ : BufTy).Contents (Elt F)),
    StableHlo.ternary main_v37 main_v38 main_v36 main_v39 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_v10 main_v40 (broadcastInDim S50000x256 ![0, 1] bcast_S50000x1_S50000x256_0_1 : (⟨S50000x1, .f32⟩ : BufTy).Contents (Elt F) → (⟨S50000x256, .f32⟩ : BufTy).Contents (Elt F)),
    StableHlo.binary main_v39 main_v40 main_v41 (Host.divf : (⟨S50000x256, .f32⟩ : BufTy).Contents (Elt F) → (⟨S50000x256, .f32⟩ : BufTy).Contents (Elt F) → (⟨S50000x256, .f32⟩ : BufTy).Contents (Elt F)),
    StableHlo.unary main_arg4 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S50000x256 ![0, 1] bcast_S1x256_S50000x256_0_1 : (⟨S1x256, .f32⟩ : BufTy).Contents (Elt F) → (⟨S50000x256, .f32⟩ : BufTy).Contents (Elt F)),
    StableHlo.binary main_v41 main_v43 main_v44 (addf : (⟨S50000x256, .f32⟩ : BufTy).Contents (Elt F) → (⟨S50000x256, .f32⟩ : BufTy).Contents (Elt F) → (⟨S50000x256, .f32⟩ : BufTy).Contents (Elt F)) ]

/-- The first ELU, its two nested selects listed in place (15 operations). -/
def e1 : List (HloOp τ sig (Elt F)) :=
  [ TRef.nullary main_call0.cst (constant S_ .f32 0x00000000#32),
    TRef.unary main_call0.cst main_call0.v0 (broadcastInDim S50000x256 ![] bcast_S_S50000x256),
    TRef.binary (TRef.of main_v44 : TRef sig ⟨S50000x256, .f32⟩) main_call0.v0 main_call0.v1 (cmpf .ogt),
    TRef.nullary main_call0.cst_0 (constant S_ .f32 0x00000000#32),
    TRef.unary main_call0.cst_0 main_call0.v2 (broadcastInDim S50000x256 ![] bcast_S_S50000x256),
    TRef.binary (TRef.of main_v44 : TRef sig ⟨S50000x256, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x256 ![] bcast_S_S50000x256),
    TRef.ternary main_call0.v3 main_call0.call0.v1 (TRef.of main_v44 : TRef sig ⟨S50000x256, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S50000x256 ![] bcast_S_S50000x256),
    TRef.binary main_call0.v6 main_call0.v5 main_call0.v7 mulf,
    TRef.ternary main_call0.v1 (TRef.of main_v44 : TRef sig ⟨S50000x256, .f32⟩) main_call0.v7 main_call0.call1.v0 select ]

/-- The second layer before its activation (34 operations). -/
def l2 : List (HloOp τ sig (Elt F)) :=
  [ StableHlo.binary main_v45 main_arg5 main_v46 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_9 (constantI S_ 32 0#32),
    StableHlo.unary main_c_9 main_v47 (broadcastInDim S800000 ![] bcast_S_S800000 : (⟨S_, .i32⟩ : BufTy).Contents (Elt F) → (⟨S800000, .i32⟩ : BufTy).Contents (Elt F)),
    StableHlo.binary main_v1 main_v47 main_v48 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v49 (broadcastInDim S800000 ![] bcast_S_S800000 : (⟨S_, .i32⟩ : BufTy).Contents (Elt F) → (⟨S800000, .i32⟩ : BufTy).Contents (Elt F)),
    StableHlo.binary main_v1 main_v49 main_v50 (addi : (⟨S800000, .i32⟩ : BufTy).Contents (Elt F) → (⟨S800000, .i32⟩ : BufTy).Contents (Elt F) → (⟨S800000, .i32⟩ : BufTy).Contents (Elt F)),
    StableHlo.ternary main_v48 main_v50 main_v1 main_v51 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v51 main_v52 (broadcastInDim S800000x1 ![0] bcast_S800000_S800000x1_0 : (⟨S800000, .i32⟩ : BufTy).Contents (Elt F) → (⟨S800000x1, .i32⟩ : BufTy).Contents (Elt F)),
    StableHlo.binary main_v46 main_v52 main_v53 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_11 (constant S_ .f32 0x00000000#32),
    StableHlo.unary main_cst_11 main_v54 (broadcastInDim S50000x256 ![] bcast_S_S50000x256 : (⟨S_, .f32⟩ : BufTy).Contents (Elt F) → (⟨S50000x256, .f32⟩ : BufTy).Contents (Elt F)),
    StableHlo.unary main_v3 main_v55 (broadcastInDim S800000x1 ![0] bcast_S800000_S800000x1_0 : (⟨S800000, .i32⟩ : BufTy).Contents (Elt F) → (⟨S800000x1, .i32⟩ : BufTy).Contents (Elt F)),
    StableHlo.ternary main_v54 main_v55 main_v53 main_v56 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_v16 main_v57 (broadcastInDim S50000x256 ![0, 1] bcast_S50000x1_S50000x256_0_1 : (⟨S50000x1, .f32⟩ : BufTy).Contents (Elt F) → (⟨S50000x256, .f32⟩ : BufTy).Contents (Elt F)),
    StableHlo.binary main_v56 main_v57 main_v58 (Host.divf : (⟨S50000x256, .f32⟩ : BufTy).Contents (Elt F) → (⟨S50000x256, .f32⟩ : BufTy).Contents (Elt F) → (⟨S50000x256, .f32⟩ : BufTy).Contents (Elt F)),
    StableHlo.nullary main_c_12 (constantI S_ 32 0#32),
    StableHlo.unary main_c_12 main_v59 (broadcastInDim S800000 ![] bcast_S_S800000 : (⟨S_, .i32⟩ : BufTy).Contents (Elt F) → (⟨S800000, .i32⟩ : BufTy).Contents (Elt F)),
    StableHlo.binary main_v3 main_v59 main_v60 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v61 (broadcastInDim S800000 ![] bcast_S_S800000 : (⟨S_, .i32⟩ : BufTy).Contents (Elt F) → (⟨S800000, .i32⟩ : BufTy).Contents (Elt F)),
    StableHlo.binary main_v3 main_v61 main_v62 (addi : (⟨S800000, .i32⟩ : BufTy).Contents (Elt F) → (⟨S800000, .i32⟩ : BufTy).Contents (Elt F) → (⟨S800000, .i32⟩ : BufTy).Contents (Elt F)),
    StableHlo.ternary main_v60 main_v62 main_v3 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v63 main_v64 (broadcastInDim S800000x1 ![0] bcast_S800000_S800000x1_0 : (⟨S800000, .i32⟩ : BufTy).Contents (Elt F) → (⟨S800000x1, .i32⟩ : BufTy).Contents (Elt F)),
    StableHlo.binary main_v58 main_v64 main_v65 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_14 (constant S_ .f32 0x00000000#32),
    StableHlo.unary main_cst_14 main_v66 (broadcastInDim S50000x256 ![] bcast_S_S50000x256 : (⟨S_, .f32⟩ : BufTy).Contents (Elt F) → (⟨S50000x256, .f32⟩ : BufTy).Contents (Elt F)),
    StableHlo.unary main_v1 main_v67 (broadcastInDim S800000x1 ![0] bcast_S800000_S800000x1_0 : (⟨S800000, .i32⟩ : BufTy).Contents (Elt F) → (⟨S800000x1, .i32⟩ : BufTy).Contents (Elt F)),
    StableHlo.ternary main_v66 main_v67 main_v65 main_v68 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_v10 main_v69 (broadcastInDim S50000x256 ![0, 1] bcast_S50000x1_S50000x256_0_1 : (⟨S50000x1, .f32⟩ : BufTy).Contents (Elt F) → (⟨S50000x256, .f32⟩ : BufTy).Contents (Elt F)),
    StableHlo.binary main_v68 main_v69 main_v70 (Host.divf : (⟨S50000x256, .f32⟩ : BufTy).Contents (Elt F) → (⟨S50000x256, .f32⟩ : BufTy).Contents (Elt F) → (⟨S50000x256, .f32⟩ : BufTy).Contents (Elt F)),
    StableHlo.unary main_arg6 main_v71 (broadcastInDim S1x256 ![1] bcast_S256_S1x256_1 : (⟨S256, .f32⟩ : BufTy).Contents (Elt F) → (⟨S1x256, .f32⟩ : BufTy).Contents (Elt F)),
    StableHlo.unary main_v71 main_v72 (broadcastInDim S50000x256 ![0, 1] bcast_S1x256_S50000x256_0_1 : (⟨S1x256, .f32⟩ : BufTy).Contents (Elt F) → (⟨S50000x256, .f32⟩ : BufTy).Contents (Elt F)),
    StableHlo.binary main_v70 main_v72 main_v73 (addf : (⟨S50000x256, .f32⟩ : BufTy).Contents (Elt F) → (⟨S50000x256, .f32⟩ : BufTy).Contents (Elt F) → (⟨S50000x256, .f32⟩ : BufTy).Contents (Elt F)) ]

/-- The second ELU (15 operations). -/
def e2 : List (HloOp τ sig (Elt F)) :=
  [ TRef.nullary main_call1.cst (constant S_ .f32 0x00000000#32),
    TRef.unary main_call1.cst main_call1.v0 (broadcastInDim S50000x256 ![] bcast_S_S50000x256),
    TRef.binary (TRef.of main_v73 : TRef sig ⟨S50000x256, .f32⟩) main_call1.v0 main_call1.v1 (cmpf .ogt),
    TRef.nullary main_call1.cst_0 (constant S_ .f32 0x00000000#32),
    TRef.unary main_call1.cst_0 main_call1.v2 (broadcastInDim S50000x256 ![] bcast_S_S50000x256),
    TRef.binary (TRef.of main_v73 : TRef sig ⟨S50000x256, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x256 ![] bcast_S_S50000x256),
    TRef.ternary main_call1.v3 main_call1.call0.v1 (TRef.of main_v73 : TRef sig ⟨S50000x256, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S50000x256 ![] bcast_S_S50000x256),
    TRef.binary main_call1.v6 main_call1.v5 main_call1.v7 mulf,
    TRef.ternary main_call1.v1 (TRef.of main_v73 : TRef sig ⟨S50000x256, .f32⟩) main_call1.v7 main_call1.call1.v0 select ]

/-- The third layer, 256 to 128 columns (34 operations). -/
def l3 : List (HloOp τ sig (Elt F)) :=
  [ StableHlo.binary main_v74 main_arg7 main_v75 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_c_15 (constantI S_ 32 0#32),
    StableHlo.unary main_c_15 main_v76 (broadcastInDim S800000 ![] bcast_S_S800000 : (⟨S_, .i32⟩ : BufTy).Contents (Elt F) → (⟨S800000, .i32⟩ : BufTy).Contents (Elt F)),
    StableHlo.binary main_v1 main_v76 main_v77 (cmpi .slt : (⟨S800000, .i32⟩ : BufTy).Contents (Elt F) → (⟨S800000, .i32⟩ : BufTy).Contents (Elt F) → (⟨S800000, .i1⟩ : BufTy).Contents (Elt F)),
    StableHlo.nullary main_c_16 (constantI S_ 32 50000#32),
    StableHlo.unary main_c_16 main_v78 (broadcastInDim S800000 ![] bcast_S_S800000 : (⟨S_, .i32⟩ : BufTy).Contents (Elt F) → (⟨S800000, .i32⟩ : BufTy).Contents (Elt F)),
    StableHlo.binary main_v1 main_v78 main_v79 (addi : (⟨S800000, .i32⟩ : BufTy).Contents (Elt F) → (⟨S800000, .i32⟩ : BufTy).Contents (Elt F) → (⟨S800000, .i32⟩ : BufTy).Contents (Elt F)),
    StableHlo.ternary main_v77 main_v79 main_v1 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v80 main_v81 (broadcastInDim S800000x1 ![0] bcast_S800000_S800000x1_0 : (⟨S800000, .i32⟩ : BufTy).Contents (Elt F) → (⟨S800000x1, .i32⟩ : BufTy).Contents (Elt F)),
    StableHlo.binary main_v75 main_v81 main_v82 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_17 (constant S_ .f32 0x00000000#32),
    StableHlo.unary main_cst_17 main_v83 (broadcastInDim S50000x128 ![] bcast_S_S50000x128 : (⟨S_, .f32⟩ : BufTy).Contents (Elt F) → (⟨S50000x128, .f32⟩ : BufTy).Contents (Elt F)),
    StableHlo.unary main_v3 main_v84 (broadcastInDim S800000x1 ![0] bcast_S800000_S800000x1_0 : (⟨S800000, .i32⟩ : BufTy).Contents (Elt F) → (⟨S800000x1, .i32⟩ : BufTy).Contents (Elt F)),
    StableHlo.ternary main_v83 main_v84 main_v82 main_v85 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v16 main_v86 (broadcastInDim S50000x128 ![0, 1] bcast_S50000x1_S50000x128_0_1 : (⟨S50000x1, .f32⟩ : BufTy).Contents (Elt F) → (⟨S50000x128, .f32⟩ : BufTy).Contents (Elt F)),
    StableHlo.binary main_v85 main_v86 main_v87 (Host.divf : (⟨S50000x128, .f32⟩ : BufTy).Contents (Elt F) → (⟨S50000x128, .f32⟩ : BufTy).Contents (Elt F) → (⟨S50000x128, .f32⟩ : BufTy).Contents (Elt F)),
    StableHlo.nullary main_c_18 (constantI S_ 32 0#32),
    StableHlo.unary main_c_18 main_v88 (broadcastInDim S800000 ![] bcast_S_S800000 : (⟨S_, .i32⟩ : BufTy).Contents (Elt F) → (⟨S800000, .i32⟩ : BufTy).Contents (Elt F)),
    StableHlo.binary main_v3 main_v88 main_v89 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32),
    StableHlo.unary main_c_19 main_v90 (broadcastInDim S800000 ![] bcast_S_S800000 : (⟨S_, .i32⟩ : BufTy).Contents (Elt F) → (⟨S800000, .i32⟩ : BufTy).Contents (Elt F)),
    StableHlo.binary main_v3 main_v90 main_v91 (addi : (⟨S800000, .i32⟩ : BufTy).Contents (Elt F) → (⟨S800000, .i32⟩ : BufTy).Contents (Elt F) → (⟨S800000, .i32⟩ : BufTy).Contents (Elt F)),
    StableHlo.ternary main_v89 main_v91 main_v3 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v92 main_v93 (broadcastInDim S800000x1 ![0] bcast_S800000_S800000x1_0 : (⟨S800000, .i32⟩ : BufTy).Contents (Elt F) → (⟨S800000x1, .i32⟩ : BufTy).Contents (Elt F)),
    StableHlo.binary main_v87 main_v93 main_v94 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_20 (constant S_ .f32 0x00000000#32),
    StableHlo.unary main_cst_20 main_v95 (broadcastInDim S50000x128 ![] bcast_S_S50000x128 : (⟨S_, .f32⟩ : BufTy).Contents (Elt F) → (⟨S50000x128, .f32⟩ : BufTy).Contents (Elt F)),
    StableHlo.unary main_v1 main_v96 (broadcastInDim S800000x1 ![0] bcast_S800000_S800000x1_0 : (⟨S800000, .i32⟩ : BufTy).Contents (Elt F) → (⟨S800000x1, .i32⟩ : BufTy).Contents (Elt F)),
    StableHlo.ternary main_v95 main_v96 main_v94 main_v97 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v10 main_v98 (broadcastInDim S50000x128 ![0, 1] bcast_S50000x1_S50000x128_0_1 : (⟨S50000x1, .f32⟩ : BufTy).Contents (Elt F) → (⟨S50000x128, .f32⟩ : BufTy).Contents (Elt F)),
    StableHlo.binary main_v97 main_v98 main_v99 (Host.divf : (⟨S50000x128, .f32⟩ : BufTy).Contents (Elt F) → (⟨S50000x128, .f32⟩ : BufTy).Contents (Elt F) → (⟨S50000x128, .f32⟩ : BufTy).Contents (Elt F)),
    StableHlo.unary main_arg8 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S50000x128 ![0, 1] bcast_S1x128_S50000x128_0_1 : (⟨S1x128, .f32⟩ : BufTy).Contents (Elt F) → (⟨S50000x128, .f32⟩ : BufTy).Contents (Elt F)),
    StableHlo.binary main_v99 main_v101 main_v102 (addf : (⟨S50000x128, .f32⟩ : BufTy).Contents (Elt F) → (⟨S50000x128, .f32⟩ : BufTy).Contents (Elt F) → (⟨S50000x128, .f32⟩ : BufTy).Contents (Elt F)) ]

/-- The operations of the program text's window 0, calls listed in place (74 operations). -/
abbrev p0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v1 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (maximumf : (⟨S50000, .f32⟩ : BufTy).Contents (Elt F) → (⟨S50000, .f32⟩ : BufTy).Contents (Elt F) → (⟨S50000, .f32⟩ : BufTy).Contents (Elt F)),
    StableHlo.unary main_v9 main_v10 (broadcastInDim S50000x1 ![0] bcast_S50000_S50000x1_0 : (⟨S50000, .f32⟩ : BufTy).Contents (Elt F) → (⟨S50000x1, .f32⟩ : BufTy).Contents (Elt F)),
    StableHlo.nullary main_cst_2 (constant S_ .f32 0x00000000#32),
    StableHlo.unary main_cst_2 main_v11 (broadcastInDim S50000 ![] bcast_S_S50000 : (⟨S_, .f32⟩ : BufTy).Contents (Elt F) → (⟨S50000, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v4 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v14 (broadcastInDim S50000 ![] bcast_S_S50000 : (⟨S_, .f32⟩ : BufTy).Contents (Elt F) → (⟨S50000, .f32⟩ : BufTy).Contents (Elt F)),
    StableHlo.binary main_v13 main_v14 main_v15 (maximumf : (⟨S50000, .f32⟩ : BufTy).Contents (Elt F) → (⟨S50000, .f32⟩ : BufTy).Contents (Elt F) → (⟨S50000, .f32⟩ : BufTy).Contents (Elt F)),
    StableHlo.unary main_v15 main_v16 (broadcastInDim S50000x1 ![0] bcast_S50000_S50000x1_0 : (⟨S50000, .f32⟩ : BufTy).Contents (Elt F) → (⟨S50000x1, .f32⟩ : BufTy).Contents (Elt F)),
    StableHlo.binary main_arg0 main_arg3 main_v17 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c (constantI S_ 32 0#32),
    StableHlo.unary main_c main_v18 (broadcastInDim S800000 ![] bcast_S_S800000 : (⟨S_, .i32⟩ : BufTy).Contents (Elt F) → (⟨S800000, .i32⟩ : BufTy).Contents (Elt F)),
    StableHlo.binary main_v1 main_v18 main_v19 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v20 (broadcastInDim S800000 ![] bcast_S_S800000 : (⟨S_, .i32⟩ : BufTy).Contents (Elt F) → (⟨S800000, .i32⟩ : BufTy).Contents (Elt F)),
    StableHlo.binary main_v1 main_v20 main_v21 (addi : (⟨S800000, .i32⟩ : BufTy).Contents (Elt F) → (⟨S800000, .i32⟩ : BufTy).Contents (Elt F) → (⟨S800000, .i32⟩ : BufTy).Contents (Elt F)),
    StableHlo.ternary main_v19 main_v21 main_v1 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v22 main_v23 (broadcastInDim S800000x1 ![0] bcast_S800000_S800000x1_0 : (⟨S800000, .i32⟩ : BufTy).Contents (Elt F) → (⟨S800000x1, .i32⟩ : BufTy).Contents (Elt F)),
    StableHlo.binary main_v17 main_v23 main_v24 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_5 (constant S_ .f32 0x00000000#32),
    StableHlo.unary main_cst_5 main_v25 (broadcastInDim S50000x256 ![] bcast_S_S50000x256 : (⟨S_, .f32⟩ : BufTy).Contents (Elt F) → (⟨S50000x256, .f32⟩ : BufTy).Contents (Elt F)),
    StableHlo.unary main_v3 main_v26 (broadcastInDim S800000x1 ![0] bcast_S800000_S800000x1_0 : (⟨S800000, .i32⟩ : BufTy).Contents (Elt F) → (⟨S800000x1, .i32⟩ : BufTy).Contents (Elt F)),
    StableHlo.ternary main_v25 main_v26 main_v24 main_v27 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_v16 main_v28 (broadcastInDim S50000x256 ![0, 1] bcast_S50000x1_S50000x256_0_1 : (⟨S50000x1, .f32⟩ : BufTy).Contents (Elt F) → (⟨S50000x256, .f32⟩ : BufTy).Contents (Elt F)),
    StableHlo.binary main_v27 main_v28 main_v29 (Host.divf : (⟨S50000x256, .f32⟩ : BufTy).Contents (Elt F) → (⟨S50000x256, .f32⟩ : BufTy).Contents (Elt F) → (⟨S50000x256, .f32⟩ : BufTy).Contents (Elt F)),
    StableHlo.nullary main_c_6 (constantI S_ 32 0#32),
    StableHlo.unary main_c_6 main_v30 (broadcastInDim S800000 ![] bcast_S_S800000 : (⟨S_, .i32⟩ : BufTy).Contents (Elt F) → (⟨S800000, .i32⟩ : BufTy).Contents (Elt F)),
    StableHlo.binary main_v3 main_v30 main_v31 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v32 (broadcastInDim S800000 ![] bcast_S_S800000 : (⟨S_, .i32⟩ : BufTy).Contents (Elt F) → (⟨S800000, .i32⟩ : BufTy).Contents (Elt F)),
    StableHlo.binary main_v3 main_v32 main_v33 (addi : (⟨S800000, .i32⟩ : BufTy).Contents (Elt F) → (⟨S800000, .i32⟩ : BufTy).Contents (Elt F) → (⟨S800000, .i32⟩ : BufTy).Contents (Elt F)),
    StableHlo.ternary main_v31 main_v33 main_v3 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v34 main_v35 (broadcastInDim S800000x1 ![0] bcast_S800000_S800000x1_0 : (⟨S800000, .i32⟩ : BufTy).Contents (Elt F) → (⟨S800000x1, .i32⟩ : BufTy).Contents (Elt F)),
    StableHlo.binary main_v29 main_v35 main_v36 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_8 (constant S_ .f32 0x00000000#32),
    StableHlo.unary main_cst_8 main_v37 (broadcastInDim S50000x256 ![] bcast_S_S50000x256 : (⟨S_, .f32⟩ : BufTy).Contents (Elt F) → (⟨S50000x256, .f32⟩ : BufTy).Contents (Elt F)),
    StableHlo.unary main_v1 main_v38 (broadcastInDim S800000x1 ![0] bcast_S800000_S800000x1_0 : (⟨S800000, .i32⟩ : BufTy).Contents (Elt F) → (⟨S800000x1, .i32⟩ : BufTy).Contents (Elt F)),
    StableHlo.ternary main_v37 main_v38 main_v36 main_v39 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_v10 main_v40 (broadcastInDim S50000x256 ![0, 1] bcast_S50000x1_S50000x256_0_1 : (⟨S50000x1, .f32⟩ : BufTy).Contents (Elt F) → (⟨S50000x256, .f32⟩ : BufTy).Contents (Elt F)),
    StableHlo.binary main_v39 main_v40 main_v41 (Host.divf : (⟨S50000x256, .f32⟩ : BufTy).Contents (Elt F) → (⟨S50000x256, .f32⟩ : BufTy).Contents (Elt F) → (⟨S50000x256, .f32⟩ : BufTy).Contents (Elt F)),
    StableHlo.unary main_arg4 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S50000x256 ![0, 1] bcast_S1x256_S50000x256_0_1 : (⟨S1x256, .f32⟩ : BufTy).Contents (Elt F) → (⟨S50000x256, .f32⟩ : BufTy).Contents (Elt F)),
    StableHlo.binary main_v41 main_v43 main_v44 (addf : (⟨S50000x256, .f32⟩ : BufTy).Contents (Elt F) → (⟨S50000x256, .f32⟩ : BufTy).Contents (Elt F) → (⟨S50000x256, .f32⟩ : BufTy).Contents (Elt F)),
    TRef.nullary main_call0.cst (constant S_ .f32 0x00000000#32),
    TRef.unary main_call0.cst main_call0.v0 (broadcastInDim S50000x256 ![] bcast_S_S50000x256),
    TRef.binary (TRef.of main_v44 : TRef sig ⟨S50000x256, .f32⟩) main_call0.v0 main_call0.v1 (cmpf .ogt),
    TRef.nullary main_call0.cst_0 (constant S_ .f32 0x00000000#32),
    TRef.unary main_call0.cst_0 main_call0.v2 (broadcastInDim S50000x256 ![] bcast_S_S50000x256),
    TRef.binary (TRef.of main_v44 : TRef sig ⟨S50000x256, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x256 ![] bcast_S_S50000x256),
    TRef.ternary main_call0.v3 main_call0.call0.v1 (TRef.of main_v44 : TRef sig ⟨S50000x256, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S50000x256 ![] bcast_S_S50000x256),
    TRef.binary main_call0.v6 main_call0.v5 main_call0.v7 mulf,
    TRef.ternary main_call0.v1 (TRef.of main_v44 : TRef sig ⟨S50000x256, .f32⟩) main_call0.v7 main_call0.call1.v0 select,
    StableHlo.binary main_v45 main_arg5 main_v46 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_9 (constantI S_ 32 0#32),
    StableHlo.unary main_c_9 main_v47 (broadcastInDim S800000 ![] bcast_S_S800000 : (⟨S_, .i32⟩ : BufTy).Contents (Elt F) → (⟨S800000, .i32⟩ : BufTy).Contents (Elt F)) ]

/-- The operations of the program text's window 1, calls listed in place (74 operations). -/
abbrev p1 : List (HloOp τ sig (Elt F)) :=
  [ StableHlo.binary main_v1 main_v47 main_v48 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v49 (broadcastInDim S800000 ![] bcast_S_S800000 : (⟨S_, .i32⟩ : BufTy).Contents (Elt F) → (⟨S800000, .i32⟩ : BufTy).Contents (Elt F)),
    StableHlo.binary main_v1 main_v49 main_v50 (addi : (⟨S800000, .i32⟩ : BufTy).Contents (Elt F) → (⟨S800000, .i32⟩ : BufTy).Contents (Elt F) → (⟨S800000, .i32⟩ : BufTy).Contents (Elt F)),
    StableHlo.ternary main_v48 main_v50 main_v1 main_v51 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v51 main_v52 (broadcastInDim S800000x1 ![0] bcast_S800000_S800000x1_0 : (⟨S800000, .i32⟩ : BufTy).Contents (Elt F) → (⟨S800000x1, .i32⟩ : BufTy).Contents (Elt F)),
    StableHlo.binary main_v46 main_v52 main_v53 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_11 (constant S_ .f32 0x00000000#32),
    StableHlo.unary main_cst_11 main_v54 (broadcastInDim S50000x256 ![] bcast_S_S50000x256 : (⟨S_, .f32⟩ : BufTy).Contents (Elt F) → (⟨S50000x256, .f32⟩ : BufTy).Contents (Elt F)),
    StableHlo.unary main_v3 main_v55 (broadcastInDim S800000x1 ![0] bcast_S800000_S800000x1_0 : (⟨S800000, .i32⟩ : BufTy).Contents (Elt F) → (⟨S800000x1, .i32⟩ : BufTy).Contents (Elt F)),
    StableHlo.ternary main_v54 main_v55 main_v53 main_v56 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_v16 main_v57 (broadcastInDim S50000x256 ![0, 1] bcast_S50000x1_S50000x256_0_1 : (⟨S50000x1, .f32⟩ : BufTy).Contents (Elt F) → (⟨S50000x256, .f32⟩ : BufTy).Contents (Elt F)),
    StableHlo.binary main_v56 main_v57 main_v58 (Host.divf : (⟨S50000x256, .f32⟩ : BufTy).Contents (Elt F) → (⟨S50000x256, .f32⟩ : BufTy).Contents (Elt F) → (⟨S50000x256, .f32⟩ : BufTy).Contents (Elt F)),
    StableHlo.nullary main_c_12 (constantI S_ 32 0#32),
    StableHlo.unary main_c_12 main_v59 (broadcastInDim S800000 ![] bcast_S_S800000 : (⟨S_, .i32⟩ : BufTy).Contents (Elt F) → (⟨S800000, .i32⟩ : BufTy).Contents (Elt F)),
    StableHlo.binary main_v3 main_v59 main_v60 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v61 (broadcastInDim S800000 ![] bcast_S_S800000 : (⟨S_, .i32⟩ : BufTy).Contents (Elt F) → (⟨S800000, .i32⟩ : BufTy).Contents (Elt F)),
    StableHlo.binary main_v3 main_v61 main_v62 (addi : (⟨S800000, .i32⟩ : BufTy).Contents (Elt F) → (⟨S800000, .i32⟩ : BufTy).Contents (Elt F) → (⟨S800000, .i32⟩ : BufTy).Contents (Elt F)),
    StableHlo.ternary main_v60 main_v62 main_v3 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v63 main_v64 (broadcastInDim S800000x1 ![0] bcast_S800000_S800000x1_0 : (⟨S800000, .i32⟩ : BufTy).Contents (Elt F) → (⟨S800000x1, .i32⟩ : BufTy).Contents (Elt F)),
    StableHlo.binary main_v58 main_v64 main_v65 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_14 (constant S_ .f32 0x00000000#32),
    StableHlo.unary main_cst_14 main_v66 (broadcastInDim S50000x256 ![] bcast_S_S50000x256 : (⟨S_, .f32⟩ : BufTy).Contents (Elt F) → (⟨S50000x256, .f32⟩ : BufTy).Contents (Elt F)),
    StableHlo.unary main_v1 main_v67 (broadcastInDim S800000x1 ![0] bcast_S800000_S800000x1_0 : (⟨S800000, .i32⟩ : BufTy).Contents (Elt F) → (⟨S800000x1, .i32⟩ : BufTy).Contents (Elt F)),
    StableHlo.ternary main_v66 main_v67 main_v65 main_v68 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_v10 main_v69 (broadcastInDim S50000x256 ![0, 1] bcast_S50000x1_S50000x256_0_1 : (⟨S50000x1, .f32⟩ : BufTy).Contents (Elt F) → (⟨S50000x256, .f32⟩ : BufTy).Contents (Elt F)),
    StableHlo.binary main_v68 main_v69 main_v70 (Host.divf : (⟨S50000x256, .f32⟩ : BufTy).Contents (Elt F) → (⟨S50000x256, .f32⟩ : BufTy).Contents (Elt F) → (⟨S50000x256, .f32⟩ : BufTy).Contents (Elt F)),
    StableHlo.unary main_arg6 main_v71 (broadcastInDim S1x256 ![1] bcast_S256_S1x256_1 : (⟨S256, .f32⟩ : BufTy).Contents (Elt F) → (⟨S1x256, .f32⟩ : BufTy).Contents (Elt F)),
    StableHlo.unary main_v71 main_v72 (broadcastInDim S50000x256 ![0, 1] bcast_S1x256_S50000x256_0_1 : (⟨S1x256, .f32⟩ : BufTy).Contents (Elt F) → (⟨S50000x256, .f32⟩ : BufTy).Contents (Elt F)),
    StableHlo.binary main_v70 main_v72 main_v73 (addf : (⟨S50000x256, .f32⟩ : BufTy).Contents (Elt F) → (⟨S50000x256, .f32⟩ : BufTy).Contents (Elt F) → (⟨S50000x256, .f32⟩ : BufTy).Contents (Elt F)),
    TRef.nullary main_call1.cst (constant S_ .f32 0x00000000#32),
    TRef.unary main_call1.cst main_call1.v0 (broadcastInDim S50000x256 ![] bcast_S_S50000x256),
    TRef.binary (TRef.of main_v73 : TRef sig ⟨S50000x256, .f32⟩) main_call1.v0 main_call1.v1 (cmpf .ogt),
    TRef.nullary main_call1.cst_0 (constant S_ .f32 0x00000000#32),
    TRef.unary main_call1.cst_0 main_call1.v2 (broadcastInDim S50000x256 ![] bcast_S_S50000x256),
    TRef.binary (TRef.of main_v73 : TRef sig ⟨S50000x256, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x256 ![] bcast_S_S50000x256),
    TRef.ternary main_call1.v3 main_call1.call0.v1 (TRef.of main_v73 : TRef sig ⟨S50000x256, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S50000x256 ![] bcast_S_S50000x256),
    TRef.binary main_call1.v6 main_call1.v5 main_call1.v7 mulf,
    TRef.ternary main_call1.v1 (TRef.of main_v73 : TRef sig ⟨S50000x256, .f32⟩) main_call1.v7 main_call1.call1.v0 select,
    StableHlo.binary main_v74 main_arg7 main_v75 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_c_15 (constantI S_ 32 0#32),
    StableHlo.unary main_c_15 main_v76 (broadcastInDim S800000 ![] bcast_S_S800000 : (⟨S_, .i32⟩ : BufTy).Contents (Elt F) → (⟨S800000, .i32⟩ : BufTy).Contents (Elt F)),
    StableHlo.binary main_v1 main_v76 main_v77 (cmpi .slt : (⟨S800000, .i32⟩ : BufTy).Contents (Elt F) → (⟨S800000, .i32⟩ : BufTy).Contents (Elt F) → (⟨S800000, .i1⟩ : BufTy).Contents (Elt F)),
    StableHlo.nullary main_c_16 (constantI S_ 32 50000#32),
    StableHlo.unary main_c_16 main_v78 (broadcastInDim S800000 ![] bcast_S_S800000 : (⟨S_, .i32⟩ : BufTy).Contents (Elt F) → (⟨S800000, .i32⟩ : BufTy).Contents (Elt F)),
    StableHlo.binary main_v1 main_v78 main_v79 (addi : (⟨S800000, .i32⟩ : BufTy).Contents (Elt F) → (⟨S800000, .i32⟩ : BufTy).Contents (Elt F) → (⟨S800000, .i32⟩ : BufTy).Contents (Elt F)),
    StableHlo.ternary main_v77 main_v79 main_v1 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v80 main_v81 (broadcastInDim S800000x1 ![0] bcast_S800000_S800000x1_0 : (⟨S800000, .i32⟩ : BufTy).Contents (Elt F) → (⟨S800000x1, .i32⟩ : BufTy).Contents (Elt F)),
    StableHlo.binary main_v75 main_v81 main_v82 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_17 (constant S_ .f32 0x00000000#32),
    StableHlo.unary main_cst_17 main_v83 (broadcastInDim S50000x128 ![] bcast_S_S50000x128 : (⟨S_, .f32⟩ : BufTy).Contents (Elt F) → (⟨S50000x128, .f32⟩ : BufTy).Contents (Elt F)),
    StableHlo.unary main_v3 main_v84 (broadcastInDim S800000x1 ![0] bcast_S800000_S800000x1_0 : (⟨S800000, .i32⟩ : BufTy).Contents (Elt F) → (⟨S800000x1, .i32⟩ : BufTy).Contents (Elt F)),
    StableHlo.ternary main_v83 main_v84 main_v82 main_v85 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v16 main_v86 (broadcastInDim S50000x128 ![0, 1] bcast_S50000x1_S50000x128_0_1 : (⟨S50000x1, .f32⟩ : BufTy).Contents (Elt F) → (⟨S50000x128, .f32⟩ : BufTy).Contents (Elt F)),
    StableHlo.binary main_v85 main_v86 main_v87 (Host.divf : (⟨S50000x128, .f32⟩ : BufTy).Contents (Elt F) → (⟨S50000x128, .f32⟩ : BufTy).Contents (Elt F) → (⟨S50000x128, .f32⟩ : BufTy).Contents (Elt F)),
    StableHlo.nullary main_c_18 (constantI S_ 32 0#32),
    StableHlo.unary main_c_18 main_v88 (broadcastInDim S800000 ![] bcast_S_S800000 : (⟨S_, .i32⟩ : BufTy).Contents (Elt F) → (⟨S800000, .i32⟩ : BufTy).Contents (Elt F)),
    StableHlo.binary main_v3 main_v88 main_v89 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32),
    StableHlo.unary main_c_19 main_v90 (broadcastInDim S800000 ![] bcast_S_S800000 : (⟨S_, .i32⟩ : BufTy).Contents (Elt F) → (⟨S800000, .i32⟩ : BufTy).Contents (Elt F)),
    StableHlo.binary main_v3 main_v90 main_v91 (addi : (⟨S800000, .i32⟩ : BufTy).Contents (Elt F) → (⟨S800000, .i32⟩ : BufTy).Contents (Elt F) → (⟨S800000, .i32⟩ : BufTy).Contents (Elt F)),
    StableHlo.ternary main_v89 main_v91 main_v3 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v92 main_v93 (broadcastInDim S800000x1 ![0] bcast_S800000_S800000x1_0 : (⟨S800000, .i32⟩ : BufTy).Contents (Elt F) → (⟨S800000x1, .i32⟩ : BufTy).Contents (Elt F)),
    StableHlo.binary main_v87 main_v93 main_v94 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_20 (constant S_ .f32 0x00000000#32),
    StableHlo.unary main_cst_20 main_v95 (broadcastInDim S50000x128 ![] bcast_S_S50000x128 : (⟨S_, .f32⟩ : BufTy).Contents (Elt F) → (⟨S50000x128, .f32⟩ : BufTy).Contents (Elt F)),
    StableHlo.unary main_v1 main_v96 (broadcastInDim S800000x1 ![0] bcast_S800000_S800000x1_0 : (⟨S800000, .i32⟩ : BufTy).Contents (Elt F) → (⟨S800000x1, .i32⟩ : BufTy).Contents (Elt F)) ]

/-- The operations of the program text's window 2, calls listed in place (6 operations). -/
abbrev p2 : List (HloOp τ sig (Elt F)) :=
  [ StableHlo.ternary main_v95 main_v96 main_v94 main_v97 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v10 main_v98 (broadcastInDim S50000x128 ![0, 1] bcast_S50000x1_S50000x128_0_1 : (⟨S50000x1, .f32⟩ : BufTy).Contents (Elt F) → (⟨S50000x128, .f32⟩ : BufTy).Contents (Elt F)),
    StableHlo.binary main_v97 main_v98 main_v99 (Host.divf : (⟨S50000x128, .f32⟩ : BufTy).Contents (Elt F) → (⟨S50000x128, .f32⟩ : BufTy).Contents (Elt F) → (⟨S50000x128, .f32⟩ : BufTy).Contents (Elt F)),
    StableHlo.unary main_arg8 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S50000x128 ![0, 1] bcast_S1x128_S50000x128_0_1 : (⟨S1x128, .f32⟩ : BufTy).Contents (Elt F) → (⟨S50000x128, .f32⟩ : BufTy).Contents (Elt F)),
    StableHlo.binary main_v99 main_v101 main_v102 (addf : (⟨S50000x128, .f32⟩ : BufTy).Contents (Elt F) → (⟨S50000x128, .f32⟩ : BufTy).Contents (Elt F) → (⟨S50000x128, .f32⟩ : BufTy).Contents (Elt F)) ]

/-- The whole program: the six stretches in order. -/
def ops : List (HloOp τ sig (Elt F)) := s0 ++ l1 ++ e1 ++ l2 ++ e2 ++ l3

end Cert.RefRun

end
-- ==== Proof.LibAfterAppend.lean ====
/-
  A straight line of host operations read back in two stretches.

  The contents of the buffers after a list of host operations is the fold of the operations' results over the
  contents before it.  The fold over a list cut in two is the fold over the second part of the fold over the first:
  running one stretch after another is running the two in turn.  So a long program can be read back one stretch at a
  time, each stretch's result stated once as a function of the buffers it reads.
-/
import Idealize.ShloMosaic.Lib.StableHlo.Run

noncomputable section

namespace Idealize.ShloMosaic.StableHlo

variable {τ : Topo} {sig : RefSig} {Val : EltTy → Type}

/-- The buffers after the operations `A` followed by the operations `B` are the buffers after `B` run from the buffers
    after `A`. -/
theorem after_append (A B : List (HloOp τ sig Val)) (V : Valuation τ sig Val) :
    after (A ++ B) V = after B (after A V) := by
  induction A generalizing V with
  | nil => rfl
  | cons a A ih => exact ih _

end Idealize.ShloMosaic.StableHlo

end
-- ==== Proof.RefMain.lean ====
/-
  The reference's @main is the straight line of its operations, and its run.

  Each of the three windows of the program text is the sequence of its operations once the two calls of the ELU function
  (and that function's two calls of the selects) are replaced by their bodies; the windows run in order, so @main is the
  sequence of all 154.  Every operation touches TensorCore buffers only and determines its results, so every weakly fair
  execution terminates with every buffer at the fold of the operations over the launch contents.
-/
import proofs.«110701_j74509092651627_1_alg».proof.Proof.RefOps
import proofs.«110701_j74509092651627_1_alg».proof.Proof.LibAfterAppend

noncomputable section

namespace Cert.RefRun

open Cert.ReferenceIdeal Cert.ReferenceIdeal.Facts₀ Idealize.ShloMosaic Idealize.ShloMosaic.TcCoe Idealize.SL.Sem Idealize.ShloMosaic.StableHlo

variable {F : FTy → Type} [FloatOps F]

/-- A property of every operation of two lists holds of every operation of their concatenation. -/
theorem forall_append' {α : Type} {p : α → Prop} {A B : List α} (ha : A.Forall p) (hb : B.Forall p) : (A ++ B).Forall p :=
  List.forall_iff_forall_mem.2 fun x hx =>
    (List.mem_append.1 hx).elim (List.forall_iff_forall_mem.1 ha x) (List.forall_iff_forall_mem.1 hb x)

-- one bind re-associated per statement: the rewriting recurses once per statement of a window
set_option maxRecDepth 4096 in
set_option maxHeartbeats 1600000 in
/-- Window 0 is the sequence of its operations: the ELU function and the selects it calls unfolded at the call. -/
theorem part0_eq (d : Dev nD) : main_part0 (F := F) d = seq p0 := by
  simp only [main_part0, fn_elu.body, fn_where.body, fn_where_0.body, seq, bind_assoc, pure_bind]
  rfl

set_option maxRecDepth 4096 in
set_option maxHeartbeats 1600000 in
/-- Window 1 is the sequence of its operations. -/
theorem part1_eq (d : Dev nD) : main_part1 (F := F) d = seq p1 := by
  simp only [main_part1, fn_elu.body, fn_where.body, fn_where_0.body, seq, bind_assoc, pure_bind]
  rfl

/-- Window 2 is the sequence of its operations. -/
theorem part2_eq (d : Dev nD) : main_part2 (F := F) d = seq p2 := rfl

set_option maxRecDepth 4096 in
/-- The windows' operations in order are the six stretches in order. -/
theorem parts_eq : p0 (F := F) ++ (p1 ++ p2) = ops := rfl

/-- @main is the sequence of the 154 operations. -/
theorem main_eq (d : Dev nD) : main (F := F) d = seq ops := by
  rw [← parts_eq (F := F), seq_append, seq_append, ← part0_eq d, ← part1_eq d, ← part2_eq d]
  rfl

theorem scopedRefs_eq : (Finset.univ.filter fun b : Ref sig .tc => b.isScoped) = ∅ := by decide
theorem scopedSems_eq : (Finset.univ.filter fun sm : SemLoc sig => sm.isScoped .tc) = ∅ := by decide

theorem s0_sub : (s0 (F := F)).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., unary_bufs_sub .., ternary_bufs_sub ..,
    nullary_bufs_sub .., unary_bufs_sub .., binary_bufs_sub .., unary_bufs_sub ..⟩
theorem s0_fresh : (s0 (F := F)).Forall fun op => op.fresh = ∅ :=
  ⟨rfl, rfl, rfl, rfl, rfl, rfl, rfl, rfl, rfl, rfl, rfl, rfl, rfl, rfl, rfl, rfl, rfl, rfl, rfl, rfl,
    rfl, rfl⟩

theorem l1_sub : (l1 (F := F)).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    binary_bufs_sub .., unary_bufs_sub .., unary_bufs_sub .., binary_bufs_sub ..⟩
theorem l1_fresh : (l1 (F := F)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

theorem e1_sub : (e1 (F := F)).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩
theorem e1_fresh : (e1 (F := F)).Forall fun op => op.fresh = ∅ :=
  ⟨rfl, rfl, rfl, rfl, rfl, rfl, rfl, rfl, rfl, rfl, rfl, rfl, rfl, rfl, rfl⟩

theorem l2_sub : (l2 (F := F)).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    binary_bufs_sub .., unary_bufs_sub .., unary_bufs_sub .., binary_bufs_sub ..⟩
theorem l2_fresh : (l2 (F := F)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

theorem e2_sub : (e2 (F := F)).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩
theorem e2_fresh : (e2 (F := F)).Forall fun op => op.fresh = ∅ :=
  ⟨rfl, rfl, rfl, rfl, rfl, rfl, rfl, rfl, rfl, rfl, rfl, rfl, rfl, rfl, rfl⟩

theorem l3_sub : (l3 (F := F)).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    binary_bufs_sub .., unary_bufs_sub .., unary_bufs_sub .., binary_bufs_sub ..⟩
theorem l3_fresh : (l3 (F := F)).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

/-- Every operation touches TensorCore buffers only. -/
theorem ops_sub : (ops (F := F)).Forall fun op => op.bufs ⊆ tcRefs τ sig :=
  forall_append' (forall_append' (forall_append' (forall_append' (forall_append' s0_sub l1_sub) e1_sub) l2_sub) e2_sub) l3_sub

/-- Every operation determines its results. -/
theorem ops_fresh : (ops (F := F)).Forall fun op => op.fresh = ∅ :=
  forall_append' (forall_append' (forall_append' (forall_append' (forall_append' s0_fresh l1_fresh) e1_fresh) l2_fresh) e2_fresh) l3_fresh

/-- From any memory with zero counters every weakly fair execution of @main terminates, and every final state has each
    TensorCore buffer at the fold of the 154 operations over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.1 ops_fresh)

end Cert.RefRun

end
-- ==== Proof.RefFrame.lean ====
/-
  A buffer outside the list of buffers a stretch of host operations writes keeps its contents.

  Each operation writes one buffer; when that buffer is in a list W, the operation's written set is inside W's, which is
  the form the library's frame lemma for a list of operations takes.
-/
import Idealize.ShloMosaic.Lib.StableHlo.Run

namespace Cert.RefRun

open Idealize.ShloMosaic Idealize.ShloMosaic.StableHlo

variable {τ : Topo} {sig : RefSig}

/-- The one buffer an operation writes, a member of the list `W`, is inside the set of `W`'s buffers. -/
theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.2 (List.mem_toFinset.2 (List.mem_map.2 ⟨y, h, rfl⟩))

end Cert.RefRun
-- ==== Proof.RefRead0.lean ====
/-
  The first stretch read back: the two index vectors and the two degree columns.

  After the 22 operations, from any contents V of the buffers: the node index vector and the hyperedge index vector are the
  two rows of the incidence list V holds, and the two degree columns are the degree function of those vectors.
-/
import proofs.«110701_j74509092651627_1_alg».proof.Proof.RefOps
import proofs.«110701_j74509092651627_1_alg».proof.Proof.RefFrame
import proofs.«110701_j74509092651627_1_alg».proof.Proof.Spec

noncomputable section

namespace Cert.RefRun

open Cert.ReferenceIdeal Cert.ReferenceIdeal.Facts₀ Idealize.ShloMosaic Idealize.ShloMosaic.TcCoe Idealize.SL.Sem Idealize.ShloMosaic.StableHlo

attribute [local irreducible] Host.scatterAdd Host.gather

/-- The node of each incidence: row 0 of the incidence list. -/
theorem s0_v1 (V : Valuation τ sig (Elt Ideal)) :
    after (s0 (F := Ideal)) V (Proc.devRef .tc main_v1) = Cert.Spec.vi (V (Proc.devRef .tc main_arg1)) := by
  unfold s0
  after_results_simp
  rfl

/-- The hyperedge of each incidence: row 1 of the incidence list. -/
theorem s0_v3 (V : Valuation τ sig (Elt Ideal)) :
    after (s0 (F := Ideal)) V (Proc.devRef .tc main_v3) = Cert.Spec.hi (V (Proc.devRef .tc main_arg1)) := by
  unfold s0
  after_results_simp
  rfl

/-- The node degrees, as a column. -/
theorem s0_v10 (V : Valuation τ sig (Elt Ideal)) :
    after (s0 (F := Ideal)) V (Proc.devRef .tc main_v10) = Cert.Spec.degree (Cert.Spec.vi (V (Proc.devRef .tc main_arg1))) := by
  unfold s0
  after_results_simp
  rfl

/-- The hyperedge degrees, as a column. -/
theorem s0_v16 (V : Valuation τ sig (Elt Ideal)) :
    after (s0 (F := Ideal)) V (Proc.devRef .tc main_v16) = Cert.Spec.degree (Cert.Spec.hi (V (Proc.devRef .tc main_arg1))) := by
  unfold s0
  after_results_simp
  rfl

/-- The buffers the stretch writes. -/
abbrev s0_W : List (Ref sig .tc) :=
  [main_v0, main_v1, main_v2, main_v3, main_cst, main_v4, main_cst_0, main_v5,
    main_v6, main_v7, main_cst_1, main_v8, main_v9, main_v10, main_cst_2, main_v11,
    main_v12, main_v13, main_cst_3, main_v14, main_v15, main_v16]

/-- A buffer the stretch does not write keeps its contents. -/
theorem s0_frame (V : Valuation τ sig (Elt Ideal)) {r : Ref sig .tc} (hr : r ∉ s0_W) :
    after (s0 (F := Ideal)) V (Proc.devRef .tc r) = V (Proc.devRef .tc r) :=
  after_of_writes_sub (s0 (F := Ideal)) V (W := s0_W)
    ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide)⟩ hr

end Cert.RefRun

end
-- ==== Proof.RefRead1.lean ====
/-
  The first layer read back.

  After the stretch's 34 operations, from any contents V of the buffers, the layer's result buffer holds the layer
  function (256 columns) of the index vectors, the degree columns, the layer's input, its weight matrix and its bias as V
  holds them: the projection, the sum over each hyperedge's nodes divided by the hyperedge's degree, the sum over each
  node's hyperedges divided by the node's degree, the bias added.
-/
import proofs.«110701_j74509092651627_1_alg».proof.Proof.RefOps
import proofs.«110701_j74509092651627_1_alg».proof.Proof.RefFrame
import proofs.«110701_j74509092651627_1_alg».proof.Proof.Spec

noncomputable section

namespace Cert.RefRun

open Cert.ReferenceIdeal Cert.ReferenceIdeal.Facts₀ Idealize.ShloMosaic Idealize.ShloMosaic.TcCoe Idealize.SL.Sem Idealize.ShloMosaic.StableHlo

attribute [local irreducible] Host.scatterAdd Host.gather

set_option maxRecDepth 4096 in
/-- The layer's result. -/
theorem l1_out (V : Valuation τ sig (Elt Ideal)) :
    after (l1 (F := Ideal)) V (Proc.devRef .tc main_v44)
      = Cert.Spec.conv256 (V (Proc.devRef .tc main_v1)) (V (Proc.devRef .tc main_v3)) (V (Proc.devRef .tc main_v10)) (V (Proc.devRef .tc main_v16))
          (V (Proc.devRef .tc main_arg0)) (V (Proc.devRef .tc main_arg3)) (V (Proc.devRef .tc main_arg4)) := by
  unfold l1
  after_results_simp
  rfl

/-- The buffers the stretch writes. -/
abbrev l1_W : List (Ref sig .tc) :=
  [main_v17, main_c, main_v18, main_v19, main_c_4, main_v20, main_v21, main_v22,
    main_v23, main_v24, main_cst_5, main_v25, main_v26, main_v27, main_v28, main_v29,
    main_c_6, main_v30, main_v31, main_c_7, main_v32, main_v33, main_v34, main_v35,
    main_v36, main_cst_8, main_v37, main_v38, main_v39, main_v40, main_v41, main_v42,
    main_v43, main_v44]

/-- A buffer the stretch does not write keeps its contents. -/
theorem l1_frame (V : Valuation τ sig (Elt Ideal)) {r : Ref sig .tc} (hr : r ∉ l1_W) :
    after (l1 (F := Ideal)) V (Proc.devRef .tc r) = V (Proc.devRef .tc r) :=
  after_of_writes_sub (l1 (F := Ideal)) V (W := l1_W)
    ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide)⟩ hr

end Cert.RefRun

end
-- ==== Proof.LibTypedRef.lean ====
/-
  A value written through a typed buffer reference and read back.

  A module-local function of a host program (an outlined `where`, `relu`, `log_softmax`, …) names its values by
  typed references: a buffer together with a proof that the buffer's type is the value's.  Each of its operations
  stores its result through the result's reference (`toBuf`: a transport along that proof) and the next operation
  reads it through the same reference (`ofBuf`: the transport back).  Read back to back the two transports cancel,
  whatever the buffer is: no entry of the signature's buffer table has to be looked up.  Rewriting with this lemma
  first leaves only the transports at a function's arguments and at its result.
-/
import Idealize.ShloMosaic.Lib.StableHlo

namespace Idealize.ShloMosaic.TypedRef

open Idealize.ShloMosaic

/-- Contents stored through a typed reference and read back through it are the contents. -/
theorem ofBuf_toBuf {sig : RefSig} {T : BufTy} {Val : EltTy → Type} (x : StableHlo.TRef sig T) (v : T.Contents Val) :
    x.ofBuf (x.toBuf v) = v := by
  obtain ⟨r, h, a, b⟩ := x
  subst h
  rfl

/-- Contents read through a typed reference and stored back through it are the contents. -/
theorem toBuf_ofBuf {sig : RefSig} {T : BufTy} {Val : EltTy → Type} (x : StableHlo.TRef sig T) (v : x.ref.ty.Contents Val) :
    x.toBuf (x.ofBuf v) = v := by
  obtain ⟨r, h, a, b⟩ := x
  subst h
  rfl

end Idealize.ShloMosaic.TypedRef
-- ==== Proof.RefReadE1.lean ====
/-
  The first ELU read back.

  After the stretch's 15 operations, from any contents V of the buffers, the result buffer holds ELU of the input buffer's
  contents in V: x where x > 0, otherwise exp(x) - 1 computed on the input with its positive entries replaced by zero.
  The function's values are named by typed references; a value stored through one and read back through it is the value.
-/
import proofs.«110701_j74509092651627_1_alg».proof.Proof.RefOps
import proofs.«110701_j74509092651627_1_alg».proof.Proof.RefFrame
import proofs.«110701_j74509092651627_1_alg».proof.Proof.Spec
import proofs.«110701_j74509092651627_1_alg».proof.Proof.LibTypedRef

noncomputable section

namespace Cert.RefRun

open Cert.ReferenceIdeal Cert.ReferenceIdeal.Facts₀ Idealize.ShloMosaic Idealize.ShloMosaic.TcCoe Idealize.SL.Sem Idealize.ShloMosaic.StableHlo

open Idealize.ShloMosaic.TypedRef

set_option maxRecDepth 4096 in
/-- The ELU's result. -/
theorem e1_out (V : Valuation τ sig (Elt Ideal)) :
    after (e1 (F := Ideal)) V (Proc.devRef .tc main_v45) = Cert.Spec.elu (V (Proc.devRef .tc main_v44)) := by
  unfold e1
  after_results_simp
  simp only [ofBuf_toBuf, toBuf_ofBuf]
  simp only [cast_eq]
  rfl

/-- The buffers the stretch writes. -/
abbrev e1_W : List (Ref sig .tc) :=
  [main_call0_cst, main_call0_v0, main_call0_v1, main_call0_cst_0, main_call0_v2, main_call0_v3, main_call0_cst_1, main_call0_call0_v0,
    main_call0_call0_v1, main_call0_v4, main_call0_v5, main_call0_cst_2, main_call0_v6, main_call0_v7, main_v45]

/-- A buffer the stretch does not write keeps its contents. -/
theorem e1_frame (V : Valuation τ sig (Elt Ideal)) {r : Ref sig .tc} (hr : r ∉ e1_W) :
    after (e1 (F := Ideal)) V (Proc.devRef .tc r) = V (Proc.devRef .tc r) :=
  after_of_writes_sub (e1 (F := Ideal)) V (W := e1_W)
    ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide)⟩ hr

end Cert.RefRun

end
-- ==== Proof.RefRead2.lean ====
/-
  The second layer read back.

  After the stretch's 34 operations, from any contents V of the buffers, the layer's result buffer holds the layer
  function (256 columns) of the index vectors, the degree columns, the layer's input, its weight matrix and its bias as V
  holds them: the projection, the sum over each hyperedge's nodes divided by the hyperedge's degree, the sum over each
  node's hyperedges divided by the node's degree, the bias added.
-/
import proofs.«110701_j74509092651627_1_alg».proof.Proof.RefOps
import proofs.«110701_j74509092651627_1_alg».proof.Proof.RefFrame
import proofs.«110701_j74509092651627_1_alg».proof.Proof.Spec

noncomputable section

namespace Cert.RefRun

open Cert.ReferenceIdeal Cert.ReferenceIdeal.Facts₀ Idealize.ShloMosaic Idealize.ShloMosaic.TcCoe Idealize.SL.Sem Idealize.ShloMosaic.StableHlo

attribute [local irreducible] Host.scatterAdd Host.gather

set_option maxRecDepth 4096 in
/-- The layer's result. -/
theorem l2_out (V : Valuation τ sig (Elt Ideal)) :
    after (l2 (F := Ideal)) V (Proc.devRef .tc main_v73)
      = Cert.Spec.conv256 (V (Proc.devRef .tc main_v1)) (V (Proc.devRef .tc main_v3)) (V (Proc.devRef .tc main_v10)) (V (Proc.devRef .tc main_v16))
          (V (Proc.devRef .tc main_v45)) (V (Proc.devRef .tc main_arg5)) (V (Proc.devRef .tc main_arg6)) := by
  unfold l2
  after_results_simp
  rfl

/-- The buffers the stretch writes. -/
abbrev l2_W : List (Ref sig .tc) :=
  [main_v46, main_c_9, main_v47, main_v48, main_c_10, main_v49, main_v50, main_v51,
    main_v52, main_v53, main_cst_11, main_v54, main_v55, main_v56, main_v57, main_v58,
    main_c_12, main_v59, main_v60, main_c_13, main_v61, main_v62, main_v63, main_v64,
    main_v65, main_cst_14, main_v66, main_v67, main_v68, main_v69, main_v70, main_v71,
    main_v72, main_v73]

/-- A buffer the stretch does not write keeps its contents. -/
theorem l2_frame (V : Valuation τ sig (Elt Ideal)) {r : Ref sig .tc} (hr : r ∉ l2_W) :
    after (l2 (F := Ideal)) V (Proc.devRef .tc r) = V (Proc.devRef .tc r) :=
  after_of_writes_sub (l2 (F := Ideal)) V (W := l2_W)
    ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide)⟩ hr

end Cert.RefRun

end
-- ==== Proof.RefReadE2.lean ====
/-
  The second ELU read back.

  After the stretch's 15 operations, from any contents V of the buffers, the result buffer holds ELU of the input buffer's
  contents in V: x where x > 0, otherwise exp(x) - 1 computed on the input with its positive entries replaced by zero.
  The function's values are named by typed references; a value stored through one and read back through it is the value.
-/
import proofs.«110701_j74509092651627_1_alg».proof.Proof.RefOps
import proofs.«110701_j74509092651627_1_alg».proof.Proof.RefFrame
import proofs.«110701_j74509092651627_1_alg».proof.Proof.Spec
import proofs.«110701_j74509092651627_1_alg».proof.Proof.LibTypedRef

noncomputable section

namespace Cert.RefRun

open Cert.ReferenceIdeal Cert.ReferenceIdeal.Facts₀ Idealize.ShloMosaic Idealize.ShloMosaic.TcCoe Idealize.SL.Sem Idealize.ShloMosaic.StableHlo

open Idealize.ShloMosaic.TypedRef

set_option maxRecDepth 4096 in
/-- The ELU's result. -/
theorem e2_out (V : Valuation τ sig (Elt Ideal)) :
    after (e2 (F := Ideal)) V (Proc.devRef .tc main_v74) = Cert.Spec.elu (V (Proc.devRef .tc main_v73)) := by
  unfold e2
  after_results_simp
  simp only [ofBuf_toBuf, toBuf_ofBuf]
  simp only [cast_eq]
  rfl

/-- The buffers the stretch writes. -/
abbrev e2_W : List (Ref sig .tc) :=
  [main_call1_cst, main_call1_v0, main_call1_v1, main_call1_cst_0, main_call1_v2, main_call1_v3, main_call1_cst_1, main_call1_call0_v0,
    main_call1_call0_v1, main_call1_v4, main_call1_v5, main_call1_cst_2, main_call1_v6, main_call1_v7, main_v74]

/-- A buffer the stretch does not write keeps its contents. -/
theorem e2_frame (V : Valuation τ sig (Elt Ideal)) {r : Ref sig .tc} (hr : r ∉ e2_W) :
    after (e2 (F := Ideal)) V (Proc.devRef .tc r) = V (Proc.devRef .tc r) :=
  after_of_writes_sub (e2 (F := Ideal)) V (W := e2_W)
    ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide)⟩ hr

end Cert.RefRun

end
-- ==== Proof.RefRead3.lean ====
/-
  The third layer read back.

  After the stretch's 34 operations, from any contents V of the buffers, the layer's result buffer holds the layer
  function (128 columns) of the index vectors, the degree columns, the layer's input, its weight matrix and its bias as V
  holds them: the projection, the sum over each hyperedge's nodes divided by the hyperedge's degree, the sum over each
  node's hyperedges divided by the node's degree, the bias added.
-/
import proofs.«110701_j74509092651627_1_alg».proof.Proof.RefOps
import proofs.«110701_j74509092651627_1_alg».proof.Proof.RefFrame
import proofs.«110701_j74509092651627_1_alg».proof.Proof.Spec

noncomputable section

namespace Cert.RefRun

open Cert.ReferenceIdeal Cert.ReferenceIdeal.Facts₀ Idealize.ShloMosaic Idealize.ShloMosaic.TcCoe Idealize.SL.Sem Idealize.ShloMosaic.StableHlo

attribute [local irreducible] Host.scatterAdd Host.gather

set_option maxRecDepth 4096 in
/-- The layer's result. -/
theorem l3_out (V : Valuation τ sig (Elt Ideal)) :
    after (l3 (F := Ideal)) V (Proc.devRef .tc main_v102)
      = Cert.Spec.conv128 (V (Proc.devRef .tc main_v1)) (V (Proc.devRef .tc main_v3)) (V (Proc.devRef .tc main_v10)) (V (Proc.devRef .tc main_v16))
          (V (Proc.devRef .tc main_v74)) (V (Proc.devRef .tc main_arg7)) (V (Proc.devRef .tc main_arg8)) := by
  unfold l3
  after_results_simp
  rfl

/-- The buffers the stretch writes. -/
abbrev l3_W : List (Ref sig .tc) :=
  [main_v75, main_c_15, main_v76, main_v77, main_c_16, main_v78, main_v79, main_v80,
    main_v81, main_v82, main_cst_17, main_v83, main_v84, main_v85, main_v86, main_v87,
    main_c_18, main_v88, main_v89, main_c_19, main_v90, main_v91, main_v92, main_v93,
    main_v94, main_cst_20, main_v95, main_v96, main_v97, main_v98, main_v99, main_v100,
    main_v101, main_v102]

/-- A buffer the stretch does not write keeps its contents. -/
theorem l3_frame (V : Valuation τ sig (Elt Ideal)) {r : Ref sig .tc} (hr : r ∉ l3_W) :
    after (l3 (F := Ideal)) V (Proc.devRef .tc r) = V (Proc.devRef .tc r) :=
  after_of_writes_sub (l3 (F := Ideal)) V (W := l3_W)
    ⟨single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide), single_sub_of_mem (by decide), single_sub_of_mem (by decide),
    single_sub_of_mem (by decide), single_sub_of_mem (by decide)⟩ hr

end Cert.RefRun

end
-- ==== Proof.RefRun.lean ====
/-
  The reference program's run: it computes the network function of its arguments.

  The program is the straight line of its 154 host operations, so every weakly fair execution terminates with each buffer
  at the fold of the operations over the launch contents.  The fold is read back stretch by stretch: the index vectors and
  degree columns first; then each layer as the layer function of those, of its input and of its weights and bias; each ELU
  as the ELU of its input.  A stretch leaves every buffer it does not write as it was, so what a later stretch reads of
  an earlier one's results, and of the arguments, is still there.  Composed, the result buffer holds the three-layer
  network of the arguments, and no argument is written.
-/
import proofs.«110701_j74509092651627_1_alg».proof.Proof.Gen.ReferenceIdeal
import proofs.«110701_j74509092651627_1_alg».proof.Proof.Spec
import Idealize.ShloMosaic.Lib.StableHlo.Run
import proofs.«110701_j74509092651627_1_alg».proof.Proof.RefMain
import proofs.«110701_j74509092651627_1_alg».proof.Proof.RefRead0
import proofs.«110701_j74509092651627_1_alg».proof.Proof.RefRead1
import proofs.«110701_j74509092651627_1_alg».proof.Proof.RefReadE1
import proofs.«110701_j74509092651627_1_alg».proof.Proof.RefRead2
import proofs.«110701_j74509092651627_1_alg».proof.Proof.RefReadE2
import proofs.«110701_j74509092651627_1_alg».proof.Proof.RefRead3

noncomputable section

namespace Cert.RefRun

open Cert.ReferenceIdeal Idealize.ShloMosaic Idealize.ShloMosaic.TcCoe Idealize.SL.Sem Idealize.ShloMosaic.StableHlo

/-- The fold of all the operations is the fold of the six stretches in turn. -/
theorem after_ops (V : Valuation τ sig (Elt Ideal)) :
    after (ops (F := Ideal)) V = after l3 (after e2 (after l2 (after e1 (after l1 (after s0 V))))) := by
  unfold ops
  rw [after_append, after_append, after_append, after_append, after_append]

/-- After the whole program the result buffer holds the network function of the arguments' contents. -/
theorem out_eq (V : Valuation τ sig (Elt Ideal)) :
    after (ops (F := Ideal)) V (Proc.devRef .tc main_v102)
      = Cert.Spec.out (V (Proc.devRef .tc main_arg0)) (V (Proc.devRef .tc main_arg1)) (V (Proc.devRef .tc main_arg3))
          (V (Proc.devRef .tc main_arg4)) (V (Proc.devRef .tc main_arg5)) (V (Proc.devRef .tc main_arg6))
          (V (Proc.devRef .tc main_arg7)) (V (Proc.devRef .tc main_arg8)) := by
  rw [after_ops]
  -- the third layer, reading the second ELU's result, the index vectors, the degrees and its weights
  rw [l3_out, e2_frame _ (r := main_v1) (by decide), e2_frame _ (r := main_v3) (by decide), e2_frame _ (r := main_v10) (by decide), e2_frame _ (r := main_v16) (by decide), e2_frame _ (r := main_arg7) (by decide), e2_frame _ (r := main_arg8) (by decide), e2_out]
  -- the second layer
  rw [l2_frame _ (r := main_v1) (by decide), l2_frame _ (r := main_v3) (by decide), l2_frame _ (r := main_v10) (by decide), l2_frame _ (r := main_v16) (by decide), l2_frame _ (r := main_arg7) (by decide), l2_frame _ (r := main_arg8) (by decide), l2_out]
  rw [e1_frame _ (r := main_v1) (by decide), e1_frame _ (r := main_v3) (by decide), e1_frame _ (r := main_v10) (by decide), e1_frame _ (r := main_v16) (by decide), e1_frame _ (r := main_arg5) (by decide), e1_frame _ (r := main_arg6) (by decide), e1_frame _ (r := main_arg7) (by decide), e1_frame _ (r := main_arg8) (by decide), e1_out]
  -- the first layer
  rw [l1_frame _ (r := main_v1) (by decide), l1_frame _ (r := main_v3) (by decide), l1_frame _ (r := main_v10) (by decide), l1_frame _ (r := main_v16) (by decide), l1_frame _ (r := main_arg5) (by decide), l1_frame _ (r := main_arg6) (by decide), l1_frame _ (r := main_arg7) (by decide), l1_frame _ (r := main_arg8) (by decide), l1_out]
  -- the index vectors and the degrees
  rw [s0_v1, s0_v3, s0_v10, s0_v16, s0_frame _ (r := main_arg0) (by decide), s0_frame _ (r := main_arg3) (by decide), s0_frame _ (r := main_arg4) (by decide), s0_frame _ (r := main_arg5) (by decide), s0_frame _ (r := main_arg6) (by decide), s0_frame _ (r := main_arg7) (by decide), s0_frame _ (r := main_arg8) (by decide)]
  rfl

/-- A buffer no stretch writes holds after the whole program what it held before. -/
theorem keep_eq (V : Valuation τ sig (Elt Ideal)) {r : Ref sig .tc} (h0 : r ∉ s0_W) (h1 : r ∉ l1_W) (h2 : r ∉ e1_W)
    (h3 : r ∉ l2_W) (h4 : r ∉ e2_W) (h5 : r ∉ l3_W) :
    after (ops (F := Ideal)) V (Proc.devRef .tc r) = V (Proc.devRef .tc r) := by
  rw [after_ops, l3_frame _ h5, e2_frame _ h4, l2_frame _ h3, e1_frame _ h2, l1_frame _ h1, s0_frame _ h0]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v102)
        = Cert.Spec.out (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v102).trans (out_eq _),
      (h c main_arg0).trans (keep_eq _ (r := main_arg0) (by decide) (by decide) (by decide) (by decide) (by decide) (by decide)),
      (h c main_arg1).trans (keep_eq _ (r := main_arg1) (by decide) (by decide) (by decide) (by decide) (by decide) (by decide)),
      (h c main_arg2).trans (keep_eq _ (r := main_arg2) (by decide) (by decide) (by decide) (by decide) (by decide) (by decide)),
      (h c main_arg3).trans (keep_eq _ (r := main_arg3) (by decide) (by decide) (by decide) (by decide) (by decide) (by decide)),
      (h c main_arg4).trans (keep_eq _ (r := main_arg4) (by decide) (by decide) (by decide) (by decide) (by decide) (by decide)),
      (h c main_arg5).trans (keep_eq _ (r := main_arg5) (by decide) (by decide) (by decide) (by decide) (by decide) (by decide)),
      (h c main_arg6).trans (keep_eq _ (r := main_arg6) (by decide) (by decide) (by decide) (by decide) (by decide) (by decide)),
      (h c main_arg7).trans (keep_eq _ (r := main_arg7) (by decide) (by decide) (by decide) (by decide) (by decide) (by decide)),
      (h c main_arg8).trans (keep_eq _ (r := main_arg8) (by decide) (by decide) (by decide) (by decide) (by decide) (by decide))⟩)
    (run_all m ρ)

end Cert.RefRun

end
-- ==== Proof.lean ====
/-
  The certificate of a three-layer hypergraph convolution network (50000 nodes, 50000 hyperedges, 800000 incidences;
  256 → 256 → 256 → 128 features) against its jnp reference, over the extended reals.

  Each layer projects the node features (x · W), averages the projected rows over the nodes of each hyperedge, averages
  those over the hyperedges of each node, and adds a bias; the first two layers end with ELU. The kernel computes the
  three projections and the six "divide by the degree, add a bias row (and apply ELU)" steps in row-tiled regions of 2000
  rows and leaves the gathers and scatter-adds to the host; the reference is host operations throughout.

  At the ideal instance the two agree stage by stage: a change of float format is the identity, so the tiled product of the
  narrowed operands into a zero accumulator is the host's dot product, entry by entry the same sum over the 256 inner
  indices; the gathers and scatter-adds are the same host operations applied to equal arrays; after the inner average the
  kernel adds a zero bias row, and a + 0 = a for every extended real; the kernel's ELU, select(v > 0, v, exp v − 1), is the
  reference's select(v > 0, v, 1 · expm1(select(v > 0, 0, v))) since expm1 v = exp v − 1 and 1 · y = y. None of these
  laws needs the inputs finite, so the precondition is not opened.

  `Spec.out` (Proof/Spec.lean) is the network as one function of the argument arrays. The kernel's run ends with its result
  at the last segment boundary's contents (Proof/KRun.lean), which is `Spec.out` of the arguments (Proof/KChain.lean over
  the per-region value theorems Proof/Reg0 … Reg8); the reference's run ends at `Spec.out` of its arguments
  (Proof/RefRun.lean). The ideal pass rewrote nothing, so `preserves` is trivial.
-/
import proofs.«110701_j74509092651627_1_alg».proof.Defs
import proofs.«110701_j74509092651627_1_alg».proof.Proof.Gen.Kernel
import proofs.«110701_j74509092651627_1_alg».proof.Proof.Gen.Kernel.Skeleton
import proofs.«110701_j74509092651627_1_alg».proof.Proof.Gen.Kernel.Launch
import proofs.«110701_j74509092651627_1_alg».proof.Proof.Gen.Kernel.Points
import proofs.«110701_j74509092651627_1_alg».proof.Proof.Gen.Kernel.Frame
import proofs.«110701_j74509092651627_1_alg».proof.Proof.Gen.KernelIdeal
import proofs.«110701_j74509092651627_1_alg».proof.Proof.Gen.KernelIdeal.Skeleton
import proofs.«110701_j74509092651627_1_alg».proof.Proof.Gen.KernelIdeal.Launch
import proofs.«110701_j74509092651627_1_alg».proof.Proof.Gen.KernelIdeal.Points
import proofs.«110701_j74509092651627_1_alg».proof.Proof.Gen.KernelIdeal.Frame
import proofs.«110701_j74509092651627_1_alg».proof.Proof.Gen.ReferenceIdeal
import proofs.«110701_j74509092651627_1_alg».proof.Proof.Gen.Pre_finite_inputs
import proofs.«110701_j74509092651627_1_alg».proof.Proof.KRun
import proofs.«110701_j74509092651627_1_alg».proof.Proof.KChain
import proofs.«110701_j74509092651627_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs, nothing faults, and its arguments end unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run (Cert.ReferenceIdeal.defs (F := Ideal)) _ _).mono (fun _ h c => (h c).2) (Cert.RefRun.run m ρ)

/-- From memories agreeing on the arguments both programs end at the network `Spec.out` of those arguments. -/
theorem algebraic : Cert.algebraic_KernelIdeal_ReferenceIdeal := by
  intro m ρ m' ρ' _ hagree
  refine ⟨fun c => Cert.KernelIdeal.Gen.W16 m ρ c (Proc.devRef .tc Cert.KernelIdeal.main_v94), Cert.KRun.run m ρ, ?_⟩
  refine (θ_run (Cert.ReferenceIdeal.defs (F := Ideal)) _ _).mono (fun _ h c => ⟨(h c).1.trans ?_, (h c).2⟩)
    (Cert.RefRun.run m' ρ')
  obtain ⟨e0, e1, -, e3, e4, e5, e6, e7, e8⟩ := hagree c
  rw [e0, e1, e3, e4, e5, e6, e7, e8]
  exact (Cert.KChain.out_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
